-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S2048x1024 : Shape := ⟨2, ![2048, 1024]⟩
abbrev S1x2048x1024 : Shape := ⟨3, ![1, 2048, 1024]⟩
abbrev S2x2048x1024 : Shape := ⟨3, ![2, 2048, 1024]⟩
abbrev S2 : Shape := ⟨1, ![2]⟩
abbrev S2x512x1024 : Shape := ⟨3, ![2, 512, 1024]⟩
abbrev S2x512x512 : Shape := ⟨3, ![2, 512, 512]⟩
abbrev S2x512 : Shape := ⟨2, ![2, 512]⟩
abbrev S2x512x1 : Shape := ⟨3, ![2, 512, 1]⟩
abbrev S2x1x512 : Shape := ⟨3, ![2, 1, 512]⟩
abbrev S1 : Shape := ⟨1, ![1]⟩

abbrev nBuf : Space → Nat
  | .hbm => 54
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S8192x1024, .f32⟩
  | .hbm, ⟨17, _⟩ => ⟨S8192x1024, .bf16⟩
  | .hbm, ⟨18, _⟩ => ⟨S8192, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S1x2048x1024, .f32⟩
  | .hbm, ⟨43, _⟩ => ⟨S1x2048x1024, .f32⟩
  | .hbm, ⟨44, _⟩ => ⟨S2x2048x1024, .f32⟩
  | .hbm, ⟨45, _⟩ => ⟨S2x2048x1024, .bf16⟩
  | .hbm, ⟨46, _⟩ => ⟨S2, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S2x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S2, .f32⟩
  | .local _ .vmem, ⟨12, _⟩ => ⟨S2, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg0 : BitVec 32 := BitVec.ofNat 32 (i 0).val
  let c3_i32 : BitVec 32 := 3#32
  let v47 : BitVec 1 := Scalar.cmpi .eq arg0 c3_i32
  let arg1 : BitVec 32 := BitVec.ofNat 32 (i 1).val
  let c3_i32_18 : BitVec 32 := 3#32
  let v48 : BitVec 1 := Scalar.cmpi .eq arg1 c3_i32_18
  let v49 : BitVec 1 := Scalar.andi v47 v48
  let v50 : BitVec 32 := Scalar.extui v49
  let c0_i32_19 : BitVec 32 := 0#32
  let v51 : BitVec 1 := Scalar.cmpi .ne v50 c0_i32_19
  v51

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage1_0 : Fin 2 → Memref sig .tc .vmem S2x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024 : S1024.ShapeCasts S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  iota_S1024x1024_d0_w32 : S1024x1024.Iotas .tc 32 [0]
  iota_S1024x1024_d1_w32 : S1024x1024.Iotas .tc 32 [1]
  reduces_S1024x1024_S1024 : S1024x1024.Reduces [1] S1024
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  reducesTo_S4096_S_d0 : S4096.ReducesTo [0] S_
  slices_S4096x1024_S2048x1024_0_0 : S4096x1024.Slices ![0, 0] S2048x1024
  slices_S4096x1024_S2048x1024_2048_0 : S4096x1024.Slices ![2048, 0] S2048x1024
  bcast_S2048x1024_S1x2048x1024_1_2 : S2048x1024.BroadcastsInDim S1x2048x1024 (![1, 2] : Fin 2 → Fin S1x2048x1024.rank)
  concatenates_S1x2048x1024_S1x2048x1024_S2x2048x1024_d0 : Shape.Concatenates [S1x2048x1024, S1x2048x1024] S2x2048x1024 0
  inb_S2_S2_0 : ∀ a, (![0] : Fin 1 → Nat) a + S2.size a ≤ S2.size a
  h_S2 : 0 < S2.numel
  shapeCasts_S2_S2 : S2.ShapeCasts S2
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  reduces_S2x512x1024_S2x512 : S2x512x1024.Reduces [2] S2x512
  shapeCasts_S2x512_S2x512x1 : S2x512.ShapeCasts S2x512x1
  shapeCasts_S2x512_S2x1x512 : S2x512.ShapeCasts S2x1x512
  broadcasts_S2x512x1_S2x512x512 : S2x512x1.Broadcasts S2x512x512
  broadcasts_S2x1x512_S2x512x512 : S2x1x512.Broadcasts S2x512x512
  iota_S2x512x512_d1_w32 : S2x512x512.Iotas .tc 32 [1]
  iota_S2x512x512_d2_w32 : S2x512x512.Iotas .tc 32 [2]
  reduces_S2x512x512_S2x512 : S2x512x512.Reduces [2] S2x512
  reduces_S2x512_S2 : S2x512.Reduces [1] S2
  slices_S2_S1_0 : S2.Slices ![0] S1
  shapeCasts_S1_S_ : S1.ShapeCasts S_
  slices_S2_S1_1 : S2.Slices ![1] S1
  dot_S1024x1024_S1024x1024_S1024x1024_1_0_0_1_n_n_wf : DotDims.WF S1024x1024 S1024x1024 S1024x1024 [1] [0] [0] [1] [] []
  dot_S2x512x1024_S2x512x1024_S2x512x512_2_2_1_1_0_0_wf : DotDims.WF S2x512x1024 S2x512x1024 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x1024.size a ≤ S2x2048x1024.size a
  hwx1_0 : ∀ i : grid1.Coords, EltTy.bits .bf16 = 32 ∨ (Rect.block (s := S2x2048x1024) S2x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x1024.size a ≤ S2x2048x1024.size a
  hwx1_1 : ∀ i : grid1.Coords, EltTy.bits .bf16 = 32 ∨ (Rect.block (s := S2x2048x1024) S2x512x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2x512x1024_S2x512x1024_S2x512x512_2_2_1_1_0_0 : DotDims S2x512x1024 S2x512x1024 S2x512x512 where
  lhsContracting := [2]
  rhsContracting := [2]
  lhsNonContracting := [1]
  rhsNonContracting := [1]
  lhsBatch := [0]
  rhsBatch := [0]
  wf := dot_S2x512x1024_S2x512x1024_S2x512x512_2_2_1_1_0_0_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v28) S2x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S1024x8192 : Shape := ⟨2, ![1024, 8192]⟩
abbrev S8192x8192 : Shape := ⟨2, ![8192, 8192]⟩
abbrev S8192 : Shape := ⟨1, ![8192]⟩
abbrev S2048x1024 : Shape := ⟨2, ![2048, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1024x2048 : Shape := ⟨2, ![1024, 2048]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1, .f32⟩
  | 14 => ⟨S4096x1024, .f32⟩
  | 15 => ⟨S4096x1024, .f32⟩
  | 16 => ⟨S8192x1024, .f32⟩
  | 17 => ⟨S1024x8192, .f32⟩
  | 18 => ⟨S8192x8192, .f32⟩
  | 19 => ⟨S4096x1024, .f32⟩
  | 20 => ⟨S_, .f32⟩
  | 21 => ⟨S4096, .f32⟩
  | 22 => ⟨S8192, .f32⟩
  | 23 => ⟨S8192x8192, .i32⟩
  | 24 => ⟨S8192x8192, .i32⟩
  | 25 => ⟨S_, .i32⟩
  | 26 => ⟨S8192x8192, .i32⟩
  | 27 => ⟨S8192x8192, .i32⟩
  | 28 => ⟨S8192x8192, .i1⟩
  | 29 => ⟨S8192x8192, .f32⟩
  | 30 => ⟨S_, .f32⟩
  | 31 => ⟨S8192x8192, .f32⟩
  | 32 => ⟨S8192x8192, .f32⟩
  | 33 => ⟨S_, .f32⟩
  | 34 => ⟨S8192x8192, .f32⟩
  | 35 => ⟨S8192x8192, .f32⟩
  | 36 => ⟨S8192x8192, .f32⟩
  | 37 => ⟨S8192x8192, .f32⟩
  | 38 => ⟨S_, .f32⟩
  | 39 => ⟨S8192, .f32⟩
  | 40 => ⟨S8192, .f32⟩
  | 41 => ⟨S_, .f32⟩
  | 42 => ⟨S8192, .f32⟩
  | 43 => ⟨S8192, .f32⟩
  | 44 => ⟨S8192, .f32⟩
  | 45 => ⟨S_, .f32⟩
  | 46 => ⟨S_, .f32⟩
  | 47 => ⟨S_, .f32⟩
  | 48 => ⟨S_, .f32⟩
  | 49 => ⟨S4096x1024, .f32⟩
  | 50 => ⟨S4096x1024, .f32⟩
  | 51 => ⟨S_, .f32⟩
  | 52 => ⟨S4096, .f32⟩
  | 53 => ⟨S_, .f32⟩
  | 54 => ⟨S_, .f32⟩
  | 55 => ⟨S_, .f32⟩
  | 56 => ⟨S_, .f32⟩
  | 57 => ⟨S2048x1024, .f32⟩
  | 58 => ⟨S2048x1024, .f32⟩
  | 59 => ⟨S_, .f32⟩
  | 60 => ⟨S2048, .f32⟩
  | 61 => ⟨S2048x1, .f32⟩
  | 62 => ⟨S1x2048, .f32⟩
  | 63 => ⟨S2048x2048, .f32⟩
  | 64 => ⟨S2048x2048, .f32⟩
  | 65 => ⟨S2048x2048, .f32⟩
  | 66 => ⟨S1024x2048, .f32⟩
  | 67 => ⟨S2048x2048, .f32⟩
  | 68 => ⟨S_, .f32⟩
  | 69 => ⟨S2048x2048, .f32⟩
  | 70 => ⟨S2048x2048, .f32⟩
  | 71 => ⟨S2048x2048, .f32⟩
  | 72 => ⟨S_, .f32⟩
  | 73 => ⟨S2048x2048, .f32⟩
  | 74 => ⟨S2048x2048, .f32⟩
  | 75 => ⟨S_, .i1⟩
  | 76 => ⟨S2048x2048, .i1⟩
  | 77 => ⟨S2048x2048, .i32⟩
  | 78 => ⟨S_, .i32⟩
  | 79 => ⟨S2048x2048, .i32⟩
  | 80 => ⟨S2048x2048, .i32⟩
  | 81 => ⟨S2048x2048, .i32⟩
  | 82 => ⟨S2048x2048, .i1⟩
  | 83 => ⟨S_, .i1⟩
  | 84 => ⟨S2048x2048, .i1⟩
  | 85 => ⟨S2048x2048, .i1⟩
  | 86 => ⟨S_, .f32⟩
  | 87 => ⟨S2048x2048, .f32⟩
  | 88 => ⟨S2048x2048, .f32⟩
  | 89 => ⟨S2048x2048, .f32⟩
  | 90 => ⟨S_, .f32⟩
  | 91 => ⟨S_, .f32⟩
  | 92 => ⟨S2048x2048, .f32⟩
  | 93 => ⟨S2048x2048, .f32⟩
  | 94 => ⟨S_, .f32⟩
  | 95 => ⟨S_, .f32⟩
  | 96 => ⟨S_, .f32⟩
  | 97 => ⟨S_, .f32⟩
  | 98 => ⟨S_, .f32⟩
  | 99 => ⟨S2048x1024, .f32⟩
  | 100 => ⟨S2048x1024, .f32⟩
  | 101 => ⟨S_, .f32⟩
  | 102 => ⟨S2048, .f32⟩
  | 103 => ⟨S2048x1, .f32⟩
  | 104 => ⟨S1x2048, .f32⟩
  | 105 => ⟨S2048x2048, .f32⟩
  | 106 => ⟨S2048x2048, .f32⟩
  | 107 => ⟨S2048x2048, .f32⟩
  | 108 => ⟨S1024x2048, .f32⟩
  | 109 => ⟨S2048x2048, .f32⟩
  | 110 => ⟨S_, .f32⟩
  | 111 => ⟨S2048x2048, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S_, .i1⟩
  | 118 => ⟨S2048x2048, .i1⟩
  | 119 => ⟨S2048x2048, .i32⟩
  | 120 => ⟨S_, .i32⟩
  | 121 => ⟨S2048x2048, .i32⟩
  | 122 => ⟨S2048x2048, .i32⟩
  | 123 => ⟨S2048x2048, .i32⟩
  | 124 => ⟨S2048x2048, .i1⟩
  | 125 => ⟨S_, .i1⟩
  | 126 => ⟨S2048x2048, .i1⟩
  | 127 => ⟨S2048x2048, .i1⟩
  | _ => ⟨S4096x1024, .f32⟩

abbrev hbmTy0_1 (i : Nat) : BufTy := match i % 128 with
  | 0 => ⟨S_, .f32⟩
  | 1 => ⟨S2048x2048, .f32⟩
  | 2 => ⟨S2048x2048, .f32⟩
  | 3 => ⟨S2048x2048, .f32⟩
  | 4 => ⟨S_, .f32⟩
  | 5 => ⟨S_, .f32⟩
  | 6 => ⟨S2048x2048, .f32⟩
  | 7 => ⟨S2048x2048, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_cst_16 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_17 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_19 : Ref sig .tc := ⟨.hbm, 114, rfl⟩
abbrev main_v73 : Ref sig .tc := ⟨.hbm, 115, rfl⟩
abbrev main_v74 : Ref sig .tc := ⟨.hbm, 116, rfl⟩
abbrev main_c_20 : Ref sig .tc := ⟨.hbm, 117, rfl⟩
abbrev main_v75 : Ref sig .tc := ⟨.hbm, 118, rfl⟩
abbrev main_call4_v0 : Ref sig .tc := ⟨.hbm, 119, rfl⟩
abbrev main_call4_c : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_c_0 : Ref sig .tc := ⟨.hbm, 125, rfl⟩
abbrev main_call4_v5 : Ref sig .tc := ⟨.hbm, 126, rfl⟩
abbrev main_v76 : Ref sig .tc := ⟨.hbm, 127, rfl⟩
abbrev main_cst_21 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_22 : Ref sig .tc := ⟨.hbm, 132, rfl⟩
abbrev main_call5_v0 : Ref sig .tc := ⟨.hbm, 133, rfl⟩
abbrev main_call5_v1 : Ref sig .tc := ⟨.hbm, 134, rfl⟩
abbrev main_v80 : Ref sig .tc := ⟨.hbm, 135, rfl⟩
abbrev main_cst_23 : Ref sig .tc := ⟨.hbm, 136, rfl⟩
abbrev main_v81 : Ref sig .tc := ⟨.hbm, 137, rfl⟩
abbrev main_cst_24 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_25 : Ref sig .tc := ⟨.hbm, 142, rfl⟩
abbrev main_v85 : Ref sig .tc := ⟨.hbm, 143, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  transposes_S8192x1024_S1024x8192_1_0 : S8192x1024.Transposes [1, 0] S1024x8192
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S4096_S_d0 : S4096.ReducesTo [0] S_
  slices_S4096x1024_S2048x1024_0_0 : S4096x1024.Slices ![0, 0] S2048x1024
  reducesTo_S2048x1024_S2048_d1 : S2048x1024.ReducesTo [1] S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x1024_S1024x2048_1_0 : S2048x1024.Transposes [1, 0] S1024x2048
  bcast_S_S2048x2048 : S_.BroadcastsInDim S2048x2048 (![] : Fin 0 → Fin S2048x2048.rank)
  reducesTo_S2048x2048_S_d0_1 : S2048x2048.ReducesTo [0, 1] S_
  slices_S4096x1024_S2048x1024_2048_0 : S4096x1024.Slices ![2048, 0] S2048x1024
  dot_S8192x1024_S1024x8192_S8192x8192_1_0_0_1_n_n_wf : DotDims.WF S8192x1024 S1024x8192 S8192x8192 [1] [0] [0] [1] [] []
  dot_S2048x1024_S1024x2048_S2048x2048_1_0_0_1_n_n_wf : DotDims.WF S2048x1024 S1024x2048 S2048x2048 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf

class Facts : Prop extends Facts₀ where

variable [Facts]
-- ==== Proof.Entry0Bits.lean ====
import proofs.«109708_j47038481826438_1_alg».proof.Proof.Gen.Kernel.Launch
import Idealize.ShloMosaic.Lib.Pipeline.Frame
import Idealize.ShloMosaic.Lib.Pipeline.Regions
import Idealize.ShloMosaic.Rules.PointsTo

/-! Region 0 reads ONE array through its two input windows and writes another through its output window. At the region's
    entry the buffer behind the read array, held whole, is split into two halves, one per input window; at its exit the
    halves, which still hold the entry contents (an input array is never written), are joined again. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-- The two buffers behind region 0's three windows. -/
theorem arrImage0 : (Finset.univ.image (Pipeline.arrRef spec0) : Finset (Ref sig .tc)) = {main_v7, main_v8} := by decide

variable (c : Dev nD) (dat : Dat τ (Elt F) Unit ℕ (Pipeline.UD sig nD τ) ℕ cfg0 c)

/-- The windows' shares: an input's is the proof data's, the output's the full share. -/
theorem share0_0 (hq0 : dat.q 0 = fullShare.left) : dat.share 0 = fullShare.left := by
  unfold Pipeline.Dat.share; rw [if_neg (by decide), hq0]
theorem share0_1 (hq1 : dat.q 1 = fullShare.right) : dat.share 1 = fullShare.right := by
  unfold Pipeline.Dat.share; rw [if_neg (by decide), hq1]
theorem share0_2 : dat.share 2 = fullShare := by
  unfold Pipeline.Dat.share; rw [if_pos (by decide)]

/-- The pipeline's arrays, window by window, over the two buffers. -/
theorem arrays0_eq (hq0 : dat.q 0 = fullShare.left) (hq1 : dat.q 1 = fullShare.right)
    (Fa : (w : Fin cfg0.W) → Buf (Elt F) ((cfg0.win w).arr.view.loc (c.tc : Thread nD τ))) :
    (dat.arrays Fa : sProp 𝕄)
      = iprop((((c.tc : Thread nD τ).loc main_v7) ↦{fullShare.left} Fa 0) ∗ (((c.tc : Thread nD τ).loc main_v7) ↦{fullShare.right} Fa 1)
          ∗ (((c.tc : Thread nD τ).loc main_v8) ↦{fullShare} Fa 2)) := by
  unfold Pipeline.Dat.arrays
  rw [bigSep_W0, share0_0 c dat hq0, share0_1 c dat hq1, share0_2 c dat,
    (arr_whole0 0).set_eq_univ, (arr_whole0 2).set_eq_univ]

/-- The buffers behind the arrays, each by name. -/
theorem arrBufs0_eq (V : (b : Ref sig .tc) → Buf (Elt F) ((c.tc : Thread nD τ).loc b)) :
    (Pipeline.arrBufs spec0 c V : sProp 𝕄)
      = iprop((((c.tc : Thread nD τ).loc main_v7) ↦{fullShare} V main_v7) ∗ (((c.tc : Thread nD τ).loc main_v8) ↦{fullShare} V main_v8)) := by
  unfold Pipeline.arrBufs
  rw [arrImage0, bigSep_insert (by decide), bigSep_singleton]
  rfl

/-- ENTRY: the two buffers held whole at the entry contents make the pipeline's arrays at their entry contents: the read
    array's buffer is split into its two halves, one per input window. -/
theorem split0 (V : (b : Ref sig .tc) → Buf (Elt F) ((c.tc : Thread nD τ).loc b))
    (hA : ∀ w, dat.A w = V (Pipeline.arrRef spec0 w)) (hq0 : dat.q 0 = fullShare.left) (hq1 : dat.q 1 = fullShare.right) :
    (Pipeline.arrBufs spec0 c V : sProp 𝕄) ⊢ dat.arrays (dat.arrAt · 0) := by
  rw [arrays0_eq c dat hq0 hq1, arrBufs0_eq c V]
  show _ ⊢ iprop((_ ↦{fullShare.left} dat.A 0) ∗ (_ ↦{fullShare.right} dat.A 1) ∗ (_ ↦{fullShare} dat.A 2))
  rw [hA 0, hA 1, hA 2]
  have hsp : ((((c.tc : Thread nD τ).loc main_v7) ↦{fullShare} V main_v7) : sProp 𝕄)
      ⊢ iprop((((c.tc : Thread nD τ).loc main_v7) ↦{fullShare.left} V main_v7) ∗ (((c.tc : Thread nD τ).loc main_v7) ↦{fullShare.right} V main_v7)) :=
    (pointsTo_share (PosShare.mem_left_op_right fullShare)).1
  iintro ⟨H7, H8⟩
  ihave H := hsp $$ H7
  icases H with ⟨Hl, Hr⟩
  isplitl [Hl]; · iexact Hl
  isplitl [Hr]; · iexact Hr
  iexact H8

/-- EXIT: the arrays after the last write-back make the two buffers whole again: the halves of the read array, still at
    its entry contents, are joined; the written array is at what the write-backs left. -/
theorem join0 (V V' : (b : Ref sig .tc) → Buf (Elt F) ((c.tc : Thread nD τ).loc b))
    (hA : ∀ w, dat.A w = V (Pipeline.arrRef spec0 w)) (hq0 : dat.q 0 = fullShare.left) (hq1 : dat.q 1 = fullShare.right)
    (hin : V' main_v7 = V main_v7) (hout : V' main_v8 = dat.arrAt 2 cfg0.N) :
    (dat.arrays (dat.arrAt · cfg0.N) : sProp 𝕄) ⊢ Pipeline.arrBufs spec0 c V' := by
  rw [arrays0_eq c dat hq0 hq1, arrBufs0_eq c V', hin, hout, dat.arrAt_in 0 rfl, dat.arrAt_in 1 rfl, hA 0, hA 1]
  have hjn : iprop((((c.tc : Thread nD τ).loc main_v7) ↦{fullShare.left} V main_v7) ∗ (((c.tc : Thread nD τ).loc main_v7) ↦{fullShare.right} V main_v7))
      ⊢ ((((c.tc : Thread nD τ).loc main_v7) ↦{fullShare} V main_v7) : sProp 𝕄) :=
    (pointsTo_share (PosShare.mem_left_op_right fullShare)).2
  iintro ⟨Hl, Hr, H8⟩
  isplitl [Hl Hr]
  · iapply hjn
    isplitl [Hl]; · iexact Hl
    iexact Hr
  iexact H8

end Cert.Kernel.Hand

end
-- ==== Proof.Entry1Bits.lean ====
import proofs.«109708_j47038481826438_1_alg».proof.Proof.Gen.Kernel.Launch
import Idealize.ShloMosaic.Lib.Pipeline.Frame
import Idealize.ShloMosaic.Lib.Pipeline.Regions
import Idealize.ShloMosaic.Rules.PointsTo

/-! Region 1 reads ONE array through its two input windows and writes another through its output window. At the region's
    entry the buffer behind the read array, held whole, is split into two halves, one per input window; at its exit the
    halves, which still hold the entry contents (an input array is never written), are joined again. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-- The two buffers behind region 1's three windows. -/
theorem arrImage1 : (Finset.univ.image (Pipeline.arrRef spec1) : Finset (Ref sig .tc)) = {main_v28, main_v29} := by decide

variable (c : Dev nD) (dat : Dat τ (Elt F) Unit ℕ (Pipeline.UD sig nD τ) ℕ cfg1 c)

/-- The windows' shares: an input's is the proof data's, the output's the full share. -/
theorem share1_0 (hq0 : dat.q 0 = fullShare.left) : dat.share 0 = fullShare.left := by
  unfold Pipeline.Dat.share; rw [if_neg (by decide), hq0]
theorem share1_1 (hq1 : dat.q 1 = fullShare.right) : dat.share 1 = fullShare.right := by
  unfold Pipeline.Dat.share; rw [if_neg (by decide), hq1]
theorem share1_2 : dat.share 2 = fullShare := by
  unfold Pipeline.Dat.share; rw [if_pos (by decide)]

/-- The pipeline's arrays, window by window, over the two buffers. -/
theorem arrays1_eq (hq0 : dat.q 0 = fullShare.left) (hq1 : dat.q 1 = fullShare.right)
    (Fa : (w : Fin cfg1.W) → Buf (Elt F) ((cfg1.win w).arr.view.loc (c.tc : Thread nD τ))) :
    (dat.arrays Fa : sProp 𝕄)
      = iprop((((c.tc : Thread nD τ).loc main_v28) ↦{fullShare.left} Fa 0) ∗ (((c.tc : Thread nD τ).loc main_v28) ↦{fullShare.right} Fa 1)
          ∗ (((c.tc : Thread nD τ).loc main_v29) ↦{fullShare} Fa 2)) := by
  unfold Pipeline.Dat.arrays
  rw [bigSep_W1, share1_0 c dat hq0, share1_1 c dat hq1, share1_2 c dat,
    (arr_whole1 0).set_eq_univ, (arr_whole1 2).set_eq_univ]

/-- The buffers behind the arrays, each by name. -/
theorem arrBufs1_eq (V : (b : Ref sig .tc) → Buf (Elt F) ((c.tc : Thread nD τ).loc b)) :
    (Pipeline.arrBufs spec1 c V : sProp 𝕄)
      = iprop((((c.tc : Thread nD τ).loc main_v28) ↦{fullShare} V main_v28) ∗ (((c.tc : Thread nD τ).loc main_v29) ↦{fullShare} V main_v29)) := by
  unfold Pipeline.arrBufs
  rw [arrImage1, bigSep_insert (by decide), bigSep_singleton]
  rfl

/-- ENTRY: the two buffers held whole at the entry contents make the pipeline's arrays at their entry contents: the read
    array's buffer is split into its two halves, one per input window. -/
theorem split1 (V : (b : Ref sig .tc) → Buf (Elt F) ((c.tc : Thread nD τ).loc b))
    (hA : ∀ w, dat.A w = V (Pipeline.arrRef spec1 w)) (hq0 : dat.q 0 = fullShare.left) (hq1 : dat.q 1 = fullShare.right) :
    (Pipeline.arrBufs spec1 c V : sProp 𝕄) ⊢ dat.arrays (dat.arrAt · 0) := by
  rw [arrays1_eq c dat hq0 hq1, arrBufs1_eq c V]
  show _ ⊢ iprop((_ ↦{fullShare.left} dat.A 0) ∗ (_ ↦{fullShare.right} dat.A 1) ∗ (_ ↦{fullShare} dat.A 2))
  rw [hA 0, hA 1, hA 2]
  have hsp : ((((c.tc : Thread nD τ).loc main_v28) ↦{fullShare} V main_v28) : sProp 𝕄)
      ⊢ iprop((((c.tc : Thread nD τ).loc main_v28) ↦{fullShare.left} V main_v28) ∗ (((c.tc : Thread nD τ).loc main_v28) ↦{fullShare.right} V main_v28)) :=
    (pointsTo_share (PosShare.mem_left_op_right fullShare)).1
  iintro ⟨H7, H8⟩
  ihave H := hsp $$ H7
  icases H with ⟨Hl, Hr⟩
  isplitl [Hl]; · iexact Hl
  isplitl [Hr]; · iexact Hr
  iexact H8

/-- EXIT: the arrays after the last write-back make the two buffers whole again: the halves of the read array, still at
    its entry contents, are joined; the written array is at what the write-backs left. -/
theorem join1 (V V' : (b : Ref sig .tc) → Buf (Elt F) ((c.tc : Thread nD τ).loc b))
    (hA : ∀ w, dat.A w = V (Pipeline.arrRef spec1 w)) (hq0 : dat.q 0 = fullShare.left) (hq1 : dat.q 1 = fullShare.right)
    (hin : V' main_v28 = V main_v28) (hout : V' main_v29 = dat.arrAt 2 cfg1.N) :
    (dat.arrays (dat.arrAt · cfg1.N) : sProp 𝕄) ⊢ Pipeline.arrBufs spec1 c V' := by
  rw [arrays1_eq c dat hq0 hq1, arrBufs1_eq c V', hin, hout, dat.arrAt_in 0 rfl, dat.arrAt_in 1 rfl, hA 0, hA 1]
  have hjn : iprop((((c.tc : Thread nD τ).loc main_v28) ↦{fullShare.left} V main_v28) ∗ (((c.tc : Thread nD τ).loc main_v28) ↦{fullShare.right} V main_v28))
      ⊢ ((((c.tc : Thread nD τ).loc main_v28) ↦{fullShare} V main_v28) : sProp 𝕄) :=
    (pointsTo_share (PosShare.mem_left_op_right fullShare)).2
  iintro ⟨Hl, Hr, H8⟩
  isplitl [Hl Hr]
  · iapply hjn
    isplitl [Hl]; · iexact Hl
    iexact Hr
  iexact H8

end Cert.Kernel.Hand

end
-- ==== Proof.RecordsBits.lean ====
import proofs.«109708_j47038481826438_1_alg».proof.Proof.Gen.Kernel.Regions
import proofs.«109708_j47038481826438_1_alg».proof.Proof.Entry0Bits
import proofs.«109708_j47038481826438_1_alg».proof.Proof.Entry1Bits
import Idealize.ShloMosaic.Lib.Pipeline.FrameBody
import Idealize.ShloMosaic.Lib.Pipeline.RegionsLoop
import Idealize.ShloMosaic.Lib.Pipeline.FrameSuffix

/-! The two kernel regions as segments of @main, over any proof data with the facts stated below. -/

set_option pp.maxSteps 4000
set_option pp.deepTerms false

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- No core owes another anything: no level is assigned. -/
abbrev L0 : GSem nD τ sig → Finset Unit := fun _ => ∅
abbrev lv0 : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

/-! ## Region 0 as a segment of @main -/

/-- What is assumed of region 0's proof data on every core. -/
structure Facts0 (outs : Outs (F := F)) (pdats : (p : Fin 2) → (c : Dev nD) → Dat τ (Elt F) Unit ℕ (Pipeline.UD sig nD τ) ℕ (cfgs p) c) : Prop where
  hA : ∀ c w, (pdats 0 c).A w = V4 m c (Pipeline.arrRef spec0 w)
  hq0 : ∀ c, (pdats 0 c).q 0 = fullShare.left
  hq1 : ∀ c, (pdats 0 c).q 1 = fullShare.right
  howed : ∀ c t, (pdats 0 c).owed t = 0
  hbody : ∀ c, Pipeline.BodyObligation (pdats 0 c) (defs₀ (F := F)) Variants.none () Set.univ
  hin : ∀ c, (Pipeline.ΦA spec0 c : sProp 𝕄) ⊢ (pdats 0 c).Φ 0
  hout : ∀ c, (pdats 0 c).Φ (Fin.last cfg0.N) ⊢ (Pipeline.ΦA spec0 c : sProp 𝕄)
  houts : ∀ c, outs 5 main_v8 c = (pdats 0 c).arrAt 2 cfg0.N
  hrec : ∀ c, (pdats 0 c).recorded 0 = Set.univ

set_option backward.isDefEq.respectTransparency.types false in
/-- REGION 0 over the thread state "every unscoped buffer at the boundary's contents, the generator register at some state,
    nothing owed": entered from the contents before it, left at those contents with the written array at what the
    write-backs left. The read array's buffer is split between the two input windows at the entry and joined at the exit;
    the generator register goes into the invariant and comes back; the kernel has no semaphore of its own. -/
def reg0 (outs : Outs (F := F)) (pdats : (p : Fin 2) → (c : Dev nD) → Dat τ (Elt F) Unit ℕ (Pipeline.UD sig nD τ) ℕ (cfgs p) c)
    (h : Facts0 m outs pdats) : RegionSeg (pcfgs (F := F)) adm pdats () defs₀ Variants.none L0 lv0 0 where
  win := winFacts₀0
  block_pos := block_pos0
  stage_whole := stage_whole0
  K := PEmpty
  osem k := k.elim
  ho := Pipeline.OwnSemFacts.none _
  hbody c := (h.hbody c).loose
  hwaits := Pipeline.hwaits_of_owed_zero _ _ _ _ L0 lv0 0 h.howed
  pre c := iprop(StableHlo.held (c : Thread nD τ) (Pipeline.ucRefs τ sig) (V4 m c) ∗ Rst c)
  post c := iprop(StableHlo.held (c : Thread nD τ) (Pipeline.ucRefs τ sig) (V5 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (fun b => V4 m c b)
  hentry c := by
    rw [Pipeline.ownSems0_none]
    have hsplit := split0 c (pdats 0 c) (fun b => V4 m c b) (h.hA c) (h.hq0 c) (h.hq1 c)
    have hub := Pipeline.unscopedBufs_split₀ (Ix := Unit) (Name := ℕ) (U := Pipeline.UD sig nD τ) (Lvl := ℕ) (Val := Elt F) cfgs 0 winFacts₀0.arr_unscoped c (fun b => V4 m c b)
    rw [Pipeline.unscopedBufs_held] at hub
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c 0]
      icases HO with ⟨%W, HO⟩; iexists W; isplitr; · ipureintro; exact fun _ _ => Or.inl (by rw [h.hrec c]; trivial)
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    rw [Pipeline.ownSems0_none]
    refine (h.hout c).trans ?_
    unfold Pipeline.ΦA
    iintro ⟨Hr, Hp⟩
    isplitl [Hp]; · iexact Hp
    isplitr; · iempintro
    iexact Hr
  hexit c := by
    have hjoin := join0 c (pdats 0 c) (fun b => V4 m c b) (fun b => V5 m outs c b) (h.hA c) (h.hq0 c) (h.hq1 c)
      (V5_of m outs c main_v7 (by decide)) ((show V5 m outs c main_v8 = outs 5 main_v8 c from Function.update_self ..).trans (h.houts c))
    have hub := Pipeline.unscopedBufs_split₀ (Ix := Unit) (Name := ℕ) (U := Pipeline.UD sig nD τ) (Lvl := ℕ) (Val := Elt F) cfgs 0 winFacts₀0.arr_unscoped c (fun b => V5 m outs c b)
    rw [Pipeline.unscopedBufs_held] at hub
    have hrest : (Pipeline.unscopedRest (Ix := Unit) (Name := ℕ) (U := Pipeline.UD sig nD τ) (Lvl := ℕ) (cfgs 0).spec c (fun b => V5 m outs c b) : sProp 𝕄)
        = Pipeline.unscopedRest spec0 c (fun b => V4 m c b) := by
      unfold Pipeline.unscopedRest
      refine bigSep_congr fun b hb => ?_
      have hb' : b ∉ (Finset.univ.image (Pipeline.arrRef spec0) : Finset (Ref sig .tc)) := (Finset.mem_sdiff.mp hb).2
      rw [arrImage0] at hb'
      dsimp only
      rw [V5_of m outs c b (by intro hm; exact hb' (by rw [List.mem_singleton.mp hm]; decide))]
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    rw [h.howed c _]
    icases HO with ⟨%W, -, HO⟩; iexists W; iexact HO

/-! ## Region 1 as a segment of @main -/

/-- What is assumed of region 1's proof data on every core. -/
structure Facts1 (outs : Outs (F := F)) (pdats : (p : Fin 2) → (c : Dev nD) → Dat τ (Elt F) Unit ℕ (Pipeline.UD sig nD τ) ℕ (cfgs p) c) : Prop where
  hA : ∀ c w, (pdats 1 c).A w = V6 m outs c (Pipeline.arrRef spec1 w)
  hq0 : ∀ c, (pdats 1 c).q 0 = fullShare.left
  hq1 : ∀ c, (pdats 1 c).q 1 = fullShare.right
  howed : ∀ c t, (pdats 1 c).owed t = 0
  hbody : ∀ c, Pipeline.BodyObligation (pdats 1 c) (defs₀ (F := F)) Variants.none () Set.univ
  hin : ∀ c, (Pipeline.ΦA spec1 c : sProp 𝕄) ⊢ (pdats 1 c).Φ 0
  hout : ∀ c, (pdats 1 c).Φ (Fin.last cfg1.N) ⊢ (Pipeline.ΦA spec1 c : sProp 𝕄)
  houts : ∀ c, outs 7 main_v29 c = (pdats 1 c).arrAt 2 cfg1.N
  hrec : ∀ c, (pdats 1 c).recorded 0 = Set.univ

set_option backward.isDefEq.respectTransparency.types false in
/-- REGION 1 over the thread state "every unscoped buffer at the boundary's contents, the generator register at some state,
    nothing owed": entered from the contents before it, left at those contents with the written array at what the
    write-backs left. The read array's buffer is split between the two input windows at the entry and joined at the exit;
    the generator register goes into the invariant and comes back; the kernel has no semaphore of its own. -/
def reg1 (outs : Outs (F := F)) (pdats : (p : Fin 2) → (c : Dev nD) → Dat τ (Elt F) Unit ℕ (Pipeline.UD sig nD τ) ℕ (cfgs p) c)
    (h : Facts1 m outs pdats) : RegionSeg (pcfgs (F := F)) adm pdats () defs₀ Variants.none L0 lv0 1 where
  win := winFacts₀1
  block_pos := block_pos1
  stage_whole := stage_whole1
  K := PEmpty
  osem k := k.elim
  ho := Pipeline.OwnSemFacts.none _
  hbody c := (h.hbody c).loose
  hwaits := Pipeline.hwaits_of_owed_zero _ _ _ _ L0 lv0 1 h.howed
  pre c := iprop(StableHlo.held (c : Thread nD τ) (Pipeline.ucRefs τ sig) (V6 m outs c) ∗ Rst c)
  post c := iprop(StableHlo.held (c : Thread nD τ) (Pipeline.ucRefs τ sig) (V7 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (fun b => V6 m outs c b)
  hentry c := by
    rw [Pipeline.ownSems0_none]
    have hsplit := split1 c (pdats 1 c) (fun b => V6 m outs c b) (h.hA c) (h.hq0 c) (h.hq1 c)
    have hub := Pipeline.unscopedBufs_split₀ (Ix := Unit) (Name := ℕ) (U := Pipeline.UD sig nD τ) (Lvl := ℕ) (Val := Elt F) cfgs 1 winFacts₀1.arr_unscoped c (fun b => V6 m outs c b)
    rw [Pipeline.unscopedBufs_held] at hub
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c 0]
      icases HO with ⟨%W, HO⟩; iexists W; isplitr; · ipureintro; exact fun _ _ => Or.inl (by rw [h.hrec c]; trivial)
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    rw [Pipeline.ownSems0_none]
    refine (h.hout c).trans ?_
    unfold Pipeline.ΦA
    iintro ⟨Hr, Hp⟩
    isplitl [Hp]; · iexact Hp
    isplitr; · iempintro
    iexact Hr
  hexit c := by
    have hjoin := join1 c (pdats 1 c) (fun b => V6 m outs c b) (fun b => V7 m outs c b) (h.hA c) (h.hq0 c) (h.hq1 c)
      (V7_of m outs c main_v28 (by decide)) ((show V7 m outs c main_v29 = outs 7 main_v29 c from Function.update_self ..).trans (h.houts c))
    have hub := Pipeline.unscopedBufs_split₀ (Ix := Unit) (Name := ℕ) (U := Pipeline.UD sig nD τ) (Lvl := ℕ) (Val := Elt F) cfgs 1 winFacts₀1.arr_unscoped c (fun b => V7 m outs c b)
    rw [Pipeline.unscopedBufs_held] at hub
    have hrest : (Pipeline.unscopedRest (Ix := Unit) (Name := ℕ) (U := Pipeline.UD sig nD τ) (Lvl := ℕ) (cfgs 1).spec c (fun b => V7 m outs c b) : sProp 𝕄)
        = Pipeline.unscopedRest spec1 c (fun b => V6 m outs c b) := by
      unfold Pipeline.unscopedRest
      refine bigSep_congr fun b hb => ?_
      have hb' : b ∉ (Finset.univ.image (Pipeline.arrRef spec1) : Finset (Ref sig .tc)) := (Finset.mem_sdiff.mp hb).2
      rw [arrImage1] at hb'
      dsimp only
      rw [V7_of m outs c b (by intro hm; exact hb' (by rw [List.mem_singleton.mp hm]; decide))]
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    rw [h.howed c _]
    icases HO with ⟨%W, -, HO⟩; iexists W; iexact HO

/-! ## The run of @main -/

/-- The last thread state without the `owes`: every unscoped buffer at the last boundary's contents, the generator
    register at some state. -/
abbrev Tlast (outs : Outs (F := F)) (c : Dev nD) : sProp 𝕄 :=
  iprop(StableHlo.held (c : Thread nD τ) (Pipeline.ucRefs τ sig) (V8 m outs c) ∗ ∃ r, prngReg c r)

/-- The last link of the chain: the generator register moves beside the buffers, the `owes` stays apart. -/
theorem last_link (outs : Outs (F := F)) (c : Dev nD) :
    (iprop(StableHlo.held (c : Thread nD τ) (Pipeline.ucRefs τ sig) (V8 m outs c) ∗ Rst c) : sProp 𝕄)
      ⊢ iprop(Tlast m outs c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- From any memory with zero counters, every weakly fair execution of @main terminates, nothing faulting, and every
    final memory holds each unscoped buffer at the last valuation `V8` — the launch contents folded through the host
    stretches, with each region's written array at what its write-backs left (`outs`): the library's launch of a list of
    segments over the eight items of @main, the two regions' records those of this module. -/
theorem run_all (ρ : Dev nD → PrngReg) (outs : Outs (F := F))
    (pdats : (p : Fin 2) → (c : Dev nD) → Dat τ (Elt F) Unit ℕ (Pipeline.UD sig nD τ) ℕ (cfgs p) c)
    (h0 : Facts0 m outs pdats) (h1 : Facts1 m outs pdats) :
    θ_run defs (onTc (τ := τ) (main (F := F))) ⟨m, fun _ => 0, ρ⟩ (fun r => ∀ c : Dev nD, ∀ b ∈ Pipeline.ucRefs τ sig,
      r.2.mem (((c : Thread nD τ)).1, b) = V8 m outs c b) :=
  Pipeline.θ_run_regions_kit_dev (pcfgs (F := F)) adm pdats () cellOf_inj embL defs₀ Variants.none L0 lv0 m ρ main
    (segs m outs Variants.none L0 lv0 (fun _ c => Rst c) () pdats (reg0 m outs pdats h0) (reg1 m outs pdats h1))
    (fun c Q => by
      rw [show main (F := F) c = Seg.run (segs m outs Variants.none L0 lv0 (fun _ c => Rst c) () pdats (reg0 m outs pdats h0) (reg1 m outs pdats h1) c)
        from (main_chain c).trans (by chain_rfl)])
    (fun c => by simp only [segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tlast m outs)
    (hch := fun c => ⟨.rfl, .rfl, .rfl, .rfl, .rfl, .rfl, .rfl, .rfl, last_link m outs c⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m outs c b)
    (hfin := fun c s' => by
      iintro ⟨⟨Hh, -⟩, HSI⟩
      unfold StableHlo.held
      imodintro
      iapply (pointsTo_read_all (Pipeline.ucRefs τ sig) (fun b => (((c : Thread nD τ)).1, b)) (V8 m outs c) s')
      isplitl [Hh] <;> iassumption)
    (hQ := fun s h c => h c)

end Cert.Kernel.Hand

end
-- ==== Proof.Frame0BitsRunsBase.lean ====
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first region's kernel body: what its two branch conditions are at every grid point, where its
    output window is idle, the names of its staging and scratch memrefs, the region invariant with the
    accumulator spelled as a memref, and the blocks of the two input windows. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions -/

/-- The column-block coordinate is 0: the accumulator is reset before it is added to. -/
abbrev cond0_0 (i : grid0.Coords) : Prop := (Scalar.cmpi .ne (Scalar.extui (Scalar.cmpi .eq (BitVec.ofNat 32 (i 1).val) 0#32)) 0#32) = 1#1
/-- It holds exactly at the first point of every row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The column-block coordinate is the last one: the accumulator is copied to the output block. -/
abbrev cond0_1 (i : grid0.Coords) : Prop := k0_cond2 i = 1#1
/-- It holds exactly at the last point of every row of the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a row the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a row the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024 .f32 := (Memref.whole cc0_stg2_0 : Memref sig .tc .vmem S1024 .f32).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1024 .f32 := Memref.whole cc0_scratch0
/-- The accumulator as a view: what it holds is stated through it. -/
abbrev VS0 : View sig .tc .vmem S1024 .f32 := scM0.view

/-- The scoped buffers of the core that belong to the other region, each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; simp only [scM0, owns_whole]; try rfl

/-- The zero offsets of the whole-vector and whole-matrix rectangles, as constant functions. -/
theorem hz1 : (![0] : Fin 1 → Nat) = fun _ => 0 := funext fun a => by fin_cases a <;> rfl
theorem hz2 : (![0, 0] : Fin 2 → Nat) = fun _ => 0 := funext fun a => by fin_cases a <;> rfl

/-! ## The input windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the region-entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Hand0

end
-- ==== Proof.Frame0BitsRunsA.lean ====
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import proofs.«109708_j47038481826438_1_alg».proof.Proof.Frame0BitsRunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at the first grid point of a row: the accumulator is reset to the zero vector, then
    added to; it is not copied out. Whatever the accumulator held before does not matter. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the accumulator in this case, with the proof that from whole
    memrefs — the inputs at `x0`, `x1`, the output at `xi2`, the accumulator at anything — the body runs
    to the continuation holding the inputs and the output as they were and the accumulator with its pieces
    written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) :
    { LS0 : List (View.Piece (Elt F) S1024 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The pieces cover the accumulator: two stores of the whole vector. -/
theorem scover0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) (y : S1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024.size (by sl_kernel_rfl) y

/-- What this case leaves in the accumulator: its pieces read back. -/
def sout0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) : Vec F S1024 .f32 :=
  VS0.read (Elt F) (VS0.writes (Elt F) VS0.junk (kernelRun0_A c i arg2 harg2 arg3 harg3 arg4 harg4 arg5 harg5 hc0 hc1 x0 x1).1)

/-- It is the accumulated value over the reset value: the second payload of the input blocks over the first. -/
theorem sout0_A_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) :
    sout0_A c i arg2 harg2 arg3 harg3 arg4 harg4 arg5 harg5 hc0 hc1 x0 x1 = k0_pay2 i x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x1024) hz2]

end Cert.Kernel.Hand0

end
-- ==== Proof.Frame0BitsRunsB.lean ====
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import proofs.«109708_j47038481826438_1_alg».proof.Proof.Frame0BitsRunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at a grid point that is neither the first nor the last of its row: the accumulator is
    neither reset nor copied out. The body loads the two input blocks and the accumulator and stores the
    accumulated value back; the output block is not touched. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the accumulator in this case, with the proof that from whole
    memrefs — the inputs at `x0`, `x1`, the output at `xi2`, the accumulator at `xs0` — the body runs
    to the continuation holding the inputs and the output as they were and the accumulator with its pieces
    written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) :
    { LS0 : List (View.Piece (Elt F) S1024 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The pieces cover the accumulator: one store of the whole vector. -/
theorem scover0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) (y : S1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024.size (by sl_kernel_rfl) y

/-- What this case leaves in the accumulator: its pieces read back. -/
def sout0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) : Vec F S1024 .f32 :=
  VS0.read (Elt F) (VS0.writes (Elt F) VS0.junk (kernelRun0_B c i arg2 harg2 arg3 harg3 arg4 harg4 arg5 harg5 hc0 hc1 x0 x1 xs0).1)

/-- It is the accumulated value: the second payload of the input blocks over what the accumulator held. -/
theorem sout0_B_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) :
    sout0_B c i arg2 harg2 arg3 harg3 arg4 harg4 arg5 harg5 hc0 hc1 x0 x1 xs0 = k0_pay2 i x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz1]
  simp only [View.readAt_eq_ld, harg2.read_unread, harg3.read_unread, harg5.read_unread, View.ld_unit_zero (S := S1024x1024) hz2, View.ld_unit_zero (S := S1024) hz1]

end Cert.Kernel.Hand0

end
-- ==== Proof.Frame0BitsRunsC.lean ====
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import proofs.«109708_j47038481826438_1_alg».proof.Proof.Frame0BitsRunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at the last grid point of a row: the accumulator is added to and then copied to the
    output block. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output block and in the accumulator in this case, with the
    proof that from whole memrefs — the inputs at `x0`, `x1`, the output at anything, the accumulator at
    `xs0` — the body runs to the continuation holding the inputs as they were and the output and the
    accumulator with their pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    Σ' (L2 : List (View.Piece (Elt F) S1024 .f32)), { LS0 : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The output's pieces cover its block: one store of the whole vector. -/
theorem cover0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) (y : S1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024.size (by sl_kernel_rfl) y

/-- What this case leaves in the output's staging buffer: its pieces read back. -/
def out0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) : Vec F S1024 .f32 :=
  VO0_2.read (Elt F) (VO0_2.writes (Elt F) VO0_2.junk (kernelRun0_C c i arg2 harg2 arg3 harg3 arg4 harg4 arg5 harg5 hc0 hc1 x0 x1 xs0).1)

/-- The accumulator's pieces cover it: one store of the whole vector. -/
theorem scover0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) (y : S1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024.size (by sl_kernel_rfl) y

/-- What this case leaves in the accumulator: its pieces read back. -/
def sout0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) : Vec F S1024 .f32 :=
  VS0.read (Elt F) (VS0.writes (Elt F) VS0.junk (kernelRun0_C c i arg2 harg2 arg3 harg3 arg4 harg4 arg5 harg5 hc0 hc1 x0 x1 xs0).2.1)

/-- The accumulator holds the accumulated value: the second payload of the input blocks over what it held. -/
theorem sout0_C_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    sout0_C c i arg2 harg2 arg3 harg3 arg4 harg4 arg5 harg5 hc0 hc1 x0 x1 xs0 = k0_pay2 i x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz1]
  simp only [View.readAt_eq_ld, harg2.read_unread, harg3.read_unread, harg5.read_unread, View.ld_unit_zero (S := S1024x1024) hz2, View.ld_unit_zero (S := S1024) hz1]

/-- The output block holds the same value: the copy of the accumulator. -/
theorem out0_C_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    out0_C c i arg2 harg2 arg3 harg3 arg4 harg4 arg5 harg5 hc0 hc1 x0 x1 xs0 = k0_pay2 i x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz1, View.readCov_unit_zero (S := S1024) _ hz1]
  simp only [View.readAt_eq_ld, harg2.read_unread, harg3.read_unread, harg5.read_unread, View.ld_unit_zero (S := S1024x1024) hz2, View.ld_unit_zero (S := S1024) hz1]

end Cert.Kernel.Hand0

end
-- ==== Proof.Frame0Bits.lean ====
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import proofs.«109708_j47038481826438_1_alg».proof.Proof.Frame0BitsRunsA
import proofs.«109708_j47038481826438_1_alg».proof.Proof.Frame0BitsRunsB
import proofs.«109708_j47038481826438_1_alg».proof.Proof.Frame0BitsRunsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The proof data of the first region and its body obligation.

    The region walks an 8 × 8 grid of blocks row by row. At the first point of a row the accumulator is
    reset to the zero vector; at every point the masked row sums of the point's two input blocks are added
    to it; at the last point of a row it is copied to the output block, which is written back there and
    nowhere else. So what the accumulator holds after a point is a function of the input blocks of the
    points of its row up to that point, and does not depend on what it held when the region was entered:
    `sAfter0` names it by recursion on the point, and the region invariant carries it from each point
    to the next. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-! ## What the accumulator holds after each point -/

/-- What the accumulator holds after the body at the point numbered `n`: at the first point of a row the
    accumulated value of the point's input blocks over the reset value, elsewhere over what the point
    before left. -/
def sAfter0N (c : Dev nD) : (n : ℕ) → n < cfg0.N → Vec F S1024 .f32
  | 0, hn => k0_pay2 (grid0.coords ⟨0, hn⟩) (iblk0 V c 0 ⟨0, hn⟩) (iblk0 V c 1 ⟨0, hn⟩) (k0_pay1 (F := F))
  | n + 1, hn =>
    if (n + 1) % 8 = 0 then
      k0_pay2 (grid0.coords ⟨n + 1, hn⟩) (iblk0 V c 0 ⟨n + 1, hn⟩) (iblk0 V c 1 ⟨n + 1, hn⟩) (k0_pay1 (F := F))
    else
      k0_pay2 (grid0.coords ⟨n + 1, hn⟩) (iblk0 V c 0 ⟨n + 1, hn⟩) (iblk0 V c 1 ⟨n + 1, hn⟩) (sAfter0N c n (Nat.lt_of_succ_lt hn))

/-- The same at a point. -/
def sAfter0 (c : Dev nD) (t : Fin cfg0.N) : Vec F S1024 .f32 := sAfter0N V c t.val t.isLt

/-- At the first point of a row: the accumulated value over the reset value. -/
theorem sAfter0_reset (c : Dev nD) (t : Fin cfg0.N) (h : t.val % 8 = 0) :
    sAfter0 V c t = k0_pay2 (grid0.coords t) (iblk0 V c 0 t) (iblk0 V c 1 t) (k0_pay1 (F := F)) := by
  obtain ⟨n, hn⟩ := t
  cases n with
  | zero => exact rfl
  | succ n => exact (if_pos h).trans rfl

/-- Elsewhere: the accumulated value over what the point before left. -/
theorem sAfter0_acc (c : Dev nD) (t : Fin cfg0.N) (h : ¬t.val % 8 = 0) :
    sAfter0 V c t = k0_pay2 (grid0.coords t) (iblk0 V c 0 t) (iblk0 V c 1 t) (sAfter0 V c ⟨t.val - 1, Nat.lt_of_le_of_lt (Nat.sub_le _ _) t.isLt⟩) := by
  obtain ⟨n, hn⟩ := t
  cases n with
  | zero => exact absurd (Nat.zero_mod _) h
  | succ n => exact (if_neg h).trans rfl

/-! ## The region invariant -/

/-- The invariant before the point numbered `n`: before the first point the class's (every scoped buffer
    no window stages at some contents, the generator register at some state); afterwards the same with the
    accumulator at what the point before left in it. -/
def PhiS0 (c : Dev nD) : (n : ℕ) → n ≤ cfg0.N → sProp 𝕄
  | 0, _ => Pipeline.ΦA spec0 c
  | n + 1, hn => iprop(iprop(owns (c : Thread nD τ) scM0 fullShare (sAfter0 V c ⟨n, hn⟩) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (sAfter0 V c ⟨n, hn⟩) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (sAfter0 V c ⟨n - 1, by omega⟩) ∗ rest0 (F := F) c) ∗ (∃ r, prngReg c r)) := by
  cases n with
  | zero => exact absurd rfl hz
  | succ n => rfl

/-! ## The proof data -/

/-- The proof data of the region on core `c`: the arrays as the region finds them; after the body at a
    point each input's buffer at its block and the output's at the accumulator's value; the invariant above;
    nothing owed; the one array of the two input windows held half and half, the output's array whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => sAfter0 V c t
  Φ t := PhiS0 V c t.val (Nat.le_of_lt_succ t.isLt)
  q := fun | ⟨0, _⟩ => fullShare.left | ⟨1, _⟩ => fullShare.right | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sAfter0 V c t := by dsimp only [dat0]

theorem owed_eq0 (c : Dev nD) (t : Fin (cfg0.N + 1)) : (dat0 V c).owed t = 0 := by dsimp only [dat0]

/-- The invariant at a point's start. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's number modulo 8 says which
    of the three cases it is in; the invariant hands the body the accumulator at what the point before left
    (at anything before the first point, and at the first point of a row whatever it holds is overwritten) and
    takes it back at this point's value; away from the last point of a row the output's buffer goes back as
    it came, at the last point it holds the accumulator's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [PhiS0_castSucc V c t]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    have hS : ∀ f, scM0.view.read (Elt F) (scM0.view.writes (Elt F) f (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).1) = sAfter0 V c ⟨t.val, t.isLt⟩ := fun f =>
      (View.read_writes_of_cover _ _ VS0 VS0.junk _ (scover0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t))).trans
        ((sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).trans (sAfter0_reset V c t h0).symm)
    by_cases hz : t.val = 0
    · rw [PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2
    · rw [PhiS0_pos V c _ _ hz]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2
  · have hz : t.val ≠ 0 := fun e => h0 (by rw [e])
    rw [PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      have hS : ∀ f, scM0.view.read (Elt F) (scM0.view.writes (Elt F) f (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).2.1) = sAfter0 V c ⟨t.val, t.isLt⟩ := fun f =>
        (View.read_writes_of_cover _ _ VS0 VS0.junk _ (scover0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩))).trans
          ((sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).trans (sAfter0_acc V c t h0).symm)
      have hO : ∀ f, (ms0_2 t).view.read (Elt F) ((ms0_2 t).view.writes (Elt F) f (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).1) = sAfter0 V c t := fun f =>
        (View.read_writes_of_cover _ _ VO0_2 VO0_2.junk _ (cover0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩))).trans
          ((out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).trans (sAfter0_acc V c t h0).symm)
      iintro ⟨⟨⟨HS0, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      unfold owns; iexists _; isplitr
      swap; · iexact H2
      ipureintro; exact hO _
    · rw [Dat.leavesExact_idle (dat0 V c) 2 t (idleAt0_2 t (fun h => h1 ((hcond0_1 t).mp h))) (noFlush0_2 t (fun h => h1 ((hcond0_1 t).mp h)))]
      have hS : ∀ f, scM0.view.read (Elt F) (scM0.view.writes (Elt F) f (kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).1) = sAfter0 V c ⟨t.val, t.isLt⟩ := fun f =>
        (View.read_writes_of_cover _ _ VS0 VS0.junk _ (scover0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩))).trans
          ((sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).trans (sAfter0_acc V c t h0).symm)
      iintro ⟨⟨⟨HS0, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem Phi0_in (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem Phi0_out (c : Dev nD) : (dat0 V c).Φ (Fin.last cfg0.N) ⊢ (Pipeline.ΦA spec0 c : sProp 𝕄) := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Region

end Cert.Kernel.Hand0

end
-- ==== Proof.Frame1RunsBaseBits.lean ====
/- The second region's kernel, point by point: the two conditions of its body in closed form over the 4×4 grid,
    the blocks its two input windows hold at a point, and what its accumulator (a scratch vector of two sums, one per
    half of the batch) holds after each point.

    The accumulator is set to zero at the grid's first point only, and at every point the body adds to it, for each
    half, the sum over the point's 512×512 tile of exp(-2·max(‖x_r‖² + ‖x_s‖² − 2⟨x_r, x_s⟩, 0)) masked to the pairs
    whose global row index is below the global column index. So what it holds after point `t` is determined by the
    input blocks of the points up to `t` alone, and not by what the buffer held when the region was entered. -/
import proofs.«109708_j47038481826438_1_alg».proof.Proof.Gen.Kernel.Launch
import proofs.«109708_j47038481826438_1_alg».proof.Proof.Gen.Kernel.Skeleton
import proofs.«109708_j47038481826438_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions -/

/-- The first condition: both grid coordinates are zero (the accumulator is set to zero). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second condition: both grid coordinates are the last (the logarithm of the scaled accumulator is stored to the output). -/
abbrev cond1_1 (i : grid1.Coords) : Prop := k1_cond2 i = 1#1
/-- It holds at the last point only. -/
theorem hcond1_1 : ∀ t : Fin cfg1.N, cond1_1 (grid1.coords t) ↔ t.val = 15 :=
  (by decide +kernel : ∀ t : Fin grid1.N, cond1_1 (grid1.coords t) ↔ t.val = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the output window, -/
theorem idleAt1_2 : ∀ t : Fin cfg1.N, ¬cond1_1 (grid1.coords t) → cfg1.idle 2 (grid1.coords t) = true := by decide +kernel
/-- and the window is not written back there; -/
theorem noFlush1_2 : ∀ t : Fin cfg1.N, ¬cond1_1 (grid1.coords t) → (cfg1.win 2).flush t = false := by decide +kernel
/-- at the last point it stores the whole block. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S2x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2 .f32 := win1_2.stage (cfg1.slots t 2)
abbrev hs1_2 (t : Fin cfg1.N) : (ms1_2 t).IsWhole := hstage1_2 ((cfg1.slots t 2).cast nbuf1_2)
/-- The accumulator: a whole scoped buffer of two sums. -/
abbrev scM1_0 : Memref sig .tc .vmem S2 .f32 := Memref.whole cc1_scratch0
abbrev VS1_0 : View sig .tc .vmem S2 .f32 := scM1_0.view
abbrev VO1_2 : View sig .tc .vmem S2 .f32 := (Memref.whole cc1_stg2_0 : Memref sig .tc .vmem S2 .f32).view

/-! ## The windows' blocks and the accumulator's contents -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one point adds: the accumulator `s` plus, per half, the masked sum over the point's tile. -/
def step1 (c : Dev nD) (t : Fin cfg1.N) (s : Vec F S2 .f32) : Vec F S2 .f32 :=
  k1_pay1 (k1_pay4 (grid1.coords t)) (k1_pay5 (iblk1 V c 0 t) (iblk1 V c 1 t)) (k1_pay6 (F := F)) s

/-- The accumulator after the body at position `n`: zero plus the first point's tile sums, then one tile's sums more per point. -/
def sAfter1N (c : Dev nD) : (n : ℕ) → n < cfg1.N → Vec F S2 .f32
  | 0, hn => step1 V c ⟨0, hn⟩ (k1_pay3 (F := F))
  | n + 1, hn => step1 V c ⟨n + 1, hn⟩ (sAfter1N c n (Nat.lt_of_succ_lt hn))

/-- The accumulator after the body at point `t`. -/
def sAfter1 (c : Dev nD) (t : Fin cfg1.N) : Vec F S2 .f32 := sAfter1N V c t.val t.isLt

/-- At the first point: the tile sums over the zero vector. -/
theorem sAfter1_first (c : Dev nD) (t : Fin cfg1.N) (h : t.val = 0) :
    sAfter1 V c t = k1_pay1 (k1_pay4 (grid1.coords t)) (k1_pay5 (iblk1 V c 0 t) (iblk1 V c 1 t)) (k1_pay6 (F := F)) (k1_pay3 (F := F)) := by
  obtain ⟨n, hn⟩ := t
  cases n with
  | zero => rfl
  | succ n => exact absurd h (Nat.succ_ne_zero n)

/-- At any other point: the tile sums over what the point before left. -/
theorem sAfter1_next (c : Dev nD) (t : Fin cfg1.N) (h : t.val ≠ 0) :
    sAfter1 V c t = k1_pay1 (k1_pay4 (grid1.coords t)) (k1_pay5 (iblk1 V c 0 t) (iblk1 V c 1 t)) (k1_pay6 (F := F))
      (sAfter1 V c ⟨t.val - 1, Nat.lt_of_le_of_lt (Nat.sub_le _ _) t.isLt⟩) := by
  obtain ⟨n, hn⟩ := t
  cases n with
  | zero => exact absurd rfl h
  | succ n => rfl

end Cert.Kernel.Hand1

end
-- ==== Proof.Frame1RunsABits.lean ====
/- The second region's body at the grid's first point: the accumulator is first set to zero, then the body loads the two
   input blocks and the accumulator (the zero vector just stored) and stores the accumulator plus the tile's masked
   sums; nothing is stored to the output. What the accumulator held before does not matter. -/
import proofs.«109708_j47038481826438_1_alg».proof.Proof.Frame1RunsBaseBits
import Idealize.ShloMosaic.Lib.Pipeline.Value

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz3A : (![0, 0, 0] : Fin 3 → Nat) = fun _ => 0 := funext fun a => by fin_cases a <;> rfl
theorem hz1A : (![0] : Fin 1 → Nat) = fun _ => 0 := funext fun a => by fin_cases a <;> rfl

set_option maxHeartbeats 4000000 in
/-- The body's run in this case, on any whole memrefs: the inputs and the (idle) output buffer are handed back as they
    were; the accumulator, taken at any contents, ends with the pieces the run finds written. -/
noncomputable def kernelRun1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i)
    (x0 x1 : Vec F S2x512x1024 .bf16) :
    { LS0 : List (View.Piece (Elt F) S2 .f32) //
      ∀ (xi2 : Vec F S2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The run's pieces cover the accumulator (two whole stores). -/
theorem scover1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i) (x0 x1 : Vec F S2x512x1024 .bf16) (y : S2.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2.size (by sl_kernel_rfl) y

/-- What they leave: the zero vector plus the tile's masked sums. -/
theorem sval1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i) (x0 x1 : Vec F S2x512x1024 .bf16)
    {sp : Space} (v : View sig .tc sp S2 .f32) (f : v.ty.Contents (Elt F)) :
    v.read (Elt F) (v.writes (Elt F) f (kernelRun1_A c i arg2 harg2 arg3 harg3 arg4 harg4 arg5 harg5 hc0 hc1 x0 x1).1)
      = k1_pay1 (k1_pay4 i) (k1_pay5 x0 x1) (k1_pay6 (F := F)) (k1_pay3 (F := F)) := by
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2) hz1A, View.readCov_unit_zero (S := S2) _ hz1A]
  simp only [View.readAt_eq_ld, harg2.read_unread, harg3.read_unread, View.ld_unit_zero (S := S2x512x1024) hz3A]

end Cert.Kernel.Hand1

end
-- ==== Proof.Frame1RunsBBits.lean ====
/- The second region's body at a point that is neither the grid's first nor its last: the accumulator is not reset and
   nothing is stored to the output; the body loads the two input blocks and the accumulator and stores the accumulator
   plus the tile's masked sums. -/
import proofs.«109708_j47038481826438_1_alg».proof.Proof.Frame1RunsBaseBits
import Idealize.ShloMosaic.Lib.Pipeline.Value

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz3 : (![0, 0, 0] : Fin 3 → Nat) = fun _ => 0 := funext fun a => by fin_cases a <;> rfl
theorem hz1 : (![0] : Fin 1 → Nat) = fun _ => 0 := funext fun a => by fin_cases a <;> rfl

set_option maxHeartbeats 4000000 in
/-- The body's run in this case, on any whole memrefs: the inputs and the (idle) output buffer are handed back as they
    were; the accumulator ends with the pieces the run finds written. -/
noncomputable def kernelRun1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i)
    (x0 x1 : Vec F S2x512x1024 .bf16) (xs0 : Vec F S2 .f32) :
    { LS0 : List (View.Piece (Elt F) S2 .f32) //
      ∀ (xi2 : Vec F S2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The run's pieces cover the accumulator (one whole store). -/
theorem scover1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i) (x0 x1 : Vec F S2x512x1024 .bf16) (xs0 : Vec F S2 .f32) (y : S2.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S2.size (by sl_kernel_rfl) y

/-- What they leave: the accumulator it found plus the tile's masked sums. -/
theorem sval1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_B c i arg2 harg2 arg3 harg3 arg4 harg4 arg5 harg5 hc0 hc1 x0 x1 xs0).1)
      = k1_pay1 (k1_pay4 i) (k1_pay5 x0 x1) (k1_pay6 (F := F)) xs0 := by
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S2) hz1]
  simp only [View.readAt_eq_ld, harg2.read_unread, harg3.read_unread, harg5.read_unread, View.ld_unit_zero (S := S2) hz1, View.ld_unit_zero (S := S2x512x1024) hz3]

end Cert.Kernel.Hand1

end
-- ==== Proof.Frame1RunsCBits.lean ====
/- The second region's body at the grid's last point: the accumulator is not reset; the body loads the two input blocks
   and the accumulator, stores the accumulator plus the tile's masked sums, then loads it back and stores to the output
   buffer the logarithm of it divided by the number of pairs. What the output buffer held before does not matter. -/
import proofs.«109708_j47038481826438_1_alg».proof.Proof.Frame1RunsBaseBits
import Idealize.ShloMosaic.Lib.Pipeline.Value

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz3C : (![0, 0, 0] : Fin 3 → Nat) = fun _ => 0 := funext fun a => by fin_cases a <;> rfl
theorem hz1C : (![0] : Fin 1 → Nat) = fun _ => 0 := funext fun a => by fin_cases a <;> rfl

set_option maxHeartbeats 4000000 in
/-- The body's run in this case, on any whole memrefs: the inputs are handed back as they were; the output buffer, taken
    at any contents, and the accumulator end with the pieces the run finds written. -/
noncomputable def kernelRun1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i)
    (x0 x1 : Vec F S2x512x1024 .bf16) (xs0 : Vec F S2 .f32) :
    Σ' (L2 : List (View.Piece (Elt F) S2 .f32)), { LS0 : List (View.Piece (Elt F) S2 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The run's pieces for the output buffer cover it (one whole store). -/
theorem cover1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32) (y : S2.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2.size (by sl_kernel_rfl) y

/-- The run's pieces for the accumulator cover it (one whole store). -/
theorem scover1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32) (y : S2.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2.size (by sl_kernel_rfl) y

/-- What the accumulator ends with: what it held plus the tile's masked sums. -/
theorem sval1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_C c i arg2 harg2 arg3 harg3 arg4 harg4 arg5 harg5 hc0 hc1 x0 x1 xs0).2.1)
      = k1_pay1 (k1_pay4 i) (k1_pay5 x0 x1) (k1_pay6 (F := F)) xs0 := by
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S2) hz1C]
  simp only [View.readAt_eq_ld, harg2.read_unread, harg3.read_unread, harg5.read_unread, View.ld_unit_zero (S := S2) hz1C, View.ld_unit_zero (S := S2x512x1024) hz3C]

/-- What the output buffer ends with: the logarithm of the scaled final accumulator. -/
theorem oval1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_C c i arg2 harg2 arg3 harg3 arg4 harg4 arg5 harg5 hc0 hc1 x0 x1 xs0).1)
      = k1_pay2 (k1_pay1 (k1_pay4 i) (k1_pay5 x0 x1) (k1_pay6 (F := F)) xs0) := by
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero (S := S2) hz1C, View.readCov_unit_zero (S := S2) _ hz1C]
  simp only [View.readAt_eq_ld, harg2.read_unread, harg3.read_unread, harg5.read_unread, View.ld_unit_zero (S := S2) hz1C, View.ld_unit_zero (S := S2x512x1024) hz3C]

end Cert.Kernel.Hand1

end
-- ==== Proof.Frame1Bits.lean ====
/- The second region (the pairwise-distance uniformity term): the proof data of its pipeline and its body obligation.

   The grid is 4×4; window 0 holds the row tile of the stacked halves, window 1 the column tile (both windows of one
   array), window 2 the two-element result. The accumulator (a scratch vector of two sums) is named point by point:
   after point `t` it holds zero plus, for every point up to `t` in grid order, the masked tile sums of that point. The
   result buffer is stored only at the last point, with the logarithm of the accumulator over the number of pairs. -/
import proofs.«109708_j47038481826438_1_alg».proof.Proof.Frame1RunsABits
import proofs.«109708_j47038481826438_1_alg».proof.Proof.Frame1RunsBBits
import proofs.«109708_j47038481826438_1_alg».proof.Proof.Frame1RunsCBits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The invariant -/

/-- A whole scoped buffer the body never touches, at some contents. -/
abbrev heldAny (c : Dev nD) (b : Ref sig .tc) : sProp 𝕄 :=
  iprop(∃ f : Buf (Elt F) ((c : Thread nD τ).loc b), ((c : Thread nD τ).loc b) ↦{fullShare} f)

/-- The class invariant, conjunct by conjunct: the first region's staging buffers and accumulator at some contents, this
    region's accumulator owned at some contents, the generator register at some state. -/
theorem PhiA1_eq (c : Dev nD) :
    (Pipeline.ΦA spec1 c : sProp 𝕄)
      = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ (∃ d, owns (c : Thread nD τ) scM1_0 fullShare d)) ∗ (∃ r, prngReg c r)) := by
  unfold Pipeline.ΦA; rw [scopedRest1_eq]; simp only [scM1_0, owns_whole]; try rfl

/-- The invariant before position `n`: before the first point the class invariant (the accumulator at anything);
    afterwards the same with the accumulator at what the point before left. -/
def Phi1 (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c ⟨n, hn⟩)) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c ⟨n - 1, by omega⟩)) ∗ (∃ r, prngReg c r)) := by
  cases n with
  | zero => exact absurd rfl hz
  | succ n => rfl

/-! ## The proof data -/

/-- The proof data of the second pipeline on core `c`: the arrays as the region finds them; after the body at point `t`
    each input's buffer at its block and the result buffer at the logarithm of the scaled accumulator (it matters at
    the last point only); the two input windows share the halves of their one array's full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (sAfter1 V c t)
  Φ t := Phi1 V c t.val (Nat.le_of_lt_succ t.isLt)
  q := fun | ⟨0, _⟩ => fullShare.left | ⟨1, _⟩ => fullShare.right | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay2 (sAfter1 V c t) := by dsimp only [dat1]
theorem owed_eq1 (c : Dev nD) (t : Fin (cfg1.N + 1)) : (dat1 V c).owed t = 0 := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- After point `t`: the accumulator at that point's contents. -/
theorem Phi1_succ (c : Dev nD) (t : Fin cfg1.N) :
    (dat1 V c).Φ t.succ = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c t)) ∗ (∃ r, prngReg c r)) := rfl

/-- What the launch hands the region is the invariant before the first point. -/
theorem Phi1_in (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem Phi1_out (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_eq]
  iintro ⟨⟨HR0, HR1, HR2, HR3, HR4, HR5, HR6, HS0⟩, Hg⟩
  isplitl [HR0 HR1 HR2 HR3 HR4 HR5 HR6 HS0]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which of
    the three cases the point is in; the invariant hands the body the accumulator at what the point before left (at
    anything at the first point) and takes it back at this point's contents; the result buffer is handed back untouched
    except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [sAfter1_first V c t h0]
    rw [Phi1_castSucc V c t, Phi1_zero V c _ _ h0, PhiA1_eq]
    iintro ⟨⟨⟨HR0, HR1, HR2, HR3, HR4, HR5, HR6, HS0⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1_0 (Memref.isWhole_whole _) hc0 hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HR0 HR1 HR2 HR3 HR4 HR5 HR6 HS0 Hg]
    · isplitl [HR0 HR1 HR2 HR3 HR4 HR5 HR6 HS0]
      ·
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        unfold owns; iexists _; isplitr
        swap; · iexact HS0
        ipureintro; exact sval1_A c (grid1.coords t) (ms1_0 t) (hs1_0 t) (ms1_1 t) (hs1_1 t) (ms1_2 t) (hs1_2 t) scM1_0 (Memref.isWhole_whole _) hc0 hc1 (iblk1 V c 0 t) (iblk1 V c 1 t) _ _
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [sAfter1_next V c t h0]
    rw [Phi1_castSucc V c t, Phi1_pos V c _ _ h0]
    by_cases h1 : t.val = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, sAfter1_next V c t h0]
      iintro ⟨⟨⟨HR0, HR1, HR2, HR3, HR4, HR5, HR6, HS0⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact sval1_C c (grid1.coords t) (ms1_0 t) (hs1_0 t) (ms1_1 t) (hs1_1 t) (ms1_2 t) (hs1_2 t) scM1_0 (Memref.isWhole_whole _) hc0 hc1 (iblk1 V c 0 t) (iblk1 V c 1 t) _ _ _
        iexact Hg
      isplitl [Ho]; · iexact Ho
      isplitl [H0]; · iexact H0
      isplitl [H1]; · iexact H1
      unfold owns; iexists _; isplitr
      swap; · iexact H2
      ipureintro; exact oval1_C c (grid1.coords t) (ms1_0 t) (hs1_0 t) (ms1_1 t) (hs1_1 t) (ms1_2 t) (hs1_2 t) scM1_0 (Memref.isWhole_whole _) hc0 hc1 (iblk1 V c 0 t) (iblk1 V c 1 t) _ _ _
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR0, HR1, HR2, HR3, HR4, HR5, HR6, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact sval1_B c (grid1.coords t) (ms1_0 t) (hs1_0 t) (ms1_1 t) (hs1_1 t) (ms1_2 t) (hs1_2 t) scM1_0 (Memref.isWhole_whole _) hc0 hc1 (iblk1 V c 0 t) (iblk1 V c 1 t) _ _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand1

end
-- ==== Proof.AssembleBits.lean ====
import proofs.«109708_j47038481826438_1_alg».proof.Proof.RecordsBits
import proofs.«109708_j47038481826438_1_alg».proof.Proof.Frame0Bits
import proofs.«109708_j47038481826438_1_alg».proof.Proof.Frame1Bits

/-! The proof data of both regions at their entry contents, and what each region leaves in the array it writes: region 0
    is entered from the launch contents folded through the first four host stretches, region 1 from those with region 0's
    written array at what its write-backs left, folded through the next stretch. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- Region 0's entry contents, reference by reference. -/
abbrev Vr4 : (c : Dev nD) → (b : Ref sig .tc) → Buf (Elt F) ((c : Thread nD τ).loc b) := fun c b => V4 m c b
/-- What region 0's write-backs leave in the array it writes. -/
def O0 (c : Dev nD) : Buf (Elt F) ((c : Thread nD τ).loc main_v8) := (Hand0.dat0 (Vr4 m) c).arrAt 2 cfg0.N
/-- The regions' written arrays, region 0's only (region 1's entry contents are stated over it). -/
def outsA : Outs (F := F) := fun _ r c => if h : r = main_v8 then h ▸ O0 m c else m ((c : Thread nD τ).loc r)
/-- Region 1's entry contents, reference by reference. -/
abbrev Vr6 : (c : Dev nD) → (b : Ref sig .tc) → Buf (Elt F) ((c : Thread nD τ).loc b) := fun c b => V6 m (outsA m) c b
/-- What region 1's write-backs leave in the array it writes. -/
def O1 (c : Dev nD) : Buf (Elt F) ((c : Thread nD τ).loc main_v29) := (Hand1.dat1 (Vr6 m) c).arrAt 2 cfg1.N
/-- The regions' written arrays. -/
def outsI : Outs (F := F) := fun _ r c =>
  if h : r = main_v8 then h ▸ O0 m c else if h' : r = main_v29 then h' ▸ O1 m c else m ((c : Thread nD τ).loc r)

theorem outsA_v8 (n : ℕ) (c : Dev nD) : outsA m n main_v8 c = O0 m c := by unfold outsA; rw [dif_pos rfl]
theorem outsI_v8 (n : ℕ) (c : Dev nD) : outsI m n main_v8 c = O0 m c := by unfold outsI; rw [dif_pos rfl]
theorem outsI_v29 (n : ℕ) (c : Dev nD) : outsI m n main_v29 c = O1 m c := by
  unfold outsI; rw [dif_neg (by decide), dif_pos rfl]

/-- Region 1 is entered from the same contents under either family: they agree on region 0's written array. -/
theorem V6_outsI (c : Dev nD) : V6 m (outsI m) c = V6 m (outsA m) c := by
  show StableHlo.after hostOps1 (Function.update (V4 m c) _ (outsI m 5 main_v8 c)) = StableHlo.after hostOps1 (Function.update (V4 m c) _ (outsA m 5 main_v8 c))
  rw [outsI_v8, outsA_v8]

/-- Every pipeline's proof data, each at its region's entry contents. -/
def pdatsI : (p : Fin 2) → (c : Dev nD) → Dat τ (Elt F) Unit ℕ (Pipeline.UD sig nD τ) ℕ (cfgs p) c
  | ⟨0, _⟩ => fun c => Hand0.dat0 (Vr4 m) c
  | ⟨1, _⟩ => fun c => Hand1.dat1 (Vr6 m) c

theorem facts0 : Facts0 m (outsI m) (pdatsI m) where
  hA c w := Hand0.A_eq0 (Vr4 m) c w
  hq0 c := rfl
  hq1 c := rfl
  howed c t := Hand0.owed_eq0 (Vr4 m) c t
  hbody c := Hand0.body_obligation0 (Vr4 m) c
  hin c := Hand0.Phi0_in (Vr4 m) c
  hout c := Hand0.Phi0_out (Vr4 m) c
  houts c := outsI_v8 m 5 c
  hrec c := rfl

theorem facts1 : Facts1 m (outsI m) (pdatsI m) where
  hA c w := (Hand1.A_eq1 (Vr6 m) c w).trans (by rw [V6_outsI])
  hq0 c := rfl
  hq1 c := rfl
  howed c t := Hand1.owed_eq1 (Vr6 m) c t
  hbody c := Hand1.body_obligation1 (Vr6 m) c
  hin c := Hand1.Phi1_in (Vr6 m) c
  hout c := Hand1.Phi1_out (Vr6 m) c
  houts c := outsI_v29 m 7 c
  hrec c := rfl

/-- The run of @main with every unscoped buffer read at the last valuation. -/
theorem kernel_run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V8 m (outsI m) c b) :=
  run_all m ρ (outsI m) (pdatsI m) (facts0 m) (facts1 m)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: @main runs and both argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V8_main_arg0 m (outsI m) c),
     (h c _ (mem_uc main_arg1 (by decide))).trans (V8_main_arg1 m (outsI m) c)⟩) (kernel_run m ρ)

end Cert.Kernel.Hand

end
-- ==== Proof.Entry0.lean ====
import proofs.«109708_j47038481826438_1_alg».proof.Proof.Gen.KernelIdeal.Launch
import Idealize.ShloMosaic.Lib.Pipeline.Frame
import Idealize.ShloMosaic.Lib.Pipeline.Regions
import Idealize.ShloMosaic.Rules.PointsTo

/-! Region 0 reads ONE array through its two input windows and writes another through its output window. At the region's
    entry the buffer behind the read array, held whole, is split into two halves, one per input window; at its exit the
    halves, which still hold the entry contents (an input array is never written), are joined again. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (Pipeline.UD sig nD τ) ℕ

/-- The two buffers behind region 0's three windows. -/
theorem arrImage0 : (Finset.univ.image (Pipeline.arrRef spec0) : Finset (Ref sig .tc)) = {main_v7, main_v8} := by decide

variable (c : Dev nD) (dat : Dat τ (Elt F) Unit ℕ (Pipeline.UD sig nD τ) ℕ cfg0 c)

/-- The windows' shares: an input's is the proof data's, the output's the full share. -/
theorem share0_0 (hq0 : dat.q 0 = fullShare.left) : dat.share 0 = fullShare.left := by
  unfold Pipeline.Dat.share; rw [if_neg (by decide), hq0]
theorem share0_1 (hq1 : dat.q 1 = fullShare.right) : dat.share 1 = fullShare.right := by
  unfold Pipeline.Dat.share; rw [if_neg (by decide), hq1]
theorem share0_2 : dat.share 2 = fullShare := by
  unfold Pipeline.Dat.share; rw [if_pos (by decide)]

/-- The pipeline's arrays, window by window, over the two buffers. -/
theorem arrays0_eq (hq0 : dat.q 0 = fullShare.left) (hq1 : dat.q 1 = fullShare.right)
    (Fa : (w : Fin cfg0.W) → Buf (Elt F) ((cfg0.win w).arr.view.loc (c.tc : Thread nD τ))) :
    (dat.arrays Fa : sProp 𝕄)
      = iprop((((c.tc : Thread nD τ).loc main_v7) ↦{fullShare.left} Fa 0) ∗ (((c.tc : Thread nD τ).loc main_v7) ↦{fullShare.right} Fa 1)
          ∗ (((c.tc : Thread nD τ).loc main_v8) ↦{fullShare} Fa 2)) := by
  unfold Pipeline.Dat.arrays
  rw [bigSep_W0, share0_0 c dat hq0, share0_1 c dat hq1, share0_2 c dat,
    (arr_whole0 0).set_eq_univ, (arr_whole0 2).set_eq_univ]

/-- The buffers behind the arrays, each by name. -/
theorem arrBufs0_eq (V : (b : Ref sig .tc) → Buf (Elt F) ((c.tc : Thread nD τ).loc b)) :
    (Pipeline.arrBufs spec0 c V : sProp 𝕄)
      = iprop((((c.tc : Thread nD τ).loc main_v7) ↦{fullShare} V main_v7) ∗ (((c.tc : Thread nD τ).loc main_v8) ↦{fullShare} V main_v8)) := by
  unfold Pipeline.arrBufs
  rw [arrImage0, bigSep_insert (by decide), bigSep_singleton]
  rfl

/-- ENTRY: the two buffers held whole at the entry contents make the pipeline's arrays at their entry contents: the read
    array's buffer is split into its two halves, one per input window. -/
theorem split0 (V : (b : Ref sig .tc) → Buf (Elt F) ((c.tc : Thread nD τ).loc b))
    (hA : ∀ w, dat.A w = V (Pipeline.arrRef spec0 w)) (hq0 : dat.q 0 = fullShare.left) (hq1 : dat.q 1 = fullShare.right) :
    (Pipeline.arrBufs spec0 c V : sProp 𝕄) ⊢ dat.arrays (dat.arrAt · 0) := by
  rw [arrays0_eq c dat hq0 hq1, arrBufs0_eq c V]
  show _ ⊢ iprop((_ ↦{fullShare.left} dat.A 0) ∗ (_ ↦{fullShare.right} dat.A 1) ∗ (_ ↦{fullShare} dat.A 2))
  rw [hA 0, hA 1, hA 2]
  have hsp : ((((c.tc : Thread nD τ).loc main_v7) ↦{fullShare} V main_v7) : sProp 𝕄)
      ⊢ iprop((((c.tc : Thread nD τ).loc main_v7) ↦{fullShare.left} V main_v7) ∗ (((c.tc : Thread nD τ).loc main_v7) ↦{fullShare.right} V main_v7)) :=
    (pointsTo_share (PosShare.mem_left_op_right fullShare)).1
  iintro ⟨H7, H8⟩
  ihave H := hsp $$ H7
  icases H with ⟨Hl, Hr⟩
  isplitl [Hl]; · iexact Hl
  isplitl [Hr]; · iexact Hr
  iexact H8

/-- EXIT: the arrays after the last write-back make the two buffers whole again: the halves of the read array, still at
    its entry contents, are joined; the written array is at what the write-backs left. -/
theorem join0 (V V' : (b : Ref sig .tc) → Buf (Elt F) ((c.tc : Thread nD τ).loc b))
    (hA : ∀ w, dat.A w = V (Pipeline.arrRef spec0 w)) (hq0 : dat.q 0 = fullShare.left) (hq1 : dat.q 1 = fullShare.right)
    (hin : V' main_v7 = V main_v7) (hout : V' main_v8 = dat.arrAt 2 cfg0.N) :
    (dat.arrays (dat.arrAt · cfg0.N) : sProp 𝕄) ⊢ Pipeline.arrBufs spec0 c V' := by
  rw [arrays0_eq c dat hq0 hq1, arrBufs0_eq c V', hin, hout, dat.arrAt_in 0 rfl, dat.arrAt_in 1 rfl, hA 0, hA 1]
  have hjn : iprop((((c.tc : Thread nD τ).loc main_v7) ↦{fullShare.left} V main_v7) ∗ (((c.tc : Thread nD τ).loc main_v7) ↦{fullShare.right} V main_v7))
      ⊢ ((((c.tc : Thread nD τ).loc main_v7) ↦{fullShare} V main_v7) : sProp 𝕄) :=
    (pointsTo_share (PosShare.mem_left_op_right fullShare)).2
  iintro ⟨Hl, Hr, H8⟩
  isplitl [Hl Hr]
  · iapply hjn
    isplitl [Hl]; · iexact Hl
    iexact Hr
  iexact H8

end Cert.KernelIdeal.Hand

end
-- ==== Proof.Entry1.lean ====
import proofs.«109708_j47038481826438_1_alg».proof.Proof.Gen.KernelIdeal.Launch
import Idealize.ShloMosaic.Lib.Pipeline.Frame
import Idealize.ShloMosaic.Lib.Pipeline.Regions
import Idealize.ShloMosaic.Rules.PointsTo

/-! Region 1 reads ONE array through its two input windows and writes another through its output window. At the region's
    entry the buffer behind the read array, held whole, is split into two halves, one per input window; at its exit the
    halves, which still hold the entry contents (an input array is never written), are joined again. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (Pipeline.UD sig nD τ) ℕ

/-- The two buffers behind region 1's three windows. -/
theorem arrImage1 : (Finset.univ.image (Pipeline.arrRef spec1) : Finset (Ref sig .tc)) = {main_v28, main_v29} := by decide

variable (c : Dev nD) (dat : Dat τ (Elt F) Unit ℕ (Pipeline.UD sig nD τ) ℕ cfg1 c)

/-- The windows' shares: an input's is the proof data's, the output's the full share. -/
theorem share1_0 (hq0 : dat.q 0 = fullShare.left) : dat.share 0 = fullShare.left := by
  unfold Pipeline.Dat.share; rw [if_neg (by decide), hq0]
theorem share1_1 (hq1 : dat.q 1 = fullShare.right) : dat.share 1 = fullShare.right := by
  unfold Pipeline.Dat.share; rw [if_neg (by decide), hq1]
theorem share1_2 : dat.share 2 = fullShare := by
  unfold Pipeline.Dat.share; rw [if_pos (by decide)]

/-- The pipeline's arrays, window by window, over the two buffers. -/
theorem arrays1_eq (hq0 : dat.q 0 = fullShare.left) (hq1 : dat.q 1 = fullShare.right)
    (Fa : (w : Fin cfg1.W) → Buf (Elt F) ((cfg1.win w).arr.view.loc (c.tc : Thread nD τ))) :
    (dat.arrays Fa : sProp 𝕄)
      = iprop((((c.tc : Thread nD τ).loc main_v28) ↦{fullShare.left} Fa 0) ∗ (((c.tc : Thread nD τ).loc main_v28) ↦{fullShare.right} Fa 1)
          ∗ (((c.tc : Thread nD τ).loc main_v29) ↦{fullShare} Fa 2)) := by
  unfold Pipeline.Dat.arrays
  rw [bigSep_W1, share1_0 c dat hq0, share1_1 c dat hq1, share1_2 c dat,
    (arr_whole1 0).set_eq_univ, (arr_whole1 2).set_eq_univ]

/-- The buffers behind the arrays, each by name. -/
theorem arrBufs1_eq (V : (b : Ref sig .tc) → Buf (Elt F) ((c.tc : Thread nD τ).loc b)) :
    (Pipeline.arrBufs spec1 c V : sProp 𝕄)
      = iprop((((c.tc : Thread nD τ).loc main_v28) ↦{fullShare} V main_v28) ∗ (((c.tc : Thread nD τ).loc main_v29) ↦{fullShare} V main_v29)) := by
  unfold Pipeline.arrBufs
  rw [arrImage1, bigSep_insert (by decide), bigSep_singleton]
  rfl

/-- ENTRY: the two buffers held whole at the entry contents make the pipeline's arrays at their entry contents: the read
    array's buffer is split into its two halves, one per input window. -/
theorem split1 (V : (b : Ref sig .tc) → Buf (Elt F) ((c.tc : Thread nD τ).loc b))
    (hA : ∀ w, dat.A w = V (Pipeline.arrRef spec1 w)) (hq0 : dat.q 0 = fullShare.left) (hq1 : dat.q 1 = fullShare.right) :
    (Pipeline.arrBufs spec1 c V : sProp 𝕄) ⊢ dat.arrays (dat.arrAt · 0) := by
  rw [arrays1_eq c dat hq0 hq1, arrBufs1_eq c V]
  show _ ⊢ iprop((_ ↦{fullShare.left} dat.A 0) ∗ (_ ↦{fullShare.right} dat.A 1) ∗ (_ ↦{fullShare} dat.A 2))
  rw [hA 0, hA 1, hA 2]
  have hsp : ((((c.tc : Thread nD τ).loc main_v28) ↦{fullShare} V main_v28) : sProp 𝕄)
      ⊢ iprop((((c.tc : Thread nD τ).loc main_v28) ↦{fullShare.left} V main_v28) ∗ (((c.tc : Thread nD τ).loc main_v28) ↦{fullShare.right} V main_v28)) :=
    (pointsTo_share (PosShare.mem_left_op_right fullShare)).1
  iintro ⟨H7, H8⟩
  ihave H := hsp $$ H7
  icases H with ⟨Hl, Hr⟩
  isplitl [Hl]; · iexact Hl
  isplitl [Hr]; · iexact Hr
  iexact H8

/-- EXIT: the arrays after the last write-back make the two buffers whole again: the halves of the read array, still at
    its entry contents, are joined; the written array is at what the write-backs left. -/
theorem join1 (V V' : (b : Ref sig .tc) → Buf (Elt F) ((c.tc : Thread nD τ).loc b))
    (hA : ∀ w, dat.A w = V (Pipeline.arrRef spec1 w)) (hq0 : dat.q 0 = fullShare.left) (hq1 : dat.q 1 = fullShare.right)
    (hin : V' main_v28 = V main_v28) (hout : V' main_v29 = dat.arrAt 2 cfg1.N) :
    (dat.arrays (dat.arrAt · cfg1.N) : sProp 𝕄) ⊢ Pipeline.arrBufs spec1 c V' := by
  rw [arrays1_eq c dat hq0 hq1, arrBufs1_eq c V', hin, hout, dat.arrAt_in 0 rfl, dat.arrAt_in 1 rfl, hA 0, hA 1]
  have hjn : iprop((((c.tc : Thread nD τ).loc main_v28) ↦{fullShare.left} V main_v28) ∗ (((c.tc : Thread nD τ).loc main_v28) ↦{fullShare.right} V main_v28))
      ⊢ ((((c.tc : Thread nD τ).loc main_v28) ↦{fullShare} V main_v28) : sProp 𝕄) :=
    (pointsTo_share (PosShare.mem_left_op_right fullShare)).2
  iintro ⟨Hl, Hr, H8⟩
  isplitl [Hl Hr]
  · iapply hjn
    isplitl [Hl]; · iexact Hl
    iexact Hr
  iexact H8

end Cert.KernelIdeal.Hand

end
-- ==== Proof.Records.lean ====
import proofs.«109708_j47038481826438_1_alg».proof.Proof.Gen.KernelIdeal.Regions
import proofs.«109708_j47038481826438_1_alg».proof.Proof.Entry0
import proofs.«109708_j47038481826438_1_alg».proof.Proof.Entry1
import Idealize.ShloMosaic.Lib.Pipeline.FrameBody
import Idealize.ShloMosaic.Lib.Pipeline.RegionsLoop
import Idealize.ShloMosaic.Lib.Pipeline.FrameSuffix

/-! The two kernel regions as segments of @main, over any proof data with the facts stated below. -/

set_option pp.maxSteps 4000
set_option pp.deepTerms false

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (Pipeline.UD sig nD τ) ℕ

variable (m : (ℓ : Loc nD τ sig) → Buf (Elt F) ℓ)

/-- No core owes another anything: no level is assigned. -/
abbrev L0 : GSem nD τ sig → Finset Unit := fun _ => ∅
abbrev lv0 : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

/-! ## Region 0 as a segment of @main -/

/-- What is assumed of region 0's proof data on every core. -/
structure Facts0 (outs : Outs (F := F)) (pdats : (p : Fin 2) → (c : Dev nD) → Dat τ (Elt F) Unit ℕ (Pipeline.UD sig nD τ) ℕ (cfgs p) c) : Prop where
  hA : ∀ c w, (pdats 0 c).A w = V4 m c (Pipeline.arrRef spec0 w)
  hq0 : ∀ c, (pdats 0 c).q 0 = fullShare.left
  hq1 : ∀ c, (pdats 0 c).q 1 = fullShare.right
  howed : ∀ c t, (pdats 0 c).owed t = 0
  hbody : ∀ c, Pipeline.BodyObligation (pdats 0 c) (defs₀ (F := F)) Variants.none () Set.univ
  hin : ∀ c, (Pipeline.ΦA spec0 c : sProp 𝕄) ⊢ (pdats 0 c).Φ 0
  hout : ∀ c, (pdats 0 c).Φ (Fin.last cfg0.N) ⊢ (Pipeline.ΦA spec0 c : sProp 𝕄)
  houts : ∀ c, outs 5 main_v8 c = (pdats 0 c).arrAt 2 cfg0.N
  hrec : ∀ c, (pdats 0 c).recorded 0 = Set.univ

set_option backward.isDefEq.respectTransparency.types false in
/-- REGION 0 over the thread state "every unscoped buffer at the boundary's contents, the generator register at some state,
    nothing owed": entered from the contents before it, left at those contents with the written array at what the
    write-backs left. The read array's buffer is split between the two input windows at the entry and joined at the exit;
    the generator register goes into the invariant and comes back; the kernel has no semaphore of its own. -/
def reg0 (outs : Outs (F := F)) (pdats : (p : Fin 2) → (c : Dev nD) → Dat τ (Elt F) Unit ℕ (Pipeline.UD sig nD τ) ℕ (cfgs p) c)
    (h : Facts0 m outs pdats) : RegionSeg (pcfgs (F := F)) adm pdats () defs₀ Variants.none L0 lv0 0 where
  win := winFacts₀0
  block_pos := block_pos0
  stage_whole := stage_whole0
  K := PEmpty
  osem k := k.elim
  ho := Pipeline.OwnSemFacts.none _
  hbody c := (h.hbody c).loose
  hwaits := Pipeline.hwaits_of_owed_zero _ _ _ _ L0 lv0 0 h.howed
  pre c := iprop(StableHlo.held (c : Thread nD τ) (Pipeline.ucRefs τ sig) (V4 m c) ∗ Rst c)
  post c := iprop(StableHlo.held (c : Thread nD τ) (Pipeline.ucRefs τ sig) (V5 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (fun b => V4 m c b)
  hentry c := by
    rw [Pipeline.ownSems0_none]
    have hsplit := split0 c (pdats 0 c) (fun b => V4 m c b) (h.hA c) (h.hq0 c) (h.hq1 c)
    have hub := Pipeline.unscopedBufs_split₀ (Ix := Unit) (Name := ℕ) (U := Pipeline.UD sig nD τ) (Lvl := ℕ) (Val := Elt F) cfgs 0 winFacts₀0.arr_unscoped c (fun b => V4 m c b)
    rw [Pipeline.unscopedBufs_held] at hub
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c 0]
      icases HO with ⟨%W, HO⟩; iexists W; isplitr; · ipureintro; exact fun _ _ => Or.inl (by rw [h.hrec c]; trivial)
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    rw [Pipeline.ownSems0_none]
    refine (h.hout c).trans ?_
    unfold Pipeline.ΦA
    iintro ⟨Hr, Hp⟩
    isplitl [Hp]; · iexact Hp
    isplitr; · iempintro
    iexact Hr
  hexit c := by
    have hjoin := join0 c (pdats 0 c) (fun b => V4 m c b) (fun b => V5 m outs c b) (h.hA c) (h.hq0 c) (h.hq1 c)
      (V5_of m outs c main_v7 (by decide)) ((show V5 m outs c main_v8 = outs 5 main_v8 c from Function.update_self ..).trans (h.houts c))
    have hub := Pipeline.unscopedBufs_split₀ (Ix := Unit) (Name := ℕ) (U := Pipeline.UD sig nD τ) (Lvl := ℕ) (Val := Elt F) cfgs 0 winFacts₀0.arr_unscoped c (fun b => V5 m outs c b)
    rw [Pipeline.unscopedBufs_held] at hub
    have hrest : (Pipeline.unscopedRest (Ix := Unit) (Name := ℕ) (U := Pipeline.UD sig nD τ) (Lvl := ℕ) (cfgs 0).spec c (fun b => V5 m outs c b) : sProp 𝕄)
        = Pipeline.unscopedRest spec0 c (fun b => V4 m c b) := by
      unfold Pipeline.unscopedRest
      refine bigSep_congr fun b hb => ?_
      have hb' : b ∉ (Finset.univ.image (Pipeline.arrRef spec0) : Finset (Ref sig .tc)) := (Finset.mem_sdiff.mp hb).2
      rw [arrImage0] at hb'
      dsimp only
      rw [V5_of m outs c b (by intro hm; exact hb' (by rw [List.mem_singleton.mp hm]; decide))]
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    rw [h.howed c _]
    icases HO with ⟨%W, -, HO⟩; iexists W; iexact HO

/-! ## Region 1 as a segment of @main -/

/-- What is assumed of region 1's proof data on every core. -/
structure Facts1 (outs : Outs (F := F)) (pdats : (p : Fin 2) → (c : Dev nD) → Dat τ (Elt F) Unit ℕ (Pipeline.UD sig nD τ) ℕ (cfgs p) c) : Prop where
  hA : ∀ c w, (pdats 1 c).A w = V6 m outs c (Pipeline.arrRef spec1 w)
  hq0 : ∀ c, (pdats 1 c).q 0 = fullShare.left
  hq1 : ∀ c, (pdats 1 c).q 1 = fullShare.right
  howed : ∀ c t, (pdats 1 c).owed t = 0
  hbody : ∀ c, Pipeline.BodyObligation (pdats 1 c) (defs₀ (F := F)) Variants.none () Set.univ
  hin : ∀ c, (Pipeline.ΦA spec1 c : sProp 𝕄) ⊢ (pdats 1 c).Φ 0
  hout : ∀ c, (pdats 1 c).Φ (Fin.last cfg1.N) ⊢ (Pipeline.ΦA spec1 c : sProp 𝕄)
  houts : ∀ c, outs 7 main_v29 c = (pdats 1 c).arrAt 2 cfg1.N
  hrec : ∀ c, (pdats 1 c).recorded 0 = Set.univ

set_option backward.isDefEq.respectTransparency.types false in
/-- REGION 1 over the thread state "every unscoped buffer at the boundary's contents, the generator register at some state,
    nothing owed": entered from the contents before it, left at those contents with the written array at what the
    write-backs left. The read array's buffer is split between the two input windows at the entry and joined at the exit;
    the generator register goes into the invariant and comes back; the kernel has no semaphore of its own. -/
def reg1 (outs : Outs (F := F)) (pdats : (p : Fin 2) → (c : Dev nD) → Dat τ (Elt F) Unit ℕ (Pipeline.UD sig nD τ) ℕ (cfgs p) c)
    (h : Facts1 m outs pdats) : RegionSeg (pcfgs (F := F)) adm pdats () defs₀ Variants.none L0 lv0 1 where
  win := winFacts₀1
  block_pos := block_pos1
  stage_whole := stage_whole1
  K := PEmpty
  osem k := k.elim
  ho := Pipeline.OwnSemFacts.none _
  hbody c := (h.hbody c).loose
  hwaits := Pipeline.hwaits_of_owed_zero _ _ _ _ L0 lv0 1 h.howed
  pre c := iprop(StableHlo.held (c : Thread nD τ) (Pipeline.ucRefs τ sig) (V6 m outs c) ∗ Rst c)
  post c := iprop(StableHlo.held (c : Thread nD τ) (Pipeline.ucRefs τ sig) (V7 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (fun b => V6 m outs c b)
  hentry c := by
    rw [Pipeline.ownSems0_none]
    have hsplit := split1 c (pdats 1 c) (fun b => V6 m outs c b) (h.hA c) (h.hq0 c) (h.hq1 c)
    have hub := Pipeline.unscopedBufs_split₀ (Ix := Unit) (Name := ℕ) (U := Pipeline.UD sig nD τ) (Lvl := ℕ) (Val := Elt F) cfgs 1 winFacts₀1.arr_unscoped c (fun b => V6 m outs c b)
    rw [Pipeline.unscopedBufs_held] at hub
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.howed c 0]
      icases HO with ⟨%W, HO⟩; iexists W; isplitr; · ipureintro; exact fun _ _ => Or.inl (by rw [h.hrec c]; trivial)
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    rw [Pipeline.ownSems0_none]
    refine (h.hout c).trans ?_
    unfold Pipeline.ΦA
    iintro ⟨Hr, Hp⟩
    isplitl [Hp]; · iexact Hp
    isplitr; · iempintro
    iexact Hr
  hexit c := by
    have hjoin := join1 c (pdats 1 c) (fun b => V6 m outs c b) (fun b => V7 m outs c b) (h.hA c) (h.hq0 c) (h.hq1 c)
      (V7_of m outs c main_v28 (by decide)) ((show V7 m outs c main_v29 = outs 7 main_v29 c from Function.update_self ..).trans (h.houts c))
    have hub := Pipeline.unscopedBufs_split₀ (Ix := Unit) (Name := ℕ) (U := Pipeline.UD sig nD τ) (Lvl := ℕ) (Val := Elt F) cfgs 1 winFacts₀1.arr_unscoped c (fun b => V7 m outs c b)
    rw [Pipeline.unscopedBufs_held] at hub
    have hrest : (Pipeline.unscopedRest (Ix := Unit) (Name := ℕ) (U := Pipeline.UD sig nD τ) (Lvl := ℕ) (cfgs 1).spec c (fun b => V7 m outs c b) : sProp 𝕄)
        = Pipeline.unscopedRest spec1 c (fun b => V6 m outs c b) := by
      unfold Pipeline.unscopedRest
      refine bigSep_congr fun b hb => ?_
      have hb' : b ∉ (Finset.univ.image (Pipeline.arrRef spec1) : Finset (Ref sig .tc)) := (Finset.mem_sdiff.mp hb).2
      rw [arrImage1] at hb'
      dsimp only
      rw [V7_of m outs c b (by intro hm; exact hb' (by rw [List.mem_singleton.mp hm]; decide))]
    rw [hub, hrest]
    iintro ⟨Ha, HO, HY, Hrest⟩
    imodintro
    isplitl [Ha Hrest]
    · isplitl [Ha]; · iapply hjoin; iexact Ha
      iexact Hrest
    isplitl [HY]; · iexact HY
    unfold Pipeline.Dat.owesAt Pipeline.owesWithin
    rw [h.howed c _]
    icases HO with ⟨%W, -, HO⟩; iexists W; iexact HO

/-! ## The run of @main -/

/-- The last thread state without the `owes`: every unscoped buffer at the last boundary's contents, the generator
    register at some state. -/
abbrev Tlast (outs : Outs (F := F)) (c : Dev nD) : sProp 𝕄 :=
  iprop(StableHlo.held (c : Thread nD τ) (Pipeline.ucRefs τ sig) (V8 m outs c) ∗ ∃ r, prngReg c r)

/-- The last link of the chain: the generator register moves beside the buffers, the `owes` stays apart. -/
theorem last_link (outs : Outs (F := F)) (c : Dev nD) :
    (iprop(StableHlo.held (c : Thread nD τ) (Pipeline.ucRefs τ sig) (V8 m outs c) ∗ Rst c) : sProp 𝕄)
      ⊢ iprop(Tlast m outs c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- From any memory with zero counters, every weakly fair execution of @main terminates, nothing faulting, and every
    final memory holds each unscoped buffer at the last valuation `V8` — the launch contents folded through the host
    stretches, with each region's written array at what its write-backs left (`outs`): the library's launch of a list of
    segments over the eight items of @main, the two regions' records those of this module. -/
theorem run_all (ρ : Dev nD → PrngReg) (outs : Outs (F := F))
    (pdats : (p : Fin 2) → (c : Dev nD) → Dat τ (Elt F) Unit ℕ (Pipeline.UD sig nD τ) ℕ (cfgs p) c)
    (h0 : Facts0 m outs pdats) (h1 : Facts1 m outs pdats) :
    θ_run defs (onTc (τ := τ) (main (F := F))) ⟨m, fun _ => 0, ρ⟩ (fun r => ∀ c : Dev nD, ∀ b ∈ Pipeline.ucRefs τ sig,
      r.2.mem (((c : Thread nD τ)).1, b) = V8 m outs c b) :=
  Pipeline.θ_run_regions_kit_dev (pcfgs (F := F)) adm pdats () cellOf_inj embL defs₀ Variants.none L0 lv0 m ρ main
    (segs m outs Variants.none L0 lv0 (fun _ c => Rst c) () pdats (reg0 m outs pdats h0) (reg1 m outs pdats h1))
    (fun c Q => by
      rw [show main (F := F) c = Seg.run (segs m outs Variants.none L0 lv0 (fun _ c => Rst c) () pdats (reg0 m outs pdats h0) (reg1 m outs pdats h1) c)
        from (main_chain c).trans (by chain_rfl)])
    (fun c => by simp only [segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tlast m outs)
    (hch := fun c => ⟨.rfl, .rfl, .rfl, .rfl, .rfl, .rfl, .rfl, .rfl, last_link m outs c⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m outs c b)
    (hfin := fun c s' => by
      iintro ⟨⟨Hh, -⟩, HSI⟩
      unfold StableHlo.held
      imodintro
      iapply (pointsTo_read_all (Pipeline.ucRefs τ sig) (fun b => (((c : Thread nD τ)).1, b)) (V8 m outs c) s')
      isplitl [Hh] <;> iassumption)
    (hQ := fun s h c => h c)

end Cert.KernelIdeal.Hand

end
-- ==== Proof.Frame0RunsBase.lean ====
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first region's kernel body: what its two branch conditions are at every grid point, where its
    output window is idle, the names of its staging and scratch memrefs, the region invariant with the
    accumulator spelled as a memref, and the blocks of the two input windows. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The two branch conditions -/

/-- The column-block coordinate is 0: the accumulator is reset before it is added to. -/
abbrev cond0_0 (i : grid0.Coords) : Prop := (Scalar.cmpi .ne (Scalar.extui (Scalar.cmpi .eq (BitVec.ofNat 32 (i 1).val) 0#32)) 0#32) = 1#1
/-- It holds exactly at the first point of every row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The column-block coordinate is the last one: the accumulator is copied to the output block. -/
abbrev cond0_1 (i : grid0.Coords) : Prop := k0_cond2 i = 1#1
/-- It holds exactly at the last point of every row of the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a row the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a row the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024 .f32 := (Memref.whole cc0_stg2_0 : Memref sig .tc .vmem S1024 .f32).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1024 .f32 := Memref.whole cc0_scratch0
/-- The accumulator as a view: what it holds is stated through it. -/
abbrev VS0 : View sig .tc .vmem S1024 .f32 := scM0.view

/-- The scoped buffers of the core that belong to the other region, each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; simp only [scM0, owns_whole]; try rfl

/-- The zero offsets of the whole-vector and whole-matrix rectangles, as constant functions. -/
theorem hz1 : (![0] : Fin 1 → Nat) = fun _ => 0 := funext fun a => by fin_cases a <;> rfl
theorem hz2 : (![0, 0] : Fin 2 → Nat) = fun _ => 0 := funext fun a => by fin_cases a <;> rfl

/-! ## The input windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the region-entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Hand0

end
-- ==== Proof.Frame0RunsA.lean ====
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import proofs.«109708_j47038481826438_1_alg».proof.Proof.Frame0RunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at the first grid point of a row: the accumulator is reset to the zero vector, then
    added to; it is not copied out. Whatever the accumulator held before does not matter. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The pieces the body's stores leave in the accumulator in this case, with the proof that from whole
    memrefs — the inputs at `x0`, `x1`, the output at `xi2`, the accumulator at anything — the body runs
    to the continuation holding the inputs and the output as they were and the accumulator with its pieces
    written. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) :
    { LS0 : List (View.Piece (Elt F) S1024 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The pieces cover the accumulator: two stores of the whole vector. -/
theorem scover0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) (y : S1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024.size (by sl_kernel_rfl) y

/-- What this case leaves in the accumulator: its pieces read back. -/
def sout0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) : Vec F S1024 .f32 :=
  VS0.read (Elt F) (VS0.writes (Elt F) VS0.junk (kernelRun0_A c i arg2 harg2 arg3 harg3 arg4 harg4 arg5 harg5 hc0 hc1 x0 x1).1)

/-- It is the accumulated value over the reset value: the second payload of the input blocks over the first. -/
theorem sout0_A_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : cond0_0 i) (hc1 : ¬cond0_1 i)
    (x0 x1 : Vec F S1024x1024 .bf16) :
    sout0_A c i arg2 harg2 arg3 harg3 arg4 harg4 arg5 harg5 hc0 hc1 x0 x1 = k0_pay2 i x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x1024) hz2]

end Cert.KernelIdeal.Hand0

end
-- ==== Proof.Frame0RunsB.lean ====
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import proofs.«109708_j47038481826438_1_alg».proof.Proof.Frame0RunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at a grid point that is neither the first nor the last of its row: the accumulator is
    neither reset nor copied out. The body loads the two input blocks and the accumulator and stores the
    accumulated value back; the output block is not touched. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The pieces the body's stores leave in the accumulator in this case, with the proof that from whole
    memrefs — the inputs at `x0`, `x1`, the output at `xi2`, the accumulator at `xs0` — the body runs
    to the continuation holding the inputs and the output as they were and the accumulator with its pieces
    written. -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) :
    { LS0 : List (View.Piece (Elt F) S1024 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The pieces cover the accumulator: one store of the whole vector. -/
theorem scover0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) (y : S1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024.size (by sl_kernel_rfl) y

/-- What this case leaves in the accumulator: its pieces read back. -/
def sout0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) : Vec F S1024 .f32 :=
  VS0.read (Elt F) (VS0.writes (Elt F) VS0.junk (kernelRun0_B c i arg2 harg2 arg3 harg3 arg4 harg4 arg5 harg5 hc0 hc1 x0 x1 xs0).1)

/-- It is the accumulated value: the second payload of the input blocks over what the accumulator held. -/
theorem sout0_B_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : ¬cond0_1 i)
    (x0 x1 : Vec F S1024x1024 .bf16) (xs0 : Vec F S1024 .f32) :
    sout0_B c i arg2 harg2 arg3 harg3 arg4 harg4 arg5 harg5 hc0 hc1 x0 x1 xs0 = k0_pay2 i x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz1]
  simp only [View.readAt_eq_ld, harg2.read_unread, harg3.read_unread, harg5.read_unread, View.ld_unit_zero (S := S1024x1024) hz2, View.ld_unit_zero (S := S1024) hz1]

end Cert.KernelIdeal.Hand0

end
-- ==== Proof.Frame0RunsC.lean ====
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import proofs.«109708_j47038481826438_1_alg».proof.Proof.Frame0RunsBase
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The kernel body at the last grid point of a row: the accumulator is added to and then copied to the
    output block. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The pieces the body's stores leave in the output block and in the accumulator in this case, with the
    proof that from whole memrefs — the inputs at `x0`, `x1`, the output at anything, the accumulator at
    `xs0` — the body runs to the continuation holding the inputs as they were and the output and the
    accumulator with their pieces written. -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    Σ' (L2 : List (View.Piece (Elt F) S1024 .f32)), { LS0 : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The output's pieces cover its block: one store of the whole vector. -/
theorem cover0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) (y : S1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024.size (by sl_kernel_rfl) y

/-- What this case leaves in the output's staging buffer: its pieces read back. -/
def out0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) : Vec F S1024 .f32 :=
  VO0_2.read (Elt F) (VO0_2.writes (Elt F) VO0_2.junk (kernelRun0_C c i arg2 harg2 arg3 harg3 arg4 harg4 arg5 harg5 hc0 hc1 x0 x1 xs0).1)

/-- The accumulator's pieces cover it: one store of the whole vector. -/
theorem scover0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) (y : S1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024.size (by sl_kernel_rfl) y

/-- What this case leaves in the accumulator: its pieces read back. -/
def sout0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) : Vec F S1024 .f32 :=
  VS0.read (Elt F) (VS0.writes (Elt F) VS0.junk (kernelRun0_C c i arg2 harg2 arg3 harg3 arg4 harg4 arg5 harg5 hc0 hc1 x0 x1 xs0).2.1)

/-- The accumulator holds the accumulated value: the second payload of the input blocks over what it held. -/
theorem sout0_C_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    sout0_C c i arg2 harg2 arg3 harg3 arg4 harg4 arg5 harg5 hc0 hc1 x0 x1 xs0 = k0_pay2 i x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz1]
  simp only [View.readAt_eq_ld, harg2.read_unread, harg3.read_unread, harg5.read_unread, View.ld_unit_zero (S := S1024x1024) hz2, View.ld_unit_zero (S := S1024) hz1]

/-- The output block holds the same value: the copy of the accumulator. -/
theorem out0_C_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole)
    (hc0 : ¬cond0_0 i) (hc1 : cond0_1 i)
    (x0 x1 : Vec F S1024x1024 .bf16) (xs0 : Vec F S1024 .f32) :
    out0_C c i arg2 harg2 arg3 harg3 arg4 harg4 arg5 harg5 hc0 hc1 x0 x1 xs0 = k0_pay2 i x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz1, View.readCov_unit_zero (S := S1024) _ hz1]
  simp only [View.readAt_eq_ld, harg2.read_unread, harg3.read_unread, harg5.read_unread, View.ld_unit_zero (S := S1024x1024) hz2, View.ld_unit_zero (S := S1024) hz1]

end Cert.KernelIdeal.Hand0

end
-- ==== Proof.Frame0.lean ====
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import proofs.«109708_j47038481826438_1_alg».proof.Proof.Frame0RunsA
import proofs.«109708_j47038481826438_1_alg».proof.Proof.Frame0RunsB
import proofs.«109708_j47038481826438_1_alg».proof.Proof.Frame0RunsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The proof data of the first region and its body obligation.

    The region walks an 8 × 8 grid of blocks row by row. At the first point of a row the accumulator is
    reset to the zero vector; at every point the masked row sums of the point's two input blocks are added
    to it; at the last point of a row it is copied to the output block, which is written back there and
    nowhere else. So what the accumulator holds after a point is a function of the input blocks of the
    points of its row up to that point, and does not depend on what it held when the region was entered:
    `sAfter0` names it by recursion on the point, and the region invariant carries it from each point
    to the next. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Region
variable (V : (c : Dev nD) → (b : Ref sig .tc) → Buf (Elt F) ((c : Thread nD τ).loc b))

/-! ## What the accumulator holds after each point -/

/-- What the accumulator holds after the body at the point numbered `n`: at the first point of a row the
    accumulated value of the point's input blocks over the reset value, elsewhere over what the point
    before left. -/
def sAfter0N (c : Dev nD) : (n : ℕ) → n < cfg0.N → Vec F S1024 .f32
  | 0, hn => k0_pay2 (grid0.coords ⟨0, hn⟩) (iblk0 V c 0 ⟨0, hn⟩) (iblk0 V c 1 ⟨0, hn⟩) (k0_pay1 (F := F))
  | n + 1, hn =>
    if (n + 1) % 8 = 0 then
      k0_pay2 (grid0.coords ⟨n + 1, hn⟩) (iblk0 V c 0 ⟨n + 1, hn⟩) (iblk0 V c 1 ⟨n + 1, hn⟩) (k0_pay1 (F := F))
    else
      k0_pay2 (grid0.coords ⟨n + 1, hn⟩) (iblk0 V c 0 ⟨n + 1, hn⟩) (iblk0 V c 1 ⟨n + 1, hn⟩) (sAfter0N c n (Nat.lt_of_succ_lt hn))

/-- The same at a point. -/
def sAfter0 (c : Dev nD) (t : Fin cfg0.N) : Vec F S1024 .f32 := sAfter0N V c t.val t.isLt

/-- At the first point of a row: the accumulated value over the reset value. -/
theorem sAfter0_reset (c : Dev nD) (t : Fin cfg0.N) (h : t.val % 8 = 0) :
    sAfter0 V c t = k0_pay2 (grid0.coords t) (iblk0 V c 0 t) (iblk0 V c 1 t) (k0_pay1 (F := F)) := by
  obtain ⟨n, hn⟩ := t
  cases n with
  | zero => exact rfl
  | succ n => exact (if_pos h).trans rfl

/-- Elsewhere: the accumulated value over what the point before left. -/
theorem sAfter0_acc (c : Dev nD) (t : Fin cfg0.N) (h : ¬t.val % 8 = 0) :
    sAfter0 V c t = k0_pay2 (grid0.coords t) (iblk0 V c 0 t) (iblk0 V c 1 t) (sAfter0 V c ⟨t.val - 1, Nat.lt_of_le_of_lt (Nat.sub_le _ _) t.isLt⟩) := by
  obtain ⟨n, hn⟩ := t
  cases n with
  | zero => exact absurd (Nat.zero_mod _) h
  | succ n => exact (if_neg h).trans rfl

/-! ## The region invariant -/

/-- The invariant before the point numbered `n`: before the first point the class's (every scoped buffer
    no window stages at some contents, the generator register at some state); afterwards the same with the
    accumulator at what the point before left in it. -/
def PhiS0 (c : Dev nD) : (n : ℕ) → n ≤ cfg0.N → sProp 𝕄
  | 0, _ => Pipeline.ΦA spec0 c
  | n + 1, hn => iprop(iprop(owns (c : Thread nD τ) scM0 fullShare (sAfter0 V c ⟨n, hn⟩) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (sAfter0 V c ⟨n, hn⟩) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (sAfter0 V c ⟨n - 1, by omega⟩) ∗ rest0 (F := F) c) ∗ (∃ r, prngReg c r)) := by
  cases n with
  | zero => exact absurd rfl hz
  | succ n => rfl

/-! ## The proof data -/

/-- The proof data of the region on core `c`: the arrays as the region finds them; after the body at a
    point each input's buffer at its block and the output's at the accumulator's value; the invariant above;
    nothing owed; the one array of the two input windows held half and half, the output's array whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => sAfter0 V c t
  Φ t := PhiS0 V c t.val (Nat.le_of_lt_succ t.isLt)
  q := fun | ⟨0, _⟩ => fullShare.left | ⟨1, _⟩ => fullShare.right | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sAfter0 V c t := by dsimp only [dat0]

theorem owed_eq0 (c : Dev nD) (t : Fin (cfg0.N + 1)) : (dat0 V c).owed t = 0 := by dsimp only [dat0]

/-- The invariant at a point's start. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's number modulo 8 says which
    of the three cases it is in; the invariant hands the body the accumulator at what the point before left
    (at anything before the first point, and at the first point of a row whatever it holds is overwritten) and
    takes it back at this point's value; away from the last point of a row the output's buffer goes back as
    it came, at the last point it holds the accumulator's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [PhiS0_castSucc V c t]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    have hS : ∀ f, scM0.view.read (Elt F) (scM0.view.writes (Elt F) f (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).1) = sAfter0 V c ⟨t.val, t.isLt⟩ := fun f =>
      (View.read_writes_of_cover _ _ VS0 VS0.junk _ (scover0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t))).trans
        ((sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).trans (sAfter0_reset V c t h0).symm)
    by_cases hz : t.val = 0
    · rw [PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2
    · rw [PhiS0_pos V c _ _ hz]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2
  · have hz : t.val ≠ 0 := fun e => h0 (by rw [e])
    rw [PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      have hS : ∀ f, scM0.view.read (Elt F) (scM0.view.writes (Elt F) f (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).2.1) = sAfter0 V c ⟨t.val, t.isLt⟩ := fun f =>
        (View.read_writes_of_cover _ _ VS0 VS0.junk _ (scover0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩))).trans
          ((sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).trans (sAfter0_acc V c t h0).symm)
      have hO : ∀ f, (ms0_2 t).view.read (Elt F) ((ms0_2 t).view.writes (Elt F) f (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).1) = sAfter0 V c t := fun f =>
        (View.read_writes_of_cover _ _ VO0_2 VO0_2.junk _ (cover0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩))).trans
          ((out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).trans (sAfter0_acc V c t h0).symm)
      iintro ⟨⟨⟨HS0, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (sAfter0 V c ⟨t.val - 1, Nat.lt_of_le_of_lt (Nat.sub_le _ _) t.isLt⟩)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      unfold owns; iexists _; isplitr
      swap; · iexact H2
      ipureintro; exact hO _
    · rw [Dat.leavesExact_idle (dat0 V c) 2 t (idleAt0_2 t (fun h => h1 ((hcond0_1 t).mp h))) (noFlush0_2 t (fun h => h1 ((hcond0_1 t).mp h)))]
      have hS : ∀ f, scM0.view.read (Elt F) (scM0.view.writes (Elt F) f (kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).1) = sAfter0 V c ⟨t.val, t.isLt⟩ := fun f =>
        (View.read_writes_of_cover _ _ VS0 VS0.junk _ (scover0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩))).trans
          ((sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).trans (sAfter0_acc V c t h0).symm)
      iintro ⟨⟨⟨HS0, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (sAfter0 V c ⟨t.val - 1, Nat.lt_of_le_of_lt (Nat.sub_le _ _) t.isLt⟩)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact hS _
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem Phi0_in (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem Phi0_out (c : Dev nD) : (dat0 V c).Φ (Fin.last cfg0.N) ⊢ (Pipeline.ΦA spec0 c : sProp 𝕄) := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Region

end Cert.KernelIdeal.Hand0

end
-- ==== Proof.Frame1RunsBase.lean ====
/- The second region's kernel, point by point: the two conditions of its body in closed form over the 4×4 grid,
    the blocks its two input windows hold at a point, and what its accumulator (a scratch vector of two sums, one per
    half of the batch) holds after each point.

    The accumulator is set to zero at the grid's first point only, and at every point the body adds to it, for each
    half, the sum over the point's 512×512 tile of exp(-2·max(‖x_r‖² + ‖x_s‖² − 2⟨x_r, x_s⟩, 0)) masked to the pairs
    whose global row index is below the global column index. So what it holds after point `t` is determined by the
    input blocks of the points up to `t` alone, and not by what the buffer held when the region was entered. -/
import proofs.«109708_j47038481826438_1_alg».proof.Proof.Gen.KernelIdeal.Launch
import proofs.«109708_j47038481826438_1_alg».proof.Proof.Gen.KernelIdeal.Skeleton
import proofs.«109708_j47038481826438_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's two conditions -/

/-- The first condition: both grid coordinates are zero (the accumulator is set to zero). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second condition: both grid coordinates are the last (the logarithm of the scaled accumulator is stored to the output). -/
abbrev cond1_1 (i : grid1.Coords) : Prop := k1_cond2 i = 1#1
/-- It holds at the last point only. -/
theorem hcond1_1 : ∀ t : Fin cfg1.N, cond1_1 (grid1.coords t) ↔ t.val = 15 :=
  (by decide +kernel : ∀ t : Fin grid1.N, cond1_1 (grid1.coords t) ↔ t.val = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the output window, -/
theorem idleAt1_2 : ∀ t : Fin cfg1.N, ¬cond1_1 (grid1.coords t) → cfg1.idle 2 (grid1.coords t) = true := by decide +kernel
/-- and the window is not written back there; -/
theorem noFlush1_2 : ∀ t : Fin cfg1.N, ¬cond1_1 (grid1.coords t) → (cfg1.win 2).flush t = false := by decide +kernel
/-- at the last point it stores the whole block. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S2x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2 .f32 := win1_2.stage (cfg1.slots t 2)
abbrev hs1_2 (t : Fin cfg1.N) : (ms1_2 t).IsWhole := hstage1_2 ((cfg1.slots t 2).cast nbuf1_2)
/-- The accumulator: a whole scoped buffer of two sums. -/
abbrev scM1_0 : Memref sig .tc .vmem S2 .f32 := Memref.whole cc1_scratch0
abbrev VS1_0 : View sig .tc .vmem S2 .f32 := scM1_0.view
abbrev VO1_2 : View sig .tc .vmem S2 .f32 := (Memref.whole cc1_stg2_0 : Memref sig .tc .vmem S2 .f32).view

/-! ## The windows' blocks and the accumulator's contents -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one point adds: the accumulator `s` plus, per half, the masked sum over the point's tile. -/
def step1 (c : Dev nD) (t : Fin cfg1.N) (s : Vec F S2 .f32) : Vec F S2 .f32 :=
  k1_pay1 (k1_pay4 (grid1.coords t)) (k1_pay5 (iblk1 V c 0 t) (iblk1 V c 1 t)) (k1_pay6 (F := F)) s

/-- The accumulator after the body at position `n`: zero plus the first point's tile sums, then one tile's sums more per point. -/
def sAfter1N (c : Dev nD) : (n : ℕ) → n < cfg1.N → Vec F S2 .f32
  | 0, hn => step1 V c ⟨0, hn⟩ (k1_pay3 (F := F))
  | n + 1, hn => step1 V c ⟨n + 1, hn⟩ (sAfter1N c n (Nat.lt_of_succ_lt hn))

/-- The accumulator after the body at point `t`. -/
def sAfter1 (c : Dev nD) (t : Fin cfg1.N) : Vec F S2 .f32 := sAfter1N V c t.val t.isLt

/-- At the first point: the tile sums over the zero vector. -/
theorem sAfter1_first (c : Dev nD) (t : Fin cfg1.N) (h : t.val = 0) :
    sAfter1 V c t = k1_pay1 (k1_pay4 (grid1.coords t)) (k1_pay5 (iblk1 V c 0 t) (iblk1 V c 1 t)) (k1_pay6 (F := F)) (k1_pay3 (F := F)) := by
  obtain ⟨n, hn⟩ := t
  cases n with
  | zero => rfl
  | succ n => exact absurd h (Nat.succ_ne_zero n)

/-- At any other point: the tile sums over what the point before left. -/
theorem sAfter1_next (c : Dev nD) (t : Fin cfg1.N) (h : t.val ≠ 0) :
    sAfter1 V c t = k1_pay1 (k1_pay4 (grid1.coords t)) (k1_pay5 (iblk1 V c 0 t) (iblk1 V c 1 t)) (k1_pay6 (F := F))
      (sAfter1 V c ⟨t.val - 1, Nat.lt_of_le_of_lt (Nat.sub_le _ _) t.isLt⟩) := by
  obtain ⟨n, hn⟩ := t
  cases n with
  | zero => exact absurd rfl h
  | succ n => rfl

end Cert.KernelIdeal.Hand1

end
-- ==== Proof.Frame1RunsA.lean ====
/- The second region's body at the grid's first point: the accumulator is first set to zero, then the body loads the two
   input blocks and the accumulator (the zero vector just stored) and stores the accumulator plus the tile's masked
   sums; nothing is stored to the output. What the accumulator held before does not matter. -/
import proofs.«109708_j47038481826438_1_alg».proof.Proof.Frame1RunsBase
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hz3A : (![0, 0, 0] : Fin 3 → Nat) = fun _ => 0 := funext fun a => by fin_cases a <;> rfl
theorem hz1A : (![0] : Fin 1 → Nat) = fun _ => 0 := funext fun a => by fin_cases a <;> rfl

set_option maxHeartbeats 4000000 in
/-- The body's run in this case, on any whole memrefs: the inputs and the (idle) output buffer are handed back as they
    were; the accumulator, taken at any contents, ends with the pieces the run finds written. -/
noncomputable def kernelRun1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i)
    (x0 x1 : Vec F S2x512x1024 .bf16) :
    { LS0 : List (View.Piece (Elt F) S2 .f32) //
      ∀ (xi2 : Vec F S2 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The run's pieces cover the accumulator (two whole stores). -/
theorem scover1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i) (x0 x1 : Vec F S2x512x1024 .bf16) (y : S2.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2.size (by sl_kernel_rfl) y

/-- What they leave: the zero vector plus the tile's masked sums. -/
theorem sval1_A (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : cond1_0 i) (hc1 : ¬cond1_1 i) (x0 x1 : Vec F S2x512x1024 .bf16)
    {sp : Space} (v : View sig .tc sp S2 .f32) (f : v.ty.Contents (Elt F)) :
    v.read (Elt F) (v.writes (Elt F) f (kernelRun1_A c i arg2 harg2 arg3 harg3 arg4 harg4 arg5 harg5 hc0 hc1 x0 x1).1)
      = k1_pay1 (k1_pay4 i) (k1_pay5 x0 x1) (k1_pay6 (F := F)) (k1_pay3 (F := F)) := by
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2) hz1A, View.readCov_unit_zero (S := S2) _ hz1A]
  simp only [View.readAt_eq_ld, harg2.read_unread, harg3.read_unread, View.ld_unit_zero (S := S2x512x1024) hz3A]

end Cert.KernelIdeal.Hand1

end
-- ==== Proof.Frame1RunsB.lean ====
/- The second region's body at a point that is neither the grid's first nor its last: the accumulator is not reset and
   nothing is stored to the output; the body loads the two input blocks and the accumulator and stores the accumulator
   plus the tile's masked sums. -/
import proofs.«109708_j47038481826438_1_alg».proof.Proof.Frame1RunsBase
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hz3 : (![0, 0, 0] : Fin 3 → Nat) = fun _ => 0 := funext fun a => by fin_cases a <;> rfl
theorem hz1 : (![0] : Fin 1 → Nat) = fun _ => 0 := funext fun a => by fin_cases a <;> rfl

set_option maxHeartbeats 4000000 in
/-- The body's run in this case, on any whole memrefs: the inputs and the (idle) output buffer are handed back as they
    were; the accumulator ends with the pieces the run finds written. -/
noncomputable def kernelRun1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i)
    (x0 x1 : Vec F S2x512x1024 .bf16) (xs0 : Vec F S2 .f32) :
    { LS0 : List (View.Piece (Elt F) S2 .f32) //
      ∀ (xi2 : Vec F S2 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The run's pieces cover the accumulator (one whole store). -/
theorem scover1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i) (x0 x1 : Vec F S2x512x1024 .bf16) (xs0 : Vec F S2 .f32) (y : S2.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S2.size (by sl_kernel_rfl) y

/-- What they leave: the accumulator it found plus the tile's masked sums. -/
theorem sval1_B (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : ¬cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_B c i arg2 harg2 arg3 harg3 arg4 harg4 arg5 harg5 hc0 hc1 x0 x1 xs0).1)
      = k1_pay1 (k1_pay4 i) (k1_pay5 x0 x1) (k1_pay6 (F := F)) xs0 := by
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S2) hz1]
  simp only [View.readAt_eq_ld, harg2.read_unread, harg3.read_unread, harg5.read_unread, View.ld_unit_zero (S := S2) hz1, View.ld_unit_zero (S := S2x512x1024) hz3]

end Cert.KernelIdeal.Hand1

end
-- ==== Proof.Frame1RunsC.lean ====
/- The second region's body at the grid's last point: the accumulator is not reset; the body loads the two input blocks
   and the accumulator, stores the accumulator plus the tile's masked sums, then loads it back and stores to the output
   buffer the logarithm of it divided by the number of pairs. What the output buffer held before does not matter. -/
import proofs.«109708_j47038481826438_1_alg».proof.Proof.Frame1RunsBase
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hz3C : (![0, 0, 0] : Fin 3 → Nat) = fun _ => 0 := funext fun a => by fin_cases a <;> rfl
theorem hz1C : (![0] : Fin 1 → Nat) = fun _ => 0 := funext fun a => by fin_cases a <;> rfl

set_option maxHeartbeats 4000000 in
/-- The body's run in this case, on any whole memrefs: the inputs are handed back as they were; the output buffer, taken
    at any contents, and the accumulator end with the pieces the run finds written. -/
noncomputable def kernelRun1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i)
    (x0 x1 : Vec F S2x512x1024 .bf16) (xs0 : Vec F S2 .f32) :
    Σ' (L2 : List (View.Piece (Elt F) S2 .f32)), { LS0 : List (View.Piece (Elt F) S2 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The run's pieces for the output buffer cover it (one whole store). -/
theorem cover1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32) (y : S2.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2.size (by sl_kernel_rfl) y

/-- The run's pieces for the accumulator cover it (one whole store). -/
theorem scover1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32) (y : S2.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2.size (by sl_kernel_rfl) y

/-- What the accumulator ends with: what it held plus the tile's masked sums. -/
theorem sval1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_C c i arg2 harg2 arg3 harg3 arg4 harg4 arg5 harg5 hc0 hc1 x0 x1 xs0).2.1)
      = k1_pay1 (k1_pay4 i) (k1_pay5 x0 x1) (k1_pay6 (F := F)) xs0 := by
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S2) hz1C]
  simp only [View.readAt_eq_ld, harg2.read_unread, harg3.read_unread, harg5.read_unread, View.ld_unit_zero (S := S2) hz1C, View.ld_unit_zero (S := S2x512x1024) hz3C]

/-- What the output buffer ends with: the logarithm of the scaled final accumulator. -/
theorem oval1_C (c : Dev nD) (i : grid1.Coords) (arg2 : Memref sig .tc .vmem S2x512x1024 .bf16) (harg2 : arg2.IsWhole) (arg3 : Memref sig .tc .vmem S2x512x1024 .bf16) (harg3 : arg3.IsWhole) (arg4 : Memref sig .tc .vmem S2 .f32) (harg4 : arg4.IsWhole) (arg5 : Memref sig .tc .vmem S2 .f32) (harg5 : arg5.IsWhole)
    (hc0 : ¬cond1_0 i) (hc1 : cond1_1 i) (x0 x1 : Vec F S2x512x1024 .bf16) (xs0 : Vec F S2 .f32)
    {sp : Space} (v : View sig .tc sp S2 .f32) (f : v.ty.Contents (Elt F)) :
    v.read (Elt F) (v.writes (Elt F) f (kernelRun1_C c i arg2 harg2 arg3 harg3 arg4 harg4 arg5 harg5 hc0 hc1 x0 x1 xs0).1)
      = k1_pay2 (k1_pay1 (k1_pay4 i) (k1_pay5 x0 x1) (k1_pay6 (F := F)) xs0) := by
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero (S := S2) hz1C, View.readCov_unit_zero (S := S2) _ hz1C]
  simp only [View.readAt_eq_ld, harg2.read_unread, harg3.read_unread, harg5.read_unread, View.ld_unit_zero (S := S2) hz1C, View.ld_unit_zero (S := S2x512x1024) hz3C]

end Cert.KernelIdeal.Hand1

end
-- ==== Proof.Frame1.lean ====
/- The second region (the pairwise-distance uniformity term): the proof data of its pipeline and its body obligation.

   The grid is 4×4; window 0 holds the row tile of the stacked halves, window 1 the column tile (both windows of one
   array), window 2 the two-element result. The accumulator (a scratch vector of two sums) is named point by point:
   after point `t` it holds zero plus, for every point up to `t` in grid order, the masked tile sums of that point. The
   result buffer is stored only at the last point, with the logarithm of the accumulator over the number of pairs. -/
import proofs.«109708_j47038481826438_1_alg».proof.Proof.Frame1RunsA
import proofs.«109708_j47038481826438_1_alg».proof.Proof.Frame1RunsB
import proofs.«109708_j47038481826438_1_alg».proof.Proof.Frame1RunsC

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The invariant -/

/-- A whole scoped buffer the body never touches, at some contents. -/
abbrev heldAny (c : Dev nD) (b : Ref sig .tc) : sProp 𝕄 :=
  iprop(∃ f : Buf (Elt F) ((c : Thread nD τ).loc b), ((c : Thread nD τ).loc b) ↦{fullShare} f)

/-- The class invariant, conjunct by conjunct: the first region's staging buffers and accumulator at some contents, this
    region's accumulator owned at some contents, the generator register at some state. -/
theorem PhiA1_eq (c : Dev nD) :
    (Pipeline.ΦA spec1 c : sProp 𝕄)
      = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ (∃ d, owns (c : Thread nD τ) scM1_0 fullShare d)) ∗ (∃ r, prngReg c r)) := by
  unfold Pipeline.ΦA; rw [scopedRest1_eq]; simp only [scM1_0, owns_whole]; try rfl

/-- The invariant before position `n`: before the first point the class invariant (the accumulator at anything);
    afterwards the same with the accumulator at what the point before left. -/
def Phi1 (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c ⟨n, hn⟩)) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c ⟨n - 1, by omega⟩)) ∗ (∃ r, prngReg c r)) := by
  cases n with
  | zero => exact absurd rfl hz
  | succ n => rfl

/-! ## The proof data -/

/-- The proof data of the second pipeline on core `c`: the arrays as the region finds them; after the body at point `t`
    each input's buffer at its block and the result buffer at the logarithm of the scaled accumulator (it matters at
    the last point only); the two input windows share the halves of their one array's full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (sAfter1 V c t)
  Φ t := Phi1 V c t.val (Nat.le_of_lt_succ t.isLt)
  q := fun | ⟨0, _⟩ => fullShare.left | ⟨1, _⟩ => fullShare.right | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay2 (sAfter1 V c t) := by dsimp only [dat1]
theorem owed_eq1 (c : Dev nD) (t : Fin (cfg1.N + 1)) : (dat1 V c).owed t = 0 := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- After point `t`: the accumulator at that point's contents. -/
theorem Phi1_succ (c : Dev nD) (t : Fin cfg1.N) :
    (dat1 V c).Φ t.succ = iprop(iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1 ∗ heldAny (F := F) c cc0_scratch0 ∗ owns (c : Thread nD τ) scM1_0 fullShare (sAfter1 V c t)) ∗ (∃ r, prngReg c r)) := rfl

/-- What the launch hands the region is the invariant before the first point. -/
theorem Phi1_in (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem Phi1_out (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_eq]
  iintro ⟨⟨HR0, HR1, HR2, HR3, HR4, HR5, HR6, HS0⟩, Hg⟩
  isplitl [HR0 HR1 HR2 HR3 HR4 HR5 HR6 HS0]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which of
    the three cases the point is in; the invariant hands the body the accumulator at what the point before left (at
    anything at the first point) and takes it back at this point's contents; the result buffer is handed back untouched
    except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [sAfter1_first V c t h0]
    rw [Phi1_castSucc V c t, Phi1_zero V c _ _ h0, PhiA1_eq]
    iintro ⟨⟨⟨HR0, HR1, HR2, HR3, HR4, HR5, HR6, HS0⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1_0 (Memref.isWhole_whole _) hc0 hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HR0 HR1 HR2 HR3 HR4 HR5 HR6 HS0 Hg]
    · isplitl [HR0 HR1 HR2 HR3 HR4 HR5 HR6 HS0]
      ·
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        unfold owns; iexists _; isplitr
        swap; · iexact HS0
        ipureintro; exact sval1_A c (grid1.coords t) (ms1_0 t) (hs1_0 t) (ms1_1 t) (hs1_1 t) (ms1_2 t) (hs1_2 t) scM1_0 (Memref.isWhole_whole _) hc0 hc1 (iblk1 V c 0 t) (iblk1 V c 1 t) _ _
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [sAfter1_next V c t h0]
    rw [Phi1_castSucc V c t, Phi1_pos V c _ _ h0]
    by_cases h1 : t.val = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, sAfter1_next V c t h0]
      iintro ⟨⟨⟨HR0, HR1, HR2, HR3, HR4, HR5, HR6, HS0⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact sval1_C c (grid1.coords t) (ms1_0 t) (hs1_0 t) (ms1_1 t) (hs1_1 t) (ms1_2 t) (hs1_2 t) scM1_0 (Memref.isWhole_whole _) hc0 hc1 (iblk1 V c 0 t) (iblk1 V c 1 t) _ _ _
        iexact Hg
      isplitl [Ho]; · iexact Ho
      isplitl [H0]; · iexact H0
      isplitl [H1]; · iexact H1
      unfold owns; iexists _; isplitr
      swap; · iexact H2
      ipureintro; exact oval1_C c (grid1.coords t) (ms1_0 t) (hs1_0 t) (ms1_1 t) (hs1_1 t) (ms1_2 t) (hs1_2 t) scM1_0 (Memref.isWhole_whole _) hc0 hc1 (iblk1 V c 0 t) (iblk1 V c 1 t) _ _ _
    · have hc1 : ¬cond1_1 (grid1.coords t) := fun h => h1 ((hcond1_1 t).mp h)
      rw [Dat.leavesExact_idle (dat1 V c) 2 t (idleAt1_2 t hc1) (noFlush1_2 t hc1)]
      iintro ⟨⟨⟨HR0, HR1, HR2, HR3, HR4, HR5, HR6, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HR6 HS0 Hg]
      · isplitl [HR0 HR1 HR2 HR3 HR4 HR5 HR6 HS0]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS0
          ipureintro; exact sval1_B c (grid1.coords t) (ms1_0 t) (hs1_0 t) (ms1_1 t) (hs1_1 t) (ms1_2 t) (hs1_2 t) scM1_0 (Memref.isWhole_whole _) hc0 hc1 (iblk1 V c 0 t) (iblk1 V c 1 t) _ _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand1

end
-- ==== Proof.Assemble.lean ====
import proofs.«109708_j47038481826438_1_alg».proof.Proof.Records
import proofs.«109708_j47038481826438_1_alg».proof.Proof.Frame0
import proofs.«109708_j47038481826438_1_alg».proof.Proof.Frame1

/-! The proof data of both regions at their entry contents, and what each region leaves in the array it writes: region 0
    is entered from the launch contents folded through the first four host stretches, region 1 from those with region 0's
    written array at what its write-backs left, folded through the next stretch. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (Pipeline.UD sig nD τ) ℕ

variable (m : (ℓ : Loc nD τ sig) → Buf (Elt F) ℓ)

/-- Region 0's entry contents, reference by reference. -/
abbrev Vr4 : (c : Dev nD) → (b : Ref sig .tc) → Buf (Elt F) ((c : Thread nD τ).loc b) := fun c b => V4 m c b
/-- What region 0's write-backs leave in the array it writes. -/
def O0 (c : Dev nD) : Buf (Elt F) ((c : Thread nD τ).loc main_v8) := (Hand0.dat0 (Vr4 m) c).arrAt 2 cfg0.N
/-- The regions' written arrays, region 0's only (region 1's entry contents are stated over it). -/
def outsA : Outs (F := F) := fun _ r c => if h : r = main_v8 then h ▸ O0 m c else m ((c : Thread nD τ).loc r)
/-- Region 1's entry contents, reference by reference. -/
abbrev Vr6 : (c : Dev nD) → (b : Ref sig .tc) → Buf (Elt F) ((c : Thread nD τ).loc b) := fun c b => V6 m (outsA m) c b
/-- What region 1's write-backs leave in the array it writes. -/
def O1 (c : Dev nD) : Buf (Elt F) ((c : Thread nD τ).loc main_v29) := (Hand1.dat1 (Vr6 m) c).arrAt 2 cfg1.N
/-- The regions' written arrays. -/
def outsI : Outs (F := F) := fun _ r c =>
  if h : r = main_v8 then h ▸ O0 m c else if h' : r = main_v29 then h' ▸ O1 m c else m ((c : Thread nD τ).loc r)

theorem outsA_v8 (n : ℕ) (c : Dev nD) : outsA m n main_v8 c = O0 m c := by unfold outsA; rw [dif_pos rfl]
theorem outsI_v8 (n : ℕ) (c : Dev nD) : outsI m n main_v8 c = O0 m c := by unfold outsI; rw [dif_pos rfl]
theorem outsI_v29 (n : ℕ) (c : Dev nD) : outsI m n main_v29 c = O1 m c := by
  unfold outsI; rw [dif_neg (by decide), dif_pos rfl]

/-- Region 1 is entered from the same contents under either family: they agree on region 0's written array. -/
theorem V6_outsI (c : Dev nD) : V6 m (outsI m) c = V6 m (outsA m) c := by
  show StableHlo.after hostOps1 (Function.update (V4 m c) _ (outsI m 5 main_v8 c)) = StableHlo.after hostOps1 (Function.update (V4 m c) _ (outsA m 5 main_v8 c))
  rw [outsI_v8, outsA_v8]

/-- Every pipeline's proof data, each at its region's entry contents. -/
def pdatsI : (p : Fin 2) → (c : Dev nD) → Dat τ (Elt F) Unit ℕ (Pipeline.UD sig nD τ) ℕ (cfgs p) c
  | ⟨0, _⟩ => fun c => Hand0.dat0 (Vr4 m) c
  | ⟨1, _⟩ => fun c => Hand1.dat1 (Vr6 m) c

theorem facts0 : Facts0 m (outsI m) (pdatsI m) where
  hA c w := Hand0.A_eq0 (Vr4 m) c w
  hq0 c := rfl
  hq1 c := rfl
  howed c t := Hand0.owed_eq0 (Vr4 m) c t
  hbody c := Hand0.body_obligation0 (Vr4 m) c
  hin c := Hand0.Phi0_in (Vr4 m) c
  hout c := Hand0.Phi0_out (Vr4 m) c
  houts c := outsI_v8 m 5 c
  hrec c := rfl

theorem facts1 : Facts1 m (outsI m) (pdatsI m) where
  hA c w := (Hand1.A_eq1 (Vr6 m) c w).trans (by rw [V6_outsI])
  hq0 c := rfl
  hq1 c := rfl
  howed c t := Hand1.owed_eq1 (Vr6 m) c t
  hbody c := Hand1.body_obligation1 (Vr6 m) c
  hin c := Hand1.Phi1_in (Vr6 m) c
  hout c := Hand1.Phi1_out (Vr6 m) c
  houts c := outsI_v29 m 7 c
  hrec c := rfl

/-- The run of @main with every unscoped buffer read at the last valuation. -/
theorem kernel_run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V8 m (outsI m) c b) :=
  run_all m ρ (outsI m) (pdatsI m) (facts0 m) (facts1 m)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: @main runs and both argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V8_main_arg0 m (outsI m) c),
     (h c _ (mem_uc main_arg1 (by decide))).trans (V8_main_arg1 m (outsI m) c)⟩) (kernel_run m ρ)

end Cert.KernelIdeal.Hand

end
-- ==== Proof.HostTail.lean ====
import proofs.«109708_j47038481826438_1_alg».proof.Proof.Gen.KernelIdeal.Regions
import proofs.«109708_j47038481826438_1_alg».proof.Proof.Gen.ReferenceIdeal.Read

/-! The kernel program's host operations read back. Around its two regions the kernel's @main applies to
    the two argument arrays the same host operations as the reference, so what a buffer holds between two
    items is the reference's stage of the same name: the two normalised blocks, the mean squared distance
    of paired rows, and, given what the regions leave in their outputs, the two results computed from them. -/

noncomputable section

namespace Cert.HostSide

open Cert.ReferenceIdeal.Read Idealize.ShloMosaic Idealize.ShloMosaic.TcCoe Idealize.ShloMosaic.ValueIdx
open Idealize.SL.Sem Idealize.ShloMosaic.StableHlo
open Cert.KernelIdeal (nD τ sig)
open Cert.KernelIdeal.Gen (V0 V1 V2 V3 V4 V5 V6 V7 V8 V1_of V2_of V3_of V4_of V5_of V6_of V7_of V8_of
  hostOps0 hostOps0_1 hostOps0_2 hostOps0_3 hostOps1 hostOps2)

variable (m : (ℓ : Loc nD τ sig) → Buf (Elt Ideal) ℓ) (outs : Cert.KernelIdeal.Gen.Outs (F := Ideal)) (c : Dev nD)

/-- The first normalised block, as the second host stretch leaves it. -/
theorem V2_block0 :
    (V2 m c Cert.KernelIdeal.main_v2 : (⟨Cert.ReferenceIdeal.S4096x1024, .f32⟩ : BufTy).Contents (Elt Ideal))
      = val_main_v2 (F := Ideal) (m ((c.tc : Thread nD τ).loc Cert.KernelIdeal.main_arg0)) := by
  show StableHlo.after hostOps0_1 (V1 m c) (Proc.devRef .tc Cert.KernelIdeal.main_v2) = _
  after_results_simp
  rfl

/-- The second normalised block, as the fourth host stretch leaves it. -/
theorem V4_block1 :
    (V4 m c Cert.KernelIdeal.main_v5 : (⟨Cert.ReferenceIdeal.S4096x1024, .f32⟩ : BufTy).Contents (Elt Ideal))
      = val_main_v5 (F := Ideal) (m ((c.tc : Thread nD τ).loc Cert.KernelIdeal.main_arg1)) := by
  show StableHlo.after hostOps0_3 (V3 m c) (Proc.devRef .tc Cert.KernelIdeal.main_v5) = _
  after_results_simp
  rfl

/-- The first normalised block is still there after the first region. -/
theorem V5_block0 :
    (V5 m outs c Cert.KernelIdeal.main_v2 : (⟨Cert.ReferenceIdeal.S4096x1024, .f32⟩ : BufTy).Contents (Elt Ideal))
      = val_main_v2 (F := Ideal) (m ((c.tc : Thread nD τ).loc Cert.KernelIdeal.main_arg0)) :=
  (V5_of m outs c _ (by decide)).trans ((V4_of m c _ (by decide)).trans ((V3_of m c _ (by decide)).trans (V2_block0 m c)))

/-- The second normalised block is still there after the first region. -/
theorem V5_block1 :
    (V5 m outs c Cert.KernelIdeal.main_v5 : (⟨Cert.ReferenceIdeal.S4096x1024, .f32⟩ : BufTy).Contents (Elt Ideal))
      = val_main_v5 (F := Ideal) (m ((c.tc : Thread nD τ).loc Cert.KernelIdeal.main_arg1)) :=
  (V5_of m outs c _ (by decide)).trans (V4_block1 m c)

/-- THE SECOND RESULT on the kernel's side: the mean squared distance of paired rows is the reference's stage. -/
theorem K22 :
    (V8 m outs c Cert.KernelIdeal.main_v22 : (⟨Cert.ReferenceIdeal.S_, .f32⟩ : BufTy).Contents (Elt Ideal))
      = val_main_v35 (F := Ideal) (m ((c.tc : Thread nD τ).loc Cert.KernelIdeal.main_arg0)) (m ((c.tc : Thread nD τ).loc Cert.KernelIdeal.main_arg1)) := by
  have h2 := V5_block0 m outs c
  have h5 := V5_block1 m outs c
  refine (V8_of m outs c _ (by decide)).trans ((V7_of m outs c _ (by decide)).trans ?_)
  show StableHlo.after hostOps1 (V5 m outs c) (Proc.devRef .tc Cert.KernelIdeal.main_v22) = _
  generalize V5 m outs c = W at h2 h5 ⊢
  after_results_simp
  rw [h2, h5]
  rfl

/-- THE FIRST RESULT on the kernel's side. If the first region leaves in its output the reference's row
    denominators, the buffer of the first result holds the reference's stage. -/
theorem K17
    (h : ∀ i : Fin 8192, outs 5 Cert.KernelIdeal.main_v8 c (ix1 i)
      = val_main_v24 (F := Ideal) (m ((c.tc : Thread nD τ).loc Cert.KernelIdeal.main_arg0)) (m ((c.tc : Thread nD τ).loc Cert.KernelIdeal.main_arg1)) (ix1 i)) :
    (V8 m outs c Cert.KernelIdeal.main_v17 : (⟨Cert.ReferenceIdeal.S_, .f32⟩ : BufTy).Contents (Elt Ideal))
      = val_main_v30 (F := Ideal) (m ((c.tc : Thread nD τ).loc Cert.KernelIdeal.main_arg0)) (m ((c.tc : Thread nD τ).loc Cert.KernelIdeal.main_arg1)) := by
  have h2 := V5_block0 m outs c
  have h5 := V5_block1 m outs c
  have h8 : (V5 m outs c Cert.KernelIdeal.main_v8 : (⟨Cert.ReferenceIdeal.S8192, .f32⟩ : BufTy).Contents (Elt Ideal))
      = val_main_v24 (F := Ideal) (m ((c.tc : Thread nD τ).loc Cert.KernelIdeal.main_arg0)) (m ((c.tc : Thread nD τ).loc Cert.KernelIdeal.main_arg1)) := by
    refine (Function.update_self _ _ _).trans ?_
    funext (j : (⟨1, ![8192]⟩ : Shape).Idx)
    rw [eq_ix1 j]
    exact h (j 0)
  refine (V8_of m outs c _ (by decide)).trans ((V7_of m outs c _ (by decide)).trans ?_)
  show StableHlo.after hostOps1 (V5 m outs c) (Proc.devRef .tc Cert.KernelIdeal.main_v17) = _
  generalize V5 m outs c = W at h2 h5 h8 ⊢
  after_results_simp
  -- the two pieces of the stacked positives sit inside a list, where the pass above does not descend
  rw [binary_result, nullary_result]
  rw [nullary_result_ne]; rotate_left; decide
  rw [binary_result]
  rw [h2, h5, h8]
  rfl

/-- THE THIRD RESULT on the kernel's side. If the second region leaves in its two-entry output the reference's
    two uniformities, the buffer of the third result holds the reference's stage. -/
theorem K35
    (h0 : outs 7 Cert.KernelIdeal.main_v29 c (ix1 (0 : Fin 2)) = val_main_v59 (F := Ideal) (m ((c.tc : Thread nD τ).loc Cert.KernelIdeal.main_arg0)) ix0)
    (h1 : outs 7 Cert.KernelIdeal.main_v29 c (ix1 (1 : Fin 2)) = val_main_v83 (F := Ideal) (m ((c.tc : Thread nD τ).loc Cert.KernelIdeal.main_arg0)) ix0) :
    (V8 m outs c Cert.KernelIdeal.main_v35 : (⟨Cert.ReferenceIdeal.S_, .f32⟩ : BufTy).Contents (Elt Ideal))
      = val_main_v85 (F := Ideal) (m ((c.tc : Thread nD τ).loc Cert.KernelIdeal.main_arg0)) := by
  have h29 : V7 m outs c Cert.KernelIdeal.main_v29 = outs 7 Cert.KernelIdeal.main_v29 c := Function.update_self _ _ _
  show StableHlo.after hostOps2 (V7 m outs c) (Proc.devRef .tc Cert.KernelIdeal.main_v35) = _
  generalize V7 m outs c = W at h29 ⊢
  after_results_simp
  rw [h29]
  unfold val_main_v85 val_main_v84
  congr 1
  congr 1
  · funext i
    refine (shapeCast_apply _ _ i (ix1 (0 : Fin 1)) ?_).trans
      ((extractStridedSlice_apply _ _ _ (ix1 (0 : Fin 1)) (ix1 (0 : Fin 2)) (fun a => match a with | ⟨0, _⟩ => rfl)).trans
        (h0.trans (congrArg _ (eq_ix0 i).symm)))
    rw [Shape.rowMajor_val_one]
    exact (Shape.rowMajorPi_zero _ i).symm
  · funext i
    refine (shapeCast_apply _ _ i (ix1 (0 : Fin 1)) ?_).trans
      ((extractStridedSlice_apply _ _ _ (ix1 (0 : Fin 1)) (ix1 (1 : Fin 2)) (fun a => match a with | ⟨0, _⟩ => rfl)).trans
        (h1.trans (congrArg _ (eq_ix0 i).symm)))
    rw [Shape.rowMajor_val_one]
    exact (Shape.rowMajorPi_zero _ i).symm

end Cert.HostSide
-- ==== Proof.HostLayout.lean ====
import proofs.«109708_j47038481826438_1_alg».proof.Proof.Gen.KernelIdeal.Regions
import proofs.«109708_j47038481826438_1_alg».proof.Proof.Gen.ReferenceIdeal.Read
import Idealize.ShloMosaic.Lib.StableHlo.Run
import Idealize.ShloMosaic.Lib.Pipeline.Value
import Idealize.ShloMosaic.Lib.ValueIdx

/-! The host operations of the first program before its two regions, read as the operations of the
    second program over the same two arguments.

    Both programs normalise the rows of the two arguments (each entry divided by the square root of
    the sum of the squares of its row), stack the two normalised matrices, and cut the first one into
    two halves of 2048 rows. The first program then changes the float format of the stacked matrix
    and of the pair of halves, which is the identity on extended reals. -/

noncomputable section

namespace Cert.HostSide

open Cert.KernelIdeal Cert.KernelIdeal.Gen
open Idealize.ShloMosaic Idealize.ShloMosaic.TcCoe Idealize.ShloMosaic.StableHlo Idealize.ShloMosaic.ValueIdx
open Idealize.SL.Sem

section AnyF
variable {F : FTy → Type} [FloatOps F] [Named F]
variable (m : (ℓ : Loc nD τ sig) → Buf (Elt F) ℓ) (c : Dev nD)

/-- The square root of the row sums of squares of the first argument, as a column. -/
theorem V1_v0 : V1 m c main_v0
    = Cert.ReferenceIdeal.Read.val_main_v0 (F := F) (m ((c : Thread nD τ).loc main_arg0)) := by
  show StableHlo.after hostOps0 (V0 m c) (Proc.devRef .tc main_v0) = _
  after_results
  rfl

/-- The first argument with its rows normalised. -/
theorem V2_v2 : V2 m c main_v2
    = Cert.ReferenceIdeal.Read.val_main_v2 (F := F) (m ((c : Thread nD τ).loc main_arg0)) := by
  show StableHlo.after hostOps0_1 (V1 m c) (Proc.devRef .tc main_v2) = _
  generalize hW : V1 m c = W
  after_results
  subst hW
  rw [V1_of m c main_arg0 (by decide), V1_v0]
  rfl

/-- The square root of the row sums of squares of the second argument, as a column. -/
theorem V3_v3 : V3 m c main_v3
    = Cert.ReferenceIdeal.Read.val_main_v3 (F := F) (m ((c : Thread nD τ).loc main_arg1)) := by
  show StableHlo.after hostOps0_2 (V2 m c) (Proc.devRef .tc main_v3) = _
  generalize hW : V2 m c = W
  after_results
  subst hW
  rw [V2_of m c main_arg1 (by decide), V1_of m c main_arg1 (by decide)]
  rfl

/-- The first normalised matrix is still there after the second argument's row norms are taken. -/
theorem V3_v2 : V3 m c main_v2
    = Cert.ReferenceIdeal.Read.val_main_v2 (F := F) (m ((c : Thread nD τ).loc main_arg0)) :=
  (V3_of m c main_v2 (by decide)).trans (V2_v2 m c)

/-- The second argument with its rows normalised. -/
theorem V4_v5 : V4 m c main_v5
    = Cert.ReferenceIdeal.Read.val_main_v5 (F := F) (m ((c : Thread nD τ).loc main_arg1)) := by
  show StableHlo.after hostOps0_3 (V3 m c) (Proc.devRef .tc main_v5) = _
  generalize hW : V3 m c = W
  after_results
  subst hW
  rw [V3_of m c main_arg1 (by decide), V2_of m c main_arg1 (by decide), V1_of m c main_arg1 (by decide), V3_v3]
  rfl

/-- The stacked matrix in the narrower format: the format change of the second program's stack. -/
theorem V4_v7 : V4 m c main_v7
    = truncf .bf16 (Cert.ReferenceIdeal.Read.val_main_v6 (F := F) (m ((c : Thread nD τ).loc main_arg0))
        (m ((c : Thread nD τ).loc main_arg1))) bitsLt_bf16_f32 := by
  show StableHlo.after hostOps0_3 (V3 m c) (Proc.devRef .tc main_v7) = _
  generalize hW : V3 m c = W
  after_results
  subst hW
  rw [V3_of m c main_arg1 (by decide), V2_of m c main_arg1 (by decide), V1_of m c main_arg1 (by decide), V3_v3, V3_v2]
  rfl

/-- The two halves of the first normalised matrix, stacked along a new leading axis, in the narrower
    format: the format change of the stack of the second program's two halves. -/
theorem V6_v28 (outs : Outs (F := F)) : V6 m outs c main_v28
    = truncf .bf16 (concatenate S2x2048x1024 0
        [⟨S1x2048x1024, broadcastInDim S1x2048x1024 ![1, 2] bcast_S2048x1024_S1x2048x1024_1_2
            (Cert.ReferenceIdeal.Read.val_main_v36 (F := F) (m ((c : Thread nD τ).loc main_arg0)))⟩,
         ⟨S1x2048x1024, broadcastInDim S1x2048x1024 ![1, 2] bcast_S2048x1024_S1x2048x1024_1_2
            (Cert.ReferenceIdeal.Read.val_main_v60 (F := F) (m ((c : Thread nD τ).loc main_arg0)))⟩]
        concatenates_S1x2048x1024_S1x2048x1024_S2x2048x1024_d0) bitsLt_bf16_f32 := by
  show StableHlo.after hostOps1 (V5 m outs c) (Proc.devRef .tc main_v28) = _
  generalize hW : V5 m outs c = W
  after_results
  subst hW
  rw [V5_of m outs c main_v2 (by decide), V4_of m c main_v2 (by decide), V3_v2]
  rfl

end AnyF

section AtIdeal
variable (m : (ℓ : Loc nD τ sig) → Buf (Elt Ideal) ℓ) (c : Dev nD)

/-- On extended reals the stacked matrix the first region reads is the second program's stack of the
    two normalised arguments. -/
theorem Z7 : (V4 m c main_v7 : S8192x1024.Idx → EReal)
    = Cert.ReferenceIdeal.Read.val_main_v6 (F := Ideal) (m ((c : Thread nD τ).loc main_arg0))
        (m ((c : Thread nD τ).loc main_arg1)) := by
  rw [V4_v7]
  rfl

/-- On extended reals the pair of halves the second region reads is, in its first layer, the second
    program's first half of the first normalised matrix, and in its second layer the second half. -/
theorem Z28 (outs : Outs (F := Ideal)) (b : Fin 2) (r : Fin 2048) (k : Fin 1024) :
    (V6 m outs c main_v28 : S2x2048x1024.Idx → EReal) (ix3 b r k)
      = if b.val = 0 then Cert.ReferenceIdeal.Read.val_main_v36 (F := Ideal) (m ((c : Thread nD τ).loc main_arg0)) (ix2 r k)
        else Cert.ReferenceIdeal.Read.val_main_v60 (F := Ideal) (m ((c : Thread nD τ).loc main_arg0)) (ix2 r k) := by
  rw [V6_v28]
  refine (truncf_apply (ψ := .bf16) _ bitsLt_bf16_f32 (ix3 b r k)).trans ?_
  by_cases hb : b.val = 0
  · rw [if_pos hb]
    refine (concatenate_pair_apply_left _ _ _ concatenates_S1x2048x1024_S1x2048x1024_S2x2048x1024_d0
      (ix3 b r k) rfl (ix3 (0 : Fin 1) r k) ?_).trans ?_
    · intro a
      match a with
      | ⟨0, _⟩ => show (0 : Nat) = b.val; exact hb.symm
      | ⟨1, _⟩ => rfl
      | ⟨2, _⟩ => rfl
    · refine broadcastInDim_apply ![1, 2] bcast_S2048x1024_S1x2048x1024_1_2 _ (ix3 (0 : Fin 1) r k) (ix2 r k) ?_
      intro a
      match a with
      | ⟨0, _⟩ => exact (if_neg (show ¬(2048 : ℕ) = 1 by decide)).symm
      | ⟨1, _⟩ => exact (if_neg (show ¬(1024 : ℕ) = 1 by decide)).symm
  · rw [if_neg hb]
    have hb1 : b.val = 1 := by have := b.isLt; omega
    refine (concatenate_pair_apply_right _ _ _ concatenates_S1x2048x1024_S1x2048x1024_S2x2048x1024_d0
      (ix3 b r k) rfl rfl (ix3 (0 : Fin 1) r k) ?_ ?_).trans ?_
    · intro a
      match a with
      | ⟨0, _⟩ => exact fun hne => absurd rfl hne
      | ⟨1, _⟩ => exact fun _ => rfl
      | ⟨2, _⟩ => exact fun _ => rfl
    · show (0 : Nat) + 1 = b.val
      omega
    · refine broadcastInDim_apply ![1, 2] bcast_S2048x1024_S1x2048x1024_1_2 _ (ix3 (0 : Fin 1) r k) (ix2 r k) ?_
      intro a
      match a with
      | ⟨0, _⟩ => exact (if_neg (show ¬(2048 : ℕ) = 1 by decide)).symm
      | ⟨1, _⟩ => exact (if_neg (show ¬(1024 : ℕ) = 1 by decide)).symm

end AtIdeal

end Cert.HostSide

end
-- ==== Proof.Spec.lean ====
import Idealize.ShloMosaic.PureOps.Ideal
import Idealize.ShloMosaic.Lib.ValueIdx

/-! The two quantities that both programs compute, written over plain families of extended reals
    indexed by a row and a column. Every sum is a finite sum in the commutative monoid of the
    extended reals under addition; no entry is assumed finite. -/

noncomputable section

namespace Cert.Spec

open Idealize.ShloMosaic
open scoped BigOperators

/-- The divisor of the similarities: the extended real that the binary32 word `0x3DCCCCCD` denotes. -/
def Dlit : EReal := Ideal.ofBits .f32 0x3DCCCCCD#32

/-- The denominator of row `i`: the sum, over every row `j` other than `i`, of the exponential of the
    inner product of rows `i` and `j` divided by `Dlit`. The diagonal term is the literal zero. -/
def denom (z : Fin 8192 → Fin 1024 → EReal) (i : Fin 8192) : EReal :=
  ∑ j : Fin 8192, if i = j then 0 else Ideal.exp (Ideal.div (∑ k : Fin 1024, z i k * z j k) Dlit)

/-- The uniformity of a block of 2048 rows: the logarithm of the sum, over the pairs `i < j`, of
    `exp (-2 * max (|x_i|² + |x_j|² - 2 * (x_i · x_j)) 0)`, divided by the number of pairs (the word
    `0x49FFE000`). The grouping is: the two squared norms are added first, twice the inner product is
    subtracted from that, the maximum with zero is taken, and the factor `-2` multiplies on the left. -/
def unif (x : Fin 2048 → Fin 1024 → EReal) : EReal :=
  Ideal.log (Ideal.div
    (∑ i : Fin 2048, ∑ j : Fin 2048,
      if i < j then
        Ideal.exp (Ideal.ofBits .f32 0xC0000000#32 *
          max (((∑ k : Fin 1024, x i k * x i k) + (∑ k : Fin 1024, x j k * x j k))
                - Ideal.ofBits .f32 0x40000000#32 * (∑ k : Fin 1024, x i k * x j k)) 0)
      else 0)
    (Ideal.ofBits .f32 0x49FFE000#32))

end Cert.Spec
-- ==== Proof.Pay0.lean ====
import proofs.«109708_j47038481826438_1_alg».proof.Proof.Gen.KernelIdeal.Skeleton
import proofs.«109708_j47038481826438_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

/-! The two values that the first kernel's body stores, read at one row r of the block.

    The first is the zero vector. The second is the running row sum plus, over the columns c of the
    block, the masked exponential of the scaled inner product of row r of the first operand with
    row c of the second; the mask removes the column whose global number equals the global number
    of the row. Every sum is a finite sum of extended reals; nothing is assumed finite. -/

noncomputable section

namespace Cert.Pay0

open Idealize.ShloMosaic Idealize.ShloMosaic.ValueIdx Cert.KernelIdeal Cert.KernelIdeal.Gen
open scoped BigOperators

/-- The scale factor: the rational 134217728 / 13421773 as an extended real. -/
def κv : EReal := ((134217728 / 13421773 : ℝ) : EReal)

/-- The named constant of the kernel denotes κv. -/
theorem kappa_eq :
    Named.named (F := Ideal) Cert.KernelIdeal.κ "inv_temperature" (φ := .f32) 0x41200000#32 = κv :=
  IdealRules.named_const.ideal_named_scalar _ _ _ _ rfl

/-- For block numbers below 8 and offsets below 1024, the 32-bit word a * 1024 + r is the word of
    the natural number a * 1024 + r: nothing wraps. -/
theorem word_lin (a r : Nat) (ha : a < 8) (hr : r < 1024) :
    IntOp.addi (Scalar.muli (BitVec.ofNat 32 a) 1024#32) (BitVec.ofNat 32 r) = BitVec.ofNat 32 (a * 1024 + r) := by
  apply BitVec.eq_of_toNat_eq
  simp only [IntOp.addi, Scalar.muli, IntOp.muli, BitVec.toNat_add, BitVec.toNat_mul, BitVec.toNat_ofNat]
  omega

/-- Two such words are equal exactly when the natural numbers are. -/
theorem word_eq (a b r c : Nat) (ha : a < 8) (hb : b < 8) (hr : r < 1024) (hc : c < 1024) :
    IntOp.cmpi .eq (IntOp.addi (Scalar.muli (BitVec.ofNat 32 a) 1024#32) (BitVec.ofNat 32 r))
        (IntOp.addi (Scalar.muli (BitVec.ofNat 32 b) 1024#32) (BitVec.ofNat 32 c))
      = if a * 1024 + r = b * 1024 + c then 1#1 else 0#1 := by
  rw [word_lin a r ha hr, word_lin b c hb hc]
  by_cases h : a * 1024 + r = b * 1024 + c
  · rw [if_pos h, h]; simp [IntOp.cmpi]
  · rw [if_neg h]
    have hne : BitVec.ofNat 32 (a * 1024 + r) ≠ BitVec.ofNat 32 (b * 1024 + c) := by
      intro he
      have := congrArg BitVec.toNat he
      simp only [BitVec.toNat_ofNat] at this
      omega
    show BitVec.ofBool (BitVec.ofNat 32 (a * 1024 + r) == BitVec.ofNat 32 (b * 1024 + c)) = 0#1
    rw [beq_eq_false_iff_ne.mpr hne]; rfl

/-- The first stored value is the zero vector. -/
theorem pay1_apply (r : Fin 1024) : Cert.KernelIdeal.Gen.k0_pay1 (F := Ideal) (ix1 r) = 0 := by
  unfold Cert.KernelIdeal.Gen.k0_pay1
  simp only [shapeCast_self]
  show Ideal.ofBits .f32 0x00000000#32 = 0
  exact Ideal.ofBits_zero_f32

/-- The dimension numbers of the block product: the last axis of the first operand is contracted
    with the first axis of the second. -/
abbrev D0 := dot_S1024x1024_S1024x1024_S1024x1024_1_0_0_1_n_n

theorem lhs_0 (j : S1024x1024.Idx) (q : D0.contr.Idx) : (D0.lhsIdx j q 0).val = (j 0).val := by
  unfold DotDims.lhsIdx
  rw [dif_neg (show ¬(0 : Fin S1024x1024.rank) ∈ D0.lhsBatch by decide),
    dif_pos (show (0 : Fin S1024x1024.rank) ∈ D0.lhsNonContracting by decide)]
  rfl

theorem lhs_1 (j : S1024x1024.Idx) (q : D0.contr.Idx) : (D0.lhsIdx j q 1).val = (q ⟨0, by decide⟩).val :=
  D0.lhsIdx_val_of_single rfl j q

theorem rhs_0 (j : S1024x1024.Idx) (q : D0.contr.Idx) : (D0.rhsIdx j q 0).val = (q ⟨0, by decide⟩).val :=
  D0.rhsIdx_val_of_single rfl j q

theorem rhs_1 (j : S1024x1024.Idx) (q : D0.contr.Idx) : (D0.rhsIdx j q 1).val = (j 1).val := by
  unfold DotDims.rhsIdx
  rw [dif_neg (show ¬(1 : Fin S1024x1024.rank) ∈ D0.rhsBatch by decide),
    dif_pos (show (1 : Fin S1024x1024.rank) ∈ D0.rhsNonContracting by decide)]
  rfl

/-- The block product into a zero accumulator, with the second operand transposed, at (r, c): the
    inner product of row r of the first operand with row c of the second. -/
theorem gram_apply (zq zk : FVec Ideal S1024x1024 .bf16) (r c : Fin 1024) :
    matmul D0 none zq (transpose S1024x1024 [1, 0] zk transposes_S1024x1024_p1_0_S1024x1024)
        (constant (F := Ideal) S1024x1024 .f32 0x00000000#32) (ix2 r c)
      = ∑ k : Fin 1024, zq (ix2 r k) * zk (ix2 c k) := by
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 r c) ((contrEquiv1 D0 1024 rfl rfl).symm k) = ix2 r k :=
    funext fun a => Fin.ext (by
      match a with
      | ⟨0, _⟩ => exact lhs_0 _ _
      | ⟨1, _⟩ => exact (lhs_1 _ _).trans hk)
  have er : D0.rhsIdx (ix2 r c) ((contrEquiv1 D0 1024 rfl rfl).symm k) = ix2 k c :=
    funext fun a => Fin.ext (by
      match a with
      | ⟨0, _⟩ => exact (rhs_0 _ _).trans hk
      | ⟨1, _⟩ => exact rhs_1 _ _)
  rw [el, er, transpose_ix2_apply]

/-- The second stored value at row r: the running sum there plus the masked row sum of the
    exponentials of the scaled inner products with the rows of the second operand. -/
theorem pay2_apply (qi ki : Fin 8) (i : grid0.Coords) (hi0 : (i 0).val = qi.val) (hi1 : (i 1).val = ki.val)
    (zq zk : FVec Ideal S1024x1024 .bf16) (acc : FVec Ideal S1024 .f32) (r : Fin 1024) :
    Cert.KernelIdeal.Gen.k0_pay2 (F := Ideal) i zq zk acc (ix1 r)
      = acc (ix1 r) + ∑ c : Fin 1024,
          (if qi.val * 1024 + r.val = ki.val * 1024 + c.val then 0
           else Ideal.exp ((∑ k : Fin 1024, zq (ix2 r k) * zk (ix2 c k)) * κv)) := by
  unfold Cert.KernelIdeal.Gen.k0_pay2
  simp only [shapeCast_self]
  rw [addf_apply]
  refine congrArg (acc (ix1 r) + ·) ?_
  refine (Ideal.multiReduction_add_single _ 0x00000000#32 reduces_S1024x1024_S1024 _ _ (ix1 r)).trans ?_
  refine Finset.sum_congr rfl fun (c : Fin 1024) _ => ?_
  have hl : reduces_S1024x1024_S1024.lift (ix1 r) c = ix2 r c :=
    funext fun a => Fin.ext (by match a with | ⟨0, _⟩ => rfl | ⟨1, _⟩ => rfl)
  rw [hl]
  have e0 : iota .tc S1024x1024 32 [0] iota_S1024x1024_d0_w32 (ix2 r c) = BitVec.ofNat 32 r.val :=
    iota_single_apply .tc S1024x1024 32 0 iota_S1024x1024_d0_w32 (ix2 r c)
  have e1 : iota .tc S1024x1024 32 [1] iota_S1024x1024_d1_w32 (ix2 r c) = BitVec.ofNat 32 c.val :=
    iota_single_apply .tc S1024x1024 32 1 iota_S1024x1024_d1_w32 (ix2 r c)
  show Scalar.select
      (IntOp.cmpi .eq
        (IntOp.addi (Scalar.muli (BitVec.ofNat 32 (i 0).val) 1024#32)
          (iota .tc S1024x1024 32 [0] iota_S1024x1024_d0_w32 (ix2 r c)))
        (IntOp.addi (Scalar.muli (BitVec.ofNat 32 (i 1).val) 1024#32)
          (iota .tc S1024x1024 32 [1] iota_S1024x1024_d1_w32 (ix2 r c))))
      (Ideal.ofBits .f32 0x00000000#32)
      (Ideal.exp
        (matmul D0 none zq (transpose S1024x1024 [1, 0] zk transposes_S1024x1024_p1_0_S1024x1024)
            (constant (F := Ideal) S1024x1024 .f32 0x00000000#32) (ix2 r c)
          * Named.named (F := Ideal) Cert.KernelIdeal.κ "inv_temperature" (φ := .f32) 0x41200000#32)) = _
  rw [e0, e1, gram_apply, kappa_eq, hi0, hi1,
    word_eq qi.val ki.val r.val c.val qi.isLt ki.isLt r.isLt c.isLt, Ideal.ofBits_zero_f32]
  by_cases h : qi.val * 1024 + r.val = ki.val * 1024 + c.val
  · rw [if_pos h, if_pos h, select_one]
  · rw [if_neg h, if_neg h, select_zero]

/-- The divisor of the specification is the real 13421773 / 134217728: the sign bit is clear, the
    exponent field is 123 and the fraction field is 5033165, so the value is
    (2 ^ 23 + 5033165) * 2 ^ (123 - 127 - 23). -/
theorem Dlit_eq : Cert.Spec.Dlit = ((13421773 / 134217728 : ℝ) : EReal) := by
  unfold Cert.Spec.Dlit
  simp [Ideal.ofBits, Ideal.ieee, -EReal.coe_mul]; norm_num

/-- Multiplying by the scale factor is dividing by the divisor of the specification, for every
    extended real: the factor is the reciprocal of the divisor, a nonzero real. -/
theorem mul_kappa_eq_div (x : EReal) : x * κv = Ideal.div x Cert.Spec.Dlit := by
  rw [Dlit_eq, Ideal.div_coe (by norm_num : (13421773 / 134217728 : ℝ) ≠ 0)]
  have h : (134217728 / 13421773 : ℝ) = 1 / (13421773 / 134217728 : ℝ) := by norm_num
  unfold κv
  rw [h]

/-- The second stored value with the similarity written as a quotient by the divisor of the
    specification. -/
theorem pay2_apply_div (qi ki : Fin 8) (i : grid0.Coords) (hi0 : (i 0).val = qi.val) (hi1 : (i 1).val = ki.val)
    (zq zk : FVec Ideal S1024x1024 .bf16) (acc : FVec Ideal S1024 .f32) (r : Fin 1024) :
    Cert.KernelIdeal.Gen.k0_pay2 (F := Ideal) i zq zk acc (ix1 r)
      = acc (ix1 r) + ∑ c : Fin 1024,
          (if qi.val * 1024 + r.val = ki.val * 1024 + c.val then 0
           else Ideal.exp (Ideal.div (∑ k : Fin 1024, zq (ix2 r k) * zk (ix2 c k)) Cert.Spec.Dlit)) := by
  rw [pay2_apply qi ki i hi0 hi1 zq zk acc r]
  refine congrArg (acc (ix1 r) + ·) (Finset.sum_congr rfl fun c _ => ?_)
  rw [mul_kappa_eq_div]

end Cert.Pay0

end
-- ==== Proof.Accum0.lean ====
import proofs.«109708_j47038481826438_1_alg».proof.Proof.Spec
import Mathlib.Algebra.BigOperators.Fin
import Mathlib.Data.Fintype.BigOperators

/-! Regrouping the denominator of a row by blocks of 1024 rows.

    The 8192 rows of the array are the rows c of the eight blocks n, row c of block n being row
    n * 1024 + c of the array. A running sum that starts at zero and adds, block after block, the
    masked sum over the rows of that block, ends after the eighth block at the denominator of the
    specification. Only the commutative monoid of the extended reals under addition is used; no term
    is assumed finite. -/

noncomputable section

namespace Cert.Accum0

open Idealize.ShloMosaic
open scoped BigOperators

/-- Row c of block n, as a row of the whole array. -/
def row (n : Fin 8) (c : Fin 1024) : Fin 8192 := ⟨n.val * 1024 + c.val, by omega⟩

theorem row_val (n : Fin 8) (c : Fin 1024) : (row n c).val = n.val * 1024 + c.val := rfl

/-- Every row of the array is row c of block n for exactly one pair (n, c). -/
def rowEquiv : Fin 8 × Fin 1024 ≃ Fin 8192 where
  toFun p := row p.1 p.2
  invFun j := (⟨j.val / 1024, by omega⟩, ⟨j.val % 1024, by omega⟩)
  left_inv p := by
    obtain ⟨n, c⟩ := p
    refine Prod.ext (Fin.ext ?_) (Fin.ext ?_)
    · show (n.val * 1024 + c.val) / 1024 = n.val
      omega
    · show (n.val * 1024 + c.val) % 1024 = c.val
      omega
  right_inv j := by
    refine Fin.ext ?_
    show j.val / 1024 * 1024 + j.val % 1024 = j.val
    omega

/-- A sum over the rows of the array is the sum over the blocks of the sums over their rows. -/
theorem sum_rows {M : Type*} [AddCommMonoid M] (t : Fin 8192 → M) :
    ∑ j : Fin 8192, t j = ∑ n : Fin 8, ∑ c : Fin 1024, t (row n c) := by
  rw [← Equiv.sum_comp rowEquiv t, Fintype.sum_prod_type]
  rfl

/-- A running sum from zero that adds the block sums one block after the other ends at the whole sum. -/
theorem accum_sum {M : Type*} [AddCommMonoid M] (t : Fin 8192 → M) (a : Nat → M) (h0 : a 0 = 0)
    (hstep : ∀ (n : Nat) (hn : n < 8), a (n + 1) = a n + ∑ c : Fin 1024, t (row ⟨n, hn⟩ c)) :
    a 8 = ∑ j : Fin 8192, t j := by
  rw [sum_rows, Fin.sum_univ_eight,
    hstep 7 (by omega), hstep 6 (by omega), hstep 5 (by omega), hstep 4 (by omega),
    hstep 3 (by omega), hstep 2 (by omega), hstep 1 (by omega), hstep 0 (by omega), h0, zero_add]
  rfl

/-- The running sum of the masked exponentials, block after block, ends at the denominator of the
    row qi * 1024 + r. The similarity is the inner product divided by the divisor of the specification. -/
theorem accum_eq_denom (z : Fin 8192 → Fin 1024 → EReal) (qi : Fin 8) (r : Fin 1024) (a : Nat → EReal)
    (h0 : a 0 = 0)
    (hstep : ∀ (n : Nat) (hn : n < 8), a (n + 1) = a n + ∑ c : Fin 1024,
      (if qi.val * 1024 + r.val = n * 1024 + c.val then 0
       else Ideal.exp (Ideal.div (∑ k : Fin 1024, z (row qi r) k * z (row ⟨n, hn⟩ c) k) Cert.Spec.Dlit))) :
    a 8 = Cert.Spec.denom z (row qi r) := by
  unfold Cert.Spec.denom
  refine accum_sum (fun j => if row qi r = j then 0
    else Ideal.exp (Ideal.div (∑ k : Fin 1024, z (row qi r) k * z j k) Cert.Spec.Dlit)) a h0 fun n hn => ?_
  rw [hstep n hn]
  refine congrArg (a n + ·) (Finset.sum_congr rfl fun c _ => ?_)
  have hiff : (row qi r = row ⟨n, hn⟩ c) ↔ (qi.val * 1024 + r.val = n * 1024 + c.val) := by
    rw [Fin.ext_iff]; rfl
  by_cases h : qi.val * 1024 + r.val = n * 1024 + c.val
  · rw [if_pos h, if_pos (hiff.mpr h)]
  · rw [if_neg h, if_neg (fun h' => h (hiff.mp h'))]

/-- The same with the similarity written as the inner product times a factor κ, for any factor such
    that multiplying by it is dividing by the divisor of the specification. -/
theorem accum_eq_denom_of_scale (κ : EReal) (hκ : ∀ x : EReal, x * κ = Ideal.div x Cert.Spec.Dlit)
    (z : Fin 8192 → Fin 1024 → EReal) (qi : Fin 8) (r : Fin 1024) (a : Nat → EReal)
    (h0 : a 0 = 0)
    (hstep : ∀ (n : Nat) (hn : n < 8), a (n + 1) = a n + ∑ c : Fin 1024,
      (if qi.val * 1024 + r.val = n * 1024 + c.val then 0
       else Ideal.exp ((∑ k : Fin 1024, z (row qi r) k * z (row ⟨n, hn⟩ c) k) * κ))) :
    a 8 = Cert.Spec.denom z (row qi r) :=
  accum_eq_denom z qi r a h0 fun n hn => by
    rw [hstep n hn]
    refine congrArg (a n + ·) (Finset.sum_congr rfl fun c _ => ?_)
    rw [hκ]

end Cert.Accum0

end
-- ==== Proof.Value0.lean ====
import proofs.«109708_j47038481826438_1_alg».proof.Proof.Frame0RunsBase
import proofs.«109708_j47038481826438_1_alg».proof.Proof.Pay0
import proofs.«109708_j47038481826438_1_alg».proof.Proof.Accum0
import Idealize.ShloMosaic.Lib.Pipeline.Value

/-! From the blocks of the first region to its output array.

    The grid has 8 x 8 points; point t has row-block number t / 8 and column-block number t % 8. At
    point t the two input blocks are rows (t / 8) * 1024 + r and rows (t % 8) * 1024 + c of the same
    matrix Z. Along one row block the accumulator starts from the zero vector at column block 0 and
    adds one block of masked exponentials per point, so after column block 7 its entry r is the
    denominator of row (t / 8) * 1024 + r. The output block with that row-block number is written
    back exactly at those last points, and these blocks tile the output array. Nothing is assumed
    finite. -/

noncomputable section

namespace Cert.Value0

open Cert.KernelIdeal Cert.KernelIdeal.Gen Cert.KernelIdeal.Hand0
open Idealize.ShloMosaic Idealize.ShloMosaic.TcCoe Idealize.ShloMosaic.ValueIdx Idealize.SL.Sem
open Idealize.ShloMosaic.Pipeline (Dat)
open Cert.Accum0 (row)
open Cert.Pay0 (κv)
open scoped BigOperators

/-- The coordinates of a grid point and the block numbers of the three windows there, decided over
    the 64 points. -/
theorem grid_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 1) = t.val / 8 :=
  (by decide +kernel : ∀ t : Fin grid0.N, _)

section Blocks
variable (V : (c : Dev nD) → (b : Ref sig .tc) → Buf (Elt Ideal) ((c : Thread nD τ).loc b))
variable (c : Dev nD)

/-- The matrix both input windows read, as a family of extended reals indexed by row and column. -/
def Zf : Fin 8192 → Fin 1024 → EReal := fun a k => (V c main_v7 : S8192x1024.Idx → EReal) (ix2 a k)

/-- The first input block at the point with row-block number qi: rows qi * 1024 + r of the matrix. -/
theorem iblk0_0_apply (t : Fin cfg0.N) (qi ki : Fin 8) (ht : t.val = qi.val * 8 + ki.val) (r k : Fin 1024) :
    (iblk0 V c 0 t : Vec Ideal S1024x1024 .bf16) (ix2 r k) = Zf V c (row qi r) k := by
  obtain ⟨-, -, e0, e1, -, -, -⟩ := grid_facts t
  unfold iblk0 Zf
  rw [View.read_apply]
  show (V c main_v7 : S8192x1024.Idx → EReal) _ = (V c main_v7 : S8192x1024.Idx → EReal) (ix2 (row qi r) k)
  congr 1
  funext a
  apply Fin.ext
  match a with
  | ⟨0, _⟩ =>
    show win0_0.index t (0 : Fin 2) * 1024 + 1 * r.val = qi.val * 1024 + r.val
    rw [e0, ht]; omega
  | ⟨1, _⟩ =>
    show win0_0.index t (1 : Fin 2) * 1024 + 1 * k.val = k.val
    rw [e1]; omega

/-- The second input block at the point with column-block number ki: rows ki * 1024 + cc of the matrix. -/
theorem iblk0_1_apply (t : Fin cfg0.N) (qi ki : Fin 8) (ht : t.val = qi.val * 8 + ki.val) (cc k : Fin 1024) :
    (iblk0 V c 1 t : Vec Ideal S1024x1024 .bf16) (ix2 cc k) = Zf V c (row ki cc) k := by
  obtain ⟨-, -, -, -, e0, e1, -⟩ := grid_facts t
  unfold iblk0 Zf
  rw [View.read_apply]
  show (V c main_v7 : S8192x1024.Idx → EReal) _ = (V c main_v7 : S8192x1024.Idx → EReal) (ix2 (row ki cc) k)
  congr 1
  funext a
  apply Fin.ext
  match a with
  | ⟨0, _⟩ =>
    show win0_1.index t (0 : Fin 2) * 1024 + 1 * cc.val = ki.val * 1024 + cc.val
    rw [e0, ht]; omega
  | ⟨1, _⟩ =>
    show win0_1.index t (1 : Fin 2) * 1024 + 1 * k.val = k.val
    rw [e1]; omega

/-- What the body stores at the point (qi, ki), at row r, over an accumulator acc: acc at r plus the
    masked exponentials of the scaled inner products of row qi * 1024 + r with the rows of block ki. -/
theorem pay_at (t : Fin cfg0.N) (qi ki : Fin 8) (ht : t.val = qi.val * 8 + ki.val)
    (acc : FVec Ideal S1024 .f32) (r : Fin 1024) :
    k0_pay2 (F := Ideal) (grid0.coords t) (iblk0 V c 0 t) (iblk0 V c 1 t) acc (ix1 r)
      = acc (ix1 r) + ∑ cc : Fin 1024,
          (if qi.val * 1024 + r.val = ki.val * 1024 + cc.val then 0
           else Ideal.exp ((∑ k : Fin 1024, Zf V c (row qi r) k * Zf V c (row ki cc) k) * κv)) := by
  obtain ⟨g0, g1, -⟩ := grid_facts t
  have hi0 : (grid0.coords t 0).val = qi.val := by rw [g0, ht]; omega
  have hi1 : (grid0.coords t 1).val = ki.val := by rw [g1, ht]; omega
  refine (Cert.Pay0.pay2_apply qi ki (grid0.coords t) hi0 hi1 (iblk0 V c 0 t) (iblk0 V c 1 t) acc r).trans ?_
  refine congrArg (acc (ix1 r) + ·) (Finset.sum_congr rfl fun cc _ => ?_)
  refine if_congr Iff.rfl rfl (congrArg Ideal.exp (congrArg (· * κv) (Finset.sum_congr rfl fun k _ => ?_)))
  exact congrArg₂ (· * ·) (iblk0_0_apply V c t qi ki ht r k) (iblk0_1_apply V c t qi ki ht cc k)

end Blocks

section Rows
variable (V : (c : Dev nD) → (b : Ref sig .tc) → Buf (Elt Ideal) ((c : Thread nD τ).loc b))
variable (c : Dev nD)
/- The accumulator after the body at each point, with its two equations: at column block 0 the body
   starts from the zero vector, elsewhere from what the point before left. -/
variable (s : Fin cfg0.N → Vec Ideal S1024 .f32)
variable (hreset : ∀ t : Fin cfg0.N, t.val % 8 = 0 →
  s t = k0_pay2 (F := Ideal) (grid0.coords t) (iblk0 V c 0 t) (iblk0 V c 1 t) (k0_pay1 (F := Ideal)))
variable (hacc : ∀ (t : Fin cfg0.N) (h : ¬t.val % 8 = 0),
  s t = k0_pay2 (F := Ideal) (grid0.coords t) (iblk0 V c 0 t) (iblk0 V c 1 t)
    (s ⟨t.val - 1, Nat.lt_of_le_of_lt (Nat.sub_le _ _) t.isLt⟩))

/-- The point with row-block number qi and column-block number n. -/
def pt (qi : Fin 8) (n : Nat) (hn : n < 8) : Fin cfg0.N :=
  ⟨qi.val * 8 + n, by rw [show cfg0.N = 64 from N_0]; omega⟩

theorem pt_val (qi : Fin 8) (n : Nat) (hn : n < 8) : (pt qi n hn).val = qi.val * 8 + n := rfl

include hreset hacc in
/-- After the last column block the accumulator's entry r is the denominator of row qi * 1024 + r. -/
theorem s_last (qi : Fin 8) (r : Fin 1024) :
    s (pt qi 7 (by omega)) (ix1 r) = Cert.Spec.denom (Zf V c) (row qi r) := by
  let a : Nat → EReal := fun n =>
    if h : 0 < n ∧ n ≤ 8 then s (pt qi (n - 1) (by omega)) (ix1 r) else 0
  have ha : ∀ (n : Nat) (hn : n < 8), a (n + 1) = s (pt qi n hn) (ix1 r) := fun n hn => by
    show (if h : 0 < n + 1 ∧ n + 1 ≤ 8 then s (pt qi (n + 1 - 1) (by omega)) (ix1 r) else 0) = _
    rw [dif_pos ⟨by omega, by omega⟩]
    exact congrArg (fun p => s p (ix1 r)) (Fin.ext (by show qi.val * 8 + (n + 1 - 1) = qi.val * 8 + n; omega))
  have h0 : a 0 = 0 := dif_neg (by omega)
  rw [← ha 7 (by omega)]
  refine Cert.Accum0.accum_eq_denom_of_scale κv Cert.Pay0.mul_kappa_eq_div (Zf V c) qi r a h0 ?_
  intro n hn
  rw [ha n hn]
  by_cases hn0 : n = 0
  · subst hn0
    have hm : (pt qi 0 hn).val % 8 = 0 := by rw [pt_val]; omega
    rw [hreset (pt qi 0 hn) hm, h0]
    refine (pay_at V c (pt qi 0 hn) qi ⟨0, hn⟩ rfl (k0_pay1 (F := Ideal)) r).trans ?_
    rw [Cert.Pay0.pay1_apply]
  · have hm : ¬(pt qi n hn).val % 8 = 0 := by rw [pt_val]; omega
    rw [hacc (pt qi n hn) hm]
    refine (pay_at V c (pt qi n hn) qi ⟨n, hn⟩ rfl _ r).trans ?_
    refine congrArg (· + _) ?_
    obtain ⟨m, rfl⟩ : ∃ m, n = m + 1 := ⟨n - 1, by omega⟩
    rw [ha m (by omega)]
    exact congrArg (fun p => s p (ix1 r)) (Fin.ext (by show qi.val * 8 + (m + 1) - 1 = qi.val * 8 + m; omega))

end Rows

section Array
variable (V : (c : Dev nD) → (b : Ref sig .tc) → Buf (Elt Ideal) ((c : Thread nD τ).loc b))
variable (c : Dev nD)
variable (s : Fin cfg0.N → Vec Ideal S1024 .f32)
variable (hreset : ∀ t : Fin cfg0.N, t.val % 8 = 0 →
  s t = k0_pay2 (F := Ideal) (grid0.coords t) (iblk0 V c 0 t) (iblk0 V c 1 t) (k0_pay1 (F := Ideal)))
variable (hacc : ∀ (t : Fin cfg0.N) (h : ¬t.val % 8 = 0),
  s t = k0_pay2 (F := Ideal) (grid0.coords t) (iblk0 V c 0 t) (iblk0 V c 1 t)
    (s ⟨t.val - 1, Nat.lt_of_le_of_lt (Nat.sub_le _ _) t.isLt⟩))
/- The proof data of the region: at the points that write the output block back, what the body left
   in the output window is the accumulator. -/
variable (dat : Dat τ (Elt Ideal) Unit ℕ (Pipeline.UD sig nD τ) ℕ cfg0 c)
variable (hafter : ∀ t : Fin cfg0.N, t.val % 8 = 7 → dat.after 2 t = s t)

/-- The vector of the denominators of all rows. -/
def G0 : S8192.Idx → EReal := fun j => Cert.Spec.denom (Zf V c) ⟨(j 0).val, (j 0).isLt⟩

/-- The same as contents of the output array. -/
abbrev G : Buf (Elt Ideal) ((c : Thread nD τ).loc main_v8) := G0 V c

include hreset hacc hafter in
/-- What a point that writes back writes: its block of the vector of denominators. -/
theorem flushed_eq (t : Fin cfg0.N) (hf : (cfg0.win 2).flush t = true) :
    dat.flushed 2 t = ((cfg0.win 2).blk t).view.read (Elt Ideal) (G V c) := by
  have h7 : t.val % 8 = 7 := (flush0_2 t).mp hf
  have hlt : t.val < 64 := lt_of_lt_of_eq t.isLt (N_0 : cfg0.N = 64)
  obtain ⟨-, -, -, -, -, -, e2⟩ := grid_facts t
  show (cfg0.win 2).cut (grid0.coords t) (dat.after 2 t) = _
  rw [hafter t h7]
  funext (y : S1024.Idx)
  obtain ⟨r, rfl⟩ : ∃ r : Fin 1024, y = ix1 r := ⟨y 0, eq_ix1 y⟩
  have ht : t = pt ⟨t.val / 8, by omega⟩ 7 (by omega) := Fin.ext (by show t.val = t.val / 8 * 8 + 7; omega)
  rw [View.read_apply]
  show s t (ix1 r) = G0 V c (((cfg0.win 2).blk t).view.emb (ix1 r))
  have hs := s_last V c s hreset hacc ⟨t.val / 8, by omega⟩ r
  rw [← ht] at hs
  rw [hs]
  unfold G0
  refine congrArg (Cert.Spec.denom (Zf V c)) (Fin.ext ?_)
  show t.val / 8 * 1024 + r.val = win0_2.index t (0 : Fin 1) * 1024 + 1 * r.val
  rw [e2]; omega

/-- An entry of the output array is in the block of point t exactly when it lies in that block's range. -/
theorem mem_blk (t : Fin cfg0.N) (i : S8192.Idx) :
    i ∈ ((cfg0.win 2).blk t).view.set ↔
      ∀ a : Fin 1, win0_2.index t a * S1024.size a ≤ (i a).val ∧ (i a).val < win0_2.index t a * S1024.size a + S1024.size a := by
  show i ∈ ((View.whole main_v8).slice (win0_2.rect t)).set ↔ _
  rw [View.set_slice_whole, Rect.mem_set_unit]
  exact Iff.rfl

/-- Every entry of the output array lies in the block of a point that writes back: entry j in the
    block of the last point of row block j / 1024. -/
theorem cover (i : S8192.Idx) :
    ∃ t : Fin cfg0.N, (cfg0.win 2).flush t = true ∧ i ∈ ((cfg0.win 2).blk t).view.set := by
  have hi : (i 0).val < 8192 := (i 0).isLt
  have hq : (i 0).val / 1024 < 8 := by omega
  refine ⟨pt ⟨(i 0).val / 1024, hq⟩ 7 (by omega), (flush0_2 _).mpr (by rw [pt_val]; omega), ?_⟩
  obtain ⟨-, -, -, -, -, -, e2⟩ := grid_facts (pt ⟨(i 0).val / 1024, hq⟩ 7 (by omega))
  rw [mem_blk]
  intro a
  match a with
  | ⟨0, _⟩ =>
    show win0_2.index (pt ⟨(i 0).val / 1024, hq⟩ 7 (by omega)) (0 : Fin 1) * 1024 ≤ (i 0).val
      ∧ (i 0).val < win0_2.index (pt ⟨(i 0).val / 1024, hq⟩ 7 (by omega)) (0 : Fin 1) * 1024 + 1024
    rw [e2, pt_val]
    show ((i 0).val / 1024 * 8 + 7) / 8 * 1024 ≤ (i 0).val ∧ (i 0).val < ((i 0).val / 1024 * 8 + 7) / 8 * 1024 + 1024
    omega

include hreset hacc hafter in
/-- The output array after the region holds the vector of denominators. -/
theorem final_arr : dat.arrAt 2 cfg0.N = G V c :=
  dat.arrAt_eq_of_cover 2 (G V c) (flushed_eq V c s hreset hacc dat hafter) cover

include hreset hacc hafter in
/-- Entry i of the output array after the region is the denominator of row i of the matrix the two
    input windows read. -/
theorem final (i : Fin 8192) :
    dat.arrAt 2 cfg0.N (ix1 i)
      = Cert.Spec.denom (fun a k => (V c main_v7 : S8192x1024.Idx → EReal) (ix2 a k)) i :=
  congrFun (final_arr V c s hreset hacc dat hafter) (ix1 i)

end Array

end Cert.Value0

end
-- ==== Proof.Pay1a.lean ====
import proofs.«109708_j47038481826438_1_alg».proof.Proof.Gen.KernelIdeal.Skeleton
import Idealize.ShloMosaic.Lib.ValueIdx
import Idealize.ShloMosaic.Lib.Pipeline.Value
import Idealize.ShloMosaic.PureOps.Ideal.Laws

/-! The second kernel's accumulator arithmetic read at an index, at the extended reals.

    The running total has one entry per stacked half. It is reset to the literal zero, receives at
    every grid point the sum over the tile's 512 x 512 entries of the masked exponentials (the
    exponential where the mask bit is one, the other operand, which is the literal zero, where it
    is not), and is finally divided by the number of pairs and passed through the logarithm. -/

noncomputable section

namespace Cert.Pay1

open Idealize.ShloMosaic Idealize.ShloMosaic.ValueIdx Cert.KernelIdeal Cert.KernelIdeal.Gen
open scoped BigOperators

/-- The reset value of the running total is zero at both entries. -/
theorem pay3_apply (b : Fin 2) : k1_pay3 (F := Ideal) (ix1 b) = 0 :=
  (show k1_pay3 (F := Ideal) (ix1 b) = Ideal.ofBits .f32 0x00000000#32 from rfl).trans Ideal.ofBits_zero_f32

/-- The operand selected where the mask bit is not one is zero at every entry. -/
theorem pay6_apply (b : Fin 2) (r c : Fin 512) : k1_pay6 (F := Ideal) (ix3 b r c) = 0 :=
  (show k1_pay6 (F := Ideal) (ix3 b r c) = Ideal.ofBits .f32 0x00000000#32 from rfl).trans Ideal.ofBits_zero_f32

/-- The final value: the logarithm of the running total divided by the number of pairs. -/
theorem pay2_apply (acc : FVec Ideal S2 .f32) (b : Fin 2) :
    k1_pay2 (F := Ideal) acc (ix1 b)
      = Ideal.log (Ideal.div (acc (ix1 b)) (Ideal.ofBits .f32 0x49FFE000#32)) := rfl

/-- The sum along the last axis of a [2, 512, 512] array, at (b, r): the sum over the columns. -/
theorem sum_cols (src : FVec Ideal S2x512x512 .f32) (b : Fin 2) (r : Fin 512) :
    multiReduction .add [2] S2x512 src 0x00000000#32 reduces_S2x512x512_S2x512 (.inl rfl) rfl (ix2 b r)
      = ∑ c : Fin 512, src (ix3 b r c) :=
  (Ideal.multiReduction_add_single src 0x00000000#32 reduces_S2x512x512_S2x512 (.inl rfl) rfl (ix2 b r)).trans
    (Finset.sum_congr rfl fun c _ => congrArg src (funext fun a => Fin.ext (by
      match a with
      | ⟨0, _⟩ => rfl
      | ⟨1, _⟩ => rfl
      | ⟨2, _⟩ => rfl)))

/-- The sum along the last axis of a [2, 512] array, at b: the sum over the rows. -/
theorem sum_rows (src : FVec Ideal S2x512 .f32) (b : Fin 2) :
    multiReduction .add [1] S2 src 0x00000000#32 reduces_S2x512_S2 (.inl rfl) rfl (ix1 b)
      = ∑ r : Fin 512, src (ix2 b r) :=
  (Ideal.multiReduction_add_single src 0x00000000#32 reduces_S2x512_S2 (.inl rfl) rfl (ix1 b)).trans
    (Finset.sum_congr rfl fun r _ => congrArg src (funext fun a => Fin.ext (by
      match a with
      | ⟨0, _⟩ => rfl
      | ⟨1, _⟩ => rfl)))

/-- One grid point's update of the running total: entry b receives the sum, over the rows r and
    the columns c of half b's tile, of the first operand where the mask bit is one and of the
    second operand elsewhere. -/
theorem pay1_apply (msk : IVec S2x512x512 1) (e zr : FVec Ideal S2x512x512 .f32) (acc : FVec Ideal S2 .f32)
    (b : Fin 2) :
    k1_pay1 (F := Ideal) msk e zr acc (ix1 b)
      = acc (ix1 b) + ∑ r : Fin 512, ∑ c : Fin 512,
          (if msk (ix3 b r c) = 1#1 then e (ix3 b r c) else zr (ix3 b r c)) := by
  unfold k1_pay1
  refine (congrFun (shapeCast_self _ shapeCasts_S2_S2) (ix1 b)).trans ?_
  refine congrArg (acc (ix1 b) + ·) ?_
  refine (sum_rows _ b).trans ?_
  refine Finset.sum_congr rfl fun r _ => ?_
  refine (sum_cols _ b r).trans ?_
  rfl

end Cert.Pay1

end
-- ==== Proof.Pay1b.lean ====
import proofs.«109708_j47038481826438_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The second kernel's exponential term read at an index, at the extended reals.

    For the two stacked halves b, a tile of 512 rows xq and a tile of 512 rows xk, the entry
    (b, r, c) is exp (-2 * max ((|xq_r|² + |xk_c|²) - 2 * (xq_r · xk_c)) 0): the squared norms are
    sums of squares along the feature axis, kept as a column for the rows and as a row for the
    columns and then spread over the tile; the inner products are a batched product that contracts
    the feature axis of both operands with the half as the batch axis, into a zero accumulator.
    Widening a format is the identity on the extended reals. -/

noncomputable section

namespace Cert.Pay1

open Idealize.ShloMosaic Idealize.ShloMosaic.ValueIdx Cert.KernelIdeal Cert.KernelIdeal.Gen
open scoped BigOperators

/-- The squared norms of a tile's rows: the sum of squares along the feature axis. -/
def sqNorm (x : FVec Ideal S2x512x1024 .bf16) : FVec Ideal S2x512 .f32 :=
  multiReduction (F := Ideal) .add [2] S2x512
    (mulf (extf (F := Ideal) .f32 (shapeCast S2x512x1024 x shapeCasts_S2x512x1024_S2x512x1024) bitsLt_bf16_f32)
      (extf (F := Ideal) .f32 (shapeCast S2x512x1024 x shapeCasts_S2x512x1024_S2x512x1024) bitsLt_bf16_f32))
    0x00000000#32 reduces_S2x512x1024_S2x512 (.inl rfl) rfl

/-- The squared norms kept as a column and spread along the columns of the tile. -/
def rowNorms (x : FVec Ideal S2x512x1024 .bf16) : FVec Ideal S2x512x512 .f32 :=
  broadcastTo S2x512x512 (shapeCast S2x512x1 (sqNorm x) shapeCasts_S2x512_S2x512x1) broadcasts_S2x512x1_S2x512x512

/-- The squared norms kept as a row and spread along the rows of the tile. -/
def colNorms (x : FVec Ideal S2x512x1024 .bf16) : FVec Ideal S2x512x512 .f32 :=
  broadcastTo S2x512x512 (shapeCast S2x1x512 (sqNorm x) shapeCasts_S2x512_S2x1x512) broadcasts_S2x1x512_S2x512x512

/-- The inner products of the rows of one tile with the rows of the other, half by half. -/
def gram (xq xk : FVec Ideal S2x512x1024 .bf16) : FVec Ideal S2x512x512 .f32 :=
  matmul (F := Ideal) dot_S2x512x1024_S2x512x1024_S2x512x512_2_2_1_1_0_0 none
    (shapeCast S2x512x1024 xq shapeCasts_S2x512x1024_S2x512x1024)
    (shapeCast S2x512x1024 xk shapeCasts_S2x512x1024_S2x512x1024)
    (constant (F := Ideal) S2x512x512 .f32 0x00000000#32)

/-- The exponential term with its three array-valued parts named. -/
theorem pay5_shape (xq xk : FVec Ideal S2x512x1024 .bf16) (b : Fin 2) (r c : Fin 512) :
    k1_pay5 (F := Ideal) xq xk (ix3 b r c)
      = Ideal.exp (Ideal.ofBits .f32 0xC0000000#32 *
          max ((rowNorms xq (ix3 b r c) + colNorms xk (ix3 b r c))
                - Ideal.ofBits .f32 0x40000000#32 * gram xq xk (ix3 b r c))
            (Ideal.ofBits .f32 0x00000000#32)) := rfl

/-- A squared norm at (b, r): the sum over the features of the squares of row r of half b. -/
theorem sqNorm_apply (x : FVec Ideal S2x512x1024 .bf16) (b : Fin 2) (r : Fin 512) :
    sqNorm x (ix2 b r) = ∑ k : Fin 1024, x (ix3 b r k) * x (ix3 b r k) := by
  unfold sqNorm
  refine (Ideal.multiReduction_add_single _ 0x00000000#32 reduces_S2x512x1024_S2x512 (.inl rfl) rfl (ix2 b r)).trans ?_
  refine Finset.sum_congr rfl fun k _ => ?_
  have hl : reduces_S2x512x1024_S2x512.lift (ix2 b r) k = ix3 b r k := funext fun a => Fin.ext (by
    match a with
    | ⟨0, _⟩ => rfl
    | ⟨1, _⟩ => rfl
    | ⟨2, _⟩ => rfl)
  rw [hl, shapeCast_self]
  rfl

/-- The column of squared norms spread over the tile reads, at (b, r, c), the squared norm of row r. -/
theorem rowNorms_apply (x : FVec Ideal S2x512x1024 .bf16) (b : Fin 2) (r c : Fin 512) :
    rowNorms x (ix3 b r c) = sqNorm x (ix2 b r) := by
  unfold rowNorms
  refine (broadcastTo_apply _ broadcasts_S2x512x1_S2x512x512 (ix3 b r c) (ix3 b r (0 : Fin 1)) fun a => ?_).trans ?_
  · match a with
    | ⟨0, _⟩ => rfl
    | ⟨1, _⟩ => rfl
    | ⟨2, _⟩ => rfl
  · refine shapeCast_apply _ shapeCasts_S2x512_S2x512x1 (ix3 b r (0 : Fin 1)) (ix2 b r) ?_
    rw [Shape.rowMajor_val_two, Shape.rowMajor_val_three]
    show b.val * 512 + r.val = (b.val * 512 + r.val) * 1 + 0
    omega

/-- The row of squared norms spread over the tile reads, at (b, r, c), the squared norm of row c. -/
theorem colNorms_apply (x : FVec Ideal S2x512x1024 .bf16) (b : Fin 2) (r c : Fin 512) :
    colNorms x (ix3 b r c) = sqNorm x (ix2 b c) := by
  unfold colNorms
  refine (broadcastTo_apply _ broadcasts_S2x1x512_S2x512x512 (ix3 b r c) (ix3 b (0 : Fin 1) c) fun a => ?_).trans ?_
  · match a with
    | ⟨0, _⟩ => rfl
    | ⟨1, _⟩ => rfl
    | ⟨2, _⟩ => rfl
  · refine shapeCast_apply _ shapeCasts_S2x512_S2x1x512 (ix3 b (0 : Fin 1) c) (ix2 b c) ?_
    rw [Shape.rowMajor_val_two, Shape.rowMajor_val_three]
    show b.val * 512 + c.val = (b.val * 1 + 0) * 512 + c.val
    omega

/-! The batched product: the half is the batch axis (axis 0 of both operands and of the result),
    the rows of the two tiles are the free axes, the feature axis of both operands is contracted. -/

theorem gram_lhs0 (i : S2x512x512.Idx) (q : dot_S2x512x1024_S2x512x1024_S2x512x512_2_2_1_1_0_0.contr.Idx) :
    (dot_S2x512x1024_S2x512x1024_S2x512x512_2_2_1_1_0_0.lhsIdx i q 0).val = (i 0).val := by
  unfold DotDims.lhsIdx
  rw [dif_pos (show (0 : Fin S2x512x1024.rank) ∈ dot_S2x512x1024_S2x512x1024_S2x512x512_2_2_1_1_0_0.lhsBatch by decide)]
  rfl

theorem gram_lhs1 (i : S2x512x512.Idx) (q : dot_S2x512x1024_S2x512x1024_S2x512x512_2_2_1_1_0_0.contr.Idx) :
    (dot_S2x512x1024_S2x512x1024_S2x512x512_2_2_1_1_0_0.lhsIdx i q 1).val = (i 1).val := by
  unfold DotDims.lhsIdx
  rw [dif_neg (show ¬(1 : Fin S2x512x1024.rank) ∈ dot_S2x512x1024_S2x512x1024_S2x512x512_2_2_1_1_0_0.lhsBatch by decide),
    dif_pos (show (1 : Fin S2x512x1024.rank) ∈ dot_S2x512x1024_S2x512x1024_S2x512x512_2_2_1_1_0_0.lhsNonContracting by decide)]
  rfl

theorem gram_lhs2 (i : S2x512x512.Idx) (q : dot_S2x512x1024_S2x512x1024_S2x512x512_2_2_1_1_0_0.contr.Idx) :
    (dot_S2x512x1024_S2x512x1024_S2x512x512_2_2_1_1_0_0.lhsIdx i q 2).val = (q ⟨0, by decide⟩).val :=
  dot_S2x512x1024_S2x512x1024_S2x512x512_2_2_1_1_0_0.lhsIdx_val_of_single rfl i q

theorem gram_rhs0 (i : S2x512x512.Idx) (q : dot_S2x512x1024_S2x512x1024_S2x512x512_2_2_1_1_0_0.contr.Idx) :
    (dot_S2x512x1024_S2x512x1024_S2x512x512_2_2_1_1_0_0.rhsIdx i q 0).val = (i 0).val := by
  unfold DotDims.rhsIdx
  rw [dif_pos (show (0 : Fin S2x512x1024.rank) ∈ dot_S2x512x1024_S2x512x1024_S2x512x512_2_2_1_1_0_0.rhsBatch by decide)]
  rfl

theorem gram_rhs1 (i : S2x512x512.Idx) (q : dot_S2x512x1024_S2x512x1024_S2x512x512_2_2_1_1_0_0.contr.Idx) :
    (dot_S2x512x1024_S2x512x1024_S2x512x512_2_2_1_1_0_0.rhsIdx i q 1).val = (i 2).val := by
  unfold DotDims.rhsIdx
  rw [dif_neg (show ¬(1 : Fin S2x512x1024.rank) ∈ dot_S2x512x1024_S2x512x1024_S2x512x512_2_2_1_1_0_0.rhsBatch by decide),
    dif_pos (show (1 : Fin S2x512x1024.rank) ∈ dot_S2x512x1024_S2x512x1024_S2x512x512_2_2_1_1_0_0.rhsNonContracting by decide)]
  rfl

theorem gram_rhs2 (i : S2x512x512.Idx) (q : dot_S2x512x1024_S2x512x1024_S2x512x512_2_2_1_1_0_0.contr.Idx) :
    (dot_S2x512x1024_S2x512x1024_S2x512x512_2_2_1_1_0_0.rhsIdx i q 2).val = (q ⟨0, by decide⟩).val :=
  dot_S2x512x1024_S2x512x1024_S2x512x512_2_2_1_1_0_0.rhsIdx_val_of_single rfl i q

/-- An inner product at (b, r, c): the sum over the features of row r of the first tile times row c
    of the second, both in half b. -/
theorem gram_apply (xq xk : FVec Ideal S2x512x1024 .bf16) (b : Fin 2) (r c : Fin 512) :
    gram xq xk (ix3 b r c) = ∑ k : Fin 1024, xq (ix3 b r k) * xk (ix3 b c k) := by
  unfold gram
  rw [shapeCast_self, shapeCast_self]
  simp only [matmul]
  rw [Ideal.matmul_constant_zero_apply,
    ← Equiv.sum_comp (contrEquiv1 dot_S2x512x1024_S2x512x1024_S2x512x512_2_2_1_1_0_0 1024 rfl rfl).symm]
  refine Finset.sum_congr rfl fun k _ => ?_
  have hk := contrEquiv1_symm_val dot_S2x512x1024_S2x512x1024_S2x512x512_2_2_1_1_0_0 1024 rfl rfl k
  have el : dot_S2x512x1024_S2x512x1024_S2x512x512_2_2_1_1_0_0.lhsIdx (ix3 b r c)
      ((contrEquiv1 dot_S2x512x1024_S2x512x1024_S2x512x512_2_2_1_1_0_0 1024 rfl rfl).symm k) = ix3 b r k :=
    funext fun a => Fin.ext (by
      match a with
      | ⟨0, _⟩ => exact gram_lhs0 _ _
      | ⟨1, _⟩ => exact gram_lhs1 _ _
      | ⟨2, _⟩ => exact (gram_lhs2 _ _).trans hk)
  have er : dot_S2x512x1024_S2x512x1024_S2x512x512_2_2_1_1_0_0.rhsIdx (ix3 b r c)
      ((contrEquiv1 dot_S2x512x1024_S2x512x1024_S2x512x512_2_2_1_1_0_0 1024 rfl rfl).symm k) = ix3 b c k :=
    funext fun a => Fin.ext (by
      match a with
      | ⟨0, _⟩ => exact gram_rhs0 _ _
      | ⟨1, _⟩ => exact gram_rhs1 _ _
      | ⟨2, _⟩ => exact (gram_rhs2 _ _).trans hk)
  rw [el, er]

/-- The exponential term at (b, r, c) of the tiles xq and xk. -/
theorem pay5_apply (xq xk : FVec Ideal S2x512x1024 .bf16) (b : Fin 2) (r c : Fin 512) :
    k1_pay5 (F := Ideal) xq xk (ix3 b r c)
      = Ideal.exp (Ideal.ofBits .f32 0xC0000000#32 *
          max (((∑ k : Fin 1024, xq (ix3 b r k) * xq (ix3 b r k))
                  + (∑ k : Fin 1024, xk (ix3 b c k) * xk (ix3 b c k)))
                - Ideal.ofBits .f32 0x40000000#32 * (∑ k : Fin 1024, xq (ix3 b r k) * xk (ix3 b c k))) 0) := by
  rw [pay5_shape, rowNorms_apply, colNorms_apply, sqNorm_apply, sqNorm_apply, gram_apply, Ideal.ofBits_zero_f32]

end Cert.Pay1

end
-- ==== Proof.Pay1c.lean ====
import proofs.«109708_j47038481826438_1_alg».proof.Proof.Gen.KernelIdeal.Skeleton
import Idealize.ShloMosaic.Lib.ValueIdx
import Idealize.ShloMosaic.Lib.Pipeline.Value

/-! The second kernel's mask read at an index.

    At the grid point whose coordinates are the tile pair (qi, ki) the mask bit at (b, r, c)
    compares, as signed 32-bit words, the global row qi * 512 + r with the global column
    ki * 512 + c. Both are below 2048, so the words are the numbers themselves, their signed
    readings too, and the bit is one exactly when the row lies strictly below the column. -/

noncomputable section

namespace Cert.Pay1

open Idealize.ShloMosaic Idealize.ShloMosaic.ValueIdx Cert.KernelIdeal Cert.KernelIdeal.Gen

/-- A tile's offset word plus a coordinate word is the word of the global coordinate. -/
theorem ofNat_tile (a r : ℕ) :
    BitVec.ofNat 32 a * 512#32 + BitVec.ofNat 32 r = BitVec.ofNat 32 (a * 512 + r) := by
  apply BitVec.eq_of_toNat_eq
  simp only [BitVec.toNat_add, BitVec.toNat_mul, BitVec.toNat_ofNat]
  omega

/-- The signed reading of the word of a number below 2048 is the number. -/
theorem toInt_small (n : ℕ) (h : n < 2048) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- The signed comparison of two global coordinates below 2048, as a bit. -/
theorem slt_tile (a k r c : ℕ) (ha : a < 4) (hk : k < 4) (hr : r < 512) (hc : c < 512) :
    BitVec.ofBool ((BitVec.ofNat 32 a * 512#32 + BitVec.ofNat 32 r).slt
        (BitVec.ofNat 32 k * 512#32 + BitVec.ofNat 32 c)) = 1#1 ↔ a * 512 + r < k * 512 + c := by
  rw [ofNat_tile, ofNat_tile]
  have h1 := toInt_small (a * 512 + r) (by omega)
  have h2 := toInt_small (k * 512 + c) (by omega)
  constructor
  · intro h
    have hs : (BitVec.ofNat 32 (a * 512 + r)).slt (BitVec.ofNat 32 (k * 512 + c)) = true := by
      cases hb : (BitVec.ofNat 32 (a * 512 + r)).slt (BitVec.ofNat 32 (k * 512 + c)) with
      | true => rfl
      | false => rw [hb] at h; exact absurd h (by decide)
    have := BitVec.slt_iff_toInt_lt.mp hs
    rw [h1, h2] at this
    exact_mod_cast this
  · intro h
    have hs : (BitVec.ofNat 32 (a * 512 + r)).slt (BitVec.ofNat 32 (k * 512 + c)) = true :=
      BitVec.slt_iff_toInt_lt.mpr (by rw [h1, h2]; exact_mod_cast h)
    rw [hs]; rfl

/-- The mask at the grid point of the tile pair (qi, ki): the bit at (b, r, c) is one exactly when
    the global row qi * 512 + r is strictly below the global column ki * 512 + c. -/
theorem pay4_apply (i : grid1.Coords) (qi ki : Fin 4) (h0 : (i 0).val = qi.val) (h1 : (i 1).val = ki.val)
    (b : Fin 2) (r c : Fin 512) :
    k1_pay4 i (ix3 b r c) = 1#1 ↔ qi.val * 512 + r.val < ki.val * 512 + c.val := by
  have e : k1_pay4 i (ix3 b r c)
      = IntOp.cmpi .slt
          (IntOp.addi (IntOp.muli (BitVec.ofNat 32 (i 0).val) 512#32)
            (iota .tc S2x512x512 32 [1] iota_S2x512x512_d1_w32 (ix3 b r c)))
          (IntOp.addi (IntOp.muli (BitVec.ofNat 32 (i 1).val) 512#32)
            (iota .tc S2x512x512 32 [2] iota_S2x512x512_d2_w32 (ix3 b r c))) := rfl
  rw [e, iota_single_apply, iota_single_apply, h0, h1]
  exact slt_tile qi.val ki.val r.val c.val qi.isLt ki.isLt r.isLt c.isLt

end Cert.Pay1

end
-- ==== Proof.Accum1.lean ====
import proofs.«109708_j47038481826438_1_alg».proof.Proof.Spec
import Mathlib

/-! The pairwise term over a block of 2048 rows, cut into four tiles of 512 rows on each axis.

    The sum over the ordered pairs of rows i < j is regrouped as a sum over the sixteen pairs of
    tiles (qi, ki), each tile pair contributing the sum over its 512 x 512 entries of the pair term
    where the global row qi * 512 + r lies strictly below the global row ki * 512 + c, and the
    literal zero elsewhere. Adding the sixteen contributions one at a time, in row-major order of
    the tile pairs, to a running total that starts at zero gives that same sum. Every step is a
    regrouping of finite sums in the commutative monoid of the extended reals under addition; no
    entry is assumed finite. -/

noncomputable section

namespace Cert.Accum1

open Idealize.ShloMosaic
open scoped BigOperators

/-- Row q * 512 + r of the block: row r of tile q. -/
def row (q : Fin 4) (r : Fin 512) : Fin 2048 :=
  ⟨q.val * 512 + r.val, by have := q.isLt; have := r.isLt; omega⟩

theorem row_val (q : Fin 4) (r : Fin 512) : (row q r).val = q.val * 512 + r.val := rfl

/-- The term of the pair of rows (i, j): exp (-2 * max (|x_i|² + |x_j|² - 2 * (x_i · x_j)) 0), with
    the grouping of the specification. -/
def pairTerm (x : Fin 2048 → Fin 1024 → EReal) (i j : Fin 2048) : EReal :=
  Ideal.exp (Ideal.ofBits .f32 0xC0000000#32 *
    max (((∑ k : Fin 1024, x i k * x i k) + (∑ k : Fin 1024, x j k * x j k))
          - Ideal.ofBits .f32 0x40000000#32 * (∑ k : Fin 1024, x i k * x j k)) 0)

/-- The contribution of the tile pair (qi, ki): the pair terms of its entries whose global row is
    strictly below its global column, the literal zero at the other entries. -/
def T (x : Fin 2048 → Fin 1024 → EReal) (qi ki : Fin 4) : EReal :=
  ∑ r : Fin 512, ∑ c : Fin 512,
    if qi.val * 512 + r.val < ki.val * 512 + c.val then pairTerm x (row qi r) (row ki c) else 0

/-- A sum over the 2048 rows is the sum over the four tiles of the sum over a tile's 512 rows. -/
theorem sum_rows {M : Type*} [AddCommMonoid M] (f : Fin 2048 → M) :
    ∑ i, f i = ∑ q : Fin 4, ∑ r : Fin 512, f (row q r) := by
  refine ((Equiv.sum_comp (finProdFinEquiv : Fin 4 × Fin 512 ≃ Fin 2048) f).symm).trans ?_
  rw [Fintype.sum_prod_type]
  refine Finset.sum_congr rfl fun q _ => Finset.sum_congr rfl fun r _ => congrArg f (Fin.ext ?_)
  show r.val + 512 * q.val = q.val * 512 + r.val
  omega

/-- The sum over the ordered pairs of rows is the sum of the sixteen tile-pair contributions. -/
theorem pairs_eq_tiles (x : Fin 2048 → Fin 1024 → EReal) :
    (∑ i : Fin 2048, ∑ j : Fin 2048, if i < j then pairTerm x i j else 0)
      = ∑ qi : Fin 4, ∑ ki : Fin 4, T x qi ki := by
  rw [sum_rows]
  refine Finset.sum_congr rfl fun qi _ => ?_
  have h : ∀ r : Fin 512, (∑ j : Fin 2048, if row qi r < j then pairTerm x (row qi r) j else 0)
      = ∑ ki : Fin 4, ∑ c : Fin 512,
          if qi.val * 512 + r.val < ki.val * 512 + c.val then pairTerm x (row qi r) (row ki c) else 0 := by
    intro r
    rw [sum_rows]
    refine Finset.sum_congr rfl fun ki _ => Finset.sum_congr rfl fun c _ => ?_
    simp only [Fin.lt_def, row_val]
  rw [Finset.sum_congr rfl fun r _ => h r]
  unfold T
  exact Finset.sum_comm

/-- A running total that starts at zero and receives the sixteen tile-pair contributions one at a
    time, tile pair (t / 4, t % 4) at step t, ends at their sum. -/
theorem accum_eq (x : Fin 2048 → Fin 1024 → EReal) (A : ℕ → EReal) (h0 : A 0 = 0)
    (hstep : ∀ (t : ℕ) (ht : t < 16), A (t + 1) = A t + T x ⟨t / 4, by omega⟩ ⟨t % 4, by omega⟩) :
    A 16 = ∑ qi : Fin 4, ∑ ki : Fin 4, T x qi ki := by
  have hA : ∀ n : ℕ, n ≤ 16 → A n = ∑ t ∈ Finset.range n,
      (if h : t < 16 then T x ⟨t / 4, by omega⟩ ⟨t % 4, by omega⟩ else 0) := by
    intro n
    induction n with
    | zero => intro _; rw [h0, Finset.range_zero, Finset.sum_empty]
    | succ n ih =>
      intro hn
      have hn' : n < 16 := by omega
      rw [hstep n hn', ih (by omega), Finset.sum_range_succ, dif_pos hn']
  rw [hA 16 le_rfl, Finset.sum_range,
    ← Equiv.sum_comp (finProdFinEquiv : Fin 4 × Fin 4 ≃ Fin 16), Fintype.sum_prod_type]
  refine Finset.sum_congr rfl fun q _ => Finset.sum_congr rfl fun k _ => ?_
  have hv : ((finProdFinEquiv (q, k) : Fin 16) : ℕ) = k.val + 4 * q.val := rfl
  have hq := q.isLt
  have hk := k.isLt
  rw [dif_pos (by rw [hv]; omega)]
  congr 1
  · exact Fin.ext (by show ((finProdFinEquiv (q, k) : Fin 16) : ℕ) / 4 = q.val; rw [hv]; omega)
  · exact Fin.ext (by show ((finProdFinEquiv (q, k) : Fin 16) : ℕ) % 4 = k.val; rw [hv]; omega)

/-- The logarithm of the running total after the sixteen steps, divided by the number of pairs, is
    the uniformity of the block. -/
theorem log_div_accum_eq_unif (x : Fin 2048 → Fin 1024 → EReal) (A : ℕ → EReal) (h0 : A 0 = 0)
    (hstep : ∀ (t : ℕ) (ht : t < 16), A (t + 1) = A t + T x ⟨t / 4, by omega⟩ ⟨t % 4, by omega⟩) :
    Ideal.log (Ideal.div (A 16) (Ideal.ofBits .f32 0x49FFE000#32)) = Cert.Spec.unif x := by
  rw [accum_eq x A h0 hstep, ← pairs_eq_tiles]
  rfl

end Cert.Accum1

end
-- ==== Proof.Seq1.lean ====
import proofs.«109708_j47038481826438_1_alg».proof.Proof.Frame1RunsBase
import proofs.«109708_j47038481826438_1_alg».proof.Proof.Pay1a
import proofs.«109708_j47038481826438_1_alg».proof.Proof.Pay1b
import proofs.«109708_j47038481826438_1_alg».proof.Proof.Pay1c
import proofs.«109708_j47038481826438_1_alg».proof.Proof.Accum1
import Idealize.ShloMosaic.Lib.Pipeline.Value

/-! The second region's running total, point by point, as the sequence of partial sums of the
    sixteen tile-pair contributions.

    Both input windows read the same stacked array of two halves of 2048 rows. At grid point t the
    first window holds, for each half, the rows of tile t / 4 and the second window the rows of
    tile t % 4. So the entry of half b of the running total after point t is its entry before the
    point plus the contribution of the tile pair (t / 4, t % 4) for the rows of half b, and after
    the last point the logarithm of the scaled total is the uniformity of half b. -/

noncomputable section

namespace Cert.Value1

open Cert.KernelIdeal Cert.KernelIdeal.Gen Cert.KernelIdeal.Hand1
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The rows of half b of the stacked array, as the region finds it. -/
def rowsOf (c : Dev nD) (b : Fin 2) : Fin 2048 → Fin 1024 → EReal :=
  fun a k => (V c main_v28 : S2x2048x1024.Idx → Elt Ideal .bf16) (ix3 b a k)

/-- The grid's points in row-major order: point t is the tile pair (t / 4, t % 4). -/
theorem coords1 : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)

/-- The first window's block index: the whole of the halves and of the features, tile t / 4 of the rows. -/
theorem idx1_0 : ∀ t : Fin cfg1.N, win1_0.index t 0 = 0 ∧ win1_0.index t 1 = t.val / 4 ∧ win1_0.index t 2 = 0 :=
  (by decide +kernel : ∀ t : Fin grid1.N, win1_0.index t 0 = 0 ∧ win1_0.index t 1 = t.val / 4 ∧ win1_0.index t 2 = 0)

/-- The second window's block index: tile t % 4 of the rows. -/
theorem idx1_1 : ∀ t : Fin cfg1.N, win1_1.index t 0 = 0 ∧ win1_1.index t 1 = t.val % 4 ∧ win1_1.index t 2 = 0 :=
  (by decide +kernel : ∀ t : Fin grid1.N, win1_1.index t 0 = 0 ∧ win1_1.index t 1 = t.val % 4 ∧ win1_1.index t 2 = 0)

/-- The first window's block at point t reads row (t / 4) * 512 + r of the array. -/
theorem iblk1_0_apply (c : Dev nD) (t : Fin cfg1.N) (b : Fin 2) (r : Fin 512) (k : Fin 1024)
    (hq : t.val / 4 < 4) :
    (iblk1 V c 0 t : Vec Ideal S2x512x1024 .bf16) (ix3 b r k)
      = rowsOf V c b (Accum1.row ⟨t.val / 4, hq⟩ r) k := by
  obtain ⟨h0, h1, h2⟩ := idx1_0 t
  unfold iblk1 rowsOf
  rw [View.read_apply]
  show V c main_v28 _ = V c main_v28 _
  congr 1
  funext a
  apply Fin.ext
  match a with
  | ⟨0, _⟩ => show win1_0.index t 0 * 2 + 1 * b.val = b.val; rw [h0]; omega
  | ⟨1, _⟩ => show win1_0.index t 1 * 512 + 1 * r.val = t.val / 4 * 512 + r.val; rw [h1]; omega
  | ⟨2, _⟩ => show win1_0.index t 2 * 1024 + 1 * k.val = k.val; rw [h2]; omega

/-- The second window's block at point t reads row (t % 4) * 512 + r of the array. -/
theorem iblk1_1_apply (c : Dev nD) (t : Fin cfg1.N) (b : Fin 2) (r : Fin 512) (k : Fin 1024)
    (hq : t.val % 4 < 4) :
    (iblk1 V c 1 t : Vec Ideal S2x512x1024 .bf16) (ix3 b r k)
      = rowsOf V c b (Accum1.row ⟨t.val % 4, hq⟩ r) k := by
  obtain ⟨h0, h1, h2⟩ := idx1_1 t
  unfold iblk1 rowsOf
  rw [View.read_apply]
  show V c main_v28 _ = V c main_v28 _
  congr 1
  funext a
  apply Fin.ext
  match a with
  | ⟨0, _⟩ => show win1_1.index t 0 * 2 + 1 * b.val = b.val; rw [h0]; omega
  | ⟨1, _⟩ => show win1_1.index t 1 * 512 + 1 * r.val = t.val % 4 * 512 + r.val; rw [h1]; omega
  | ⟨2, _⟩ => show win1_1.index t 2 * 1024 + 1 * k.val = k.val; rw [h2]; omega

/-- The exponential term over two families of features that are rows i and j of x is the pair term. -/
theorem pairTerm_of_rows (x : Fin 2048 → Fin 1024 → EReal) (i j : Fin 2048) (p q : Fin 1024 → EReal)
    (hp : ∀ k, p k = x i k) (hq : ∀ k, q k = x j k) :
    Ideal.exp (Ideal.ofBits .f32 0xC0000000#32 *
        max (((∑ k : Fin 1024, p k * p k) + (∑ k : Fin 1024, q k * q k))
              - Ideal.ofBits .f32 0x40000000#32 * (∑ k : Fin 1024, p k * q k)) 0)
      = Accum1.pairTerm x i j := by
  obtain rfl : p = x i := funext hp
  obtain rfl : q = x j := funext hq
  rfl

/-- One point's update at entry b: the entry before plus the contribution of the tile pair (t / 4, t % 4). -/
theorem step_apply (c : Dev nD) (t : Fin cfg1.N) (s : FVec Ideal S2 .f32) (b : Fin 2)
    (hq : t.val / 4 < 4) (hk : t.val % 4 < 4) :
    k1_pay1 (F := Ideal) (k1_pay4 (grid1.coords t)) (k1_pay5 (F := Ideal) (iblk1 V c 0 t) (iblk1 V c 1 t))
        (k1_pay6 (F := Ideal)) s (ix1 b)
      = s (ix1 b) + Accum1.T (rowsOf V c b) ⟨t.val / 4, hq⟩ ⟨t.val % 4, hk⟩ := by
  refine (Pay1.pay1_apply (k1_pay4 (grid1.coords t)) (k1_pay5 (F := Ideal) (iblk1 V c 0 t) (iblk1 V c 1 t))
    (k1_pay6 (F := Ideal)) s b).trans ?_
  refine congrArg (s (ix1 b) + ·) ?_
  unfold Accum1.T
  refine Finset.sum_congr rfl fun r _ => Finset.sum_congr rfl fun cc _ => ?_
  have hm := Pay1.pay4_apply (grid1.coords t) ⟨t.val / 4, hq⟩ ⟨t.val % 4, hk⟩ (coords1 t).1 (coords1 t).2 b r cc
  by_cases hlt : t.val / 4 * 512 + r.val < t.val % 4 * 512 + cc.val
  · rw [if_pos (hm.mpr hlt), if_pos hlt]
    refine (Pay1.pay5_apply (iblk1 V c 0 t) (iblk1 V c 1 t) b r cc).trans ?_
    exact pairTerm_of_rows (rowsOf V c b) (Accum1.row ⟨t.val / 4, hq⟩ r) (Accum1.row ⟨t.val % 4, hk⟩ cc)
      (fun k => (iblk1 V c 0 t : Vec Ideal S2x512x1024 .bf16) (ix3 b r k))
      (fun k => (iblk1 V c 1 t : Vec Ideal S2x512x1024 .bf16) (ix3 b cc k))
      (fun k => iblk1_0_apply V c t b r k hq) (fun k => iblk1_1_apply V c t b cc k hk)
  · rw [if_neg (fun h => hlt (hm.mp h)), if_neg hlt]
    exact Pay1.pay6_apply b r cc

/-- Entry b of the running total before grid point n (zero before the first point). -/
def totalBefore (c : Dev nD) (b : Fin 2) : ℕ → EReal
  | 0 => 0
  | n + 1 => if h : n < cfg1.N then sAfter1 V c ⟨n, h⟩ (ix1 b) else 0

/-- Each point adds its tile pair's contribution. -/
theorem totalBefore_succ (c : Dev nD) (b : Fin 2) (t : ℕ) (ht : t < 16) :
    totalBefore V c b (t + 1)
      = totalBefore V c b t + Accum1.T (rowsOf V c b) ⟨t / 4, by omega⟩ ⟨t % 4, by omega⟩ := by
  have hN : cfg1.N = 16 := N_1
  have htN : t < cfg1.N := by rw [hN]; exact ht
  show (if h : t < cfg1.N then sAfter1 V c ⟨t, h⟩ (ix1 b) else 0) = _
  rw [dif_pos htN]
  cases t with
  | zero =>
    rw [sAfter1_first V c ⟨0, htN⟩ rfl]
    refine (step_apply V c ⟨0, htN⟩ (k1_pay3 (F := Ideal)) b (by show 0 / 4 < 4; omega) (by show 0 % 4 < 4; omega)).trans ?_
    rw [Pay1.pay3_apply]
    rfl
  | succ n =>
    rw [sAfter1_next V c ⟨n + 1, htN⟩ (Nat.succ_ne_zero n)]
    refine (step_apply V c ⟨n + 1, htN⟩ _ b (by show (n + 1) / 4 < 4; omega) (by show (n + 1) % 4 < 4; omega)).trans ?_
    have hn : n < cfg1.N := by omega
    show _ = (if h : n < cfg1.N then sAfter1 V c ⟨n, h⟩ (ix1 b) else 0) + _
    rw [dif_pos hn]
    rfl

/-- After the last point: the logarithm of the scaled entry b is the uniformity of half b. -/
theorem log_div_last (c : Dev nD) (b : Fin 2) (h15 : 15 < cfg1.N) :
    Ideal.log (Ideal.div (sAfter1 V c ⟨15, h15⟩ (ix1 b)) (Ideal.ofBits .f32 0x49FFE000#32))
      = Cert.Spec.unif (rowsOf V c b) := by
  have h := Accum1.log_div_accum_eq_unif (rowsOf V c b) (totalBefore V c b) rfl (totalBefore_succ V c b)
  have e : totalBefore V c b 16 = sAfter1 V c ⟨15, h15⟩ (ix1 b) := by
    show (if h : 15 < cfg1.N then sAfter1 V c ⟨15, h⟩ (ix1 b) else 0) = _
    rw [dif_pos h15]
  rw [e] at h
  exact h

/-- The value stored to the output at the last point, at entry b: the uniformity of half b. -/
theorem pay2_last (c : Dev nD) (b : Fin 2) (h15 : 15 < cfg1.N) :
    k1_pay2 (F := Ideal) (sAfter1 V c ⟨15, h15⟩) (ix1 b) = Cert.Spec.unif (rowsOf V c b) :=
  (Pay1.pay2_apply (sAfter1 V c ⟨15, h15⟩) b).trans (log_div_last V c b h15)

end Cert.Value1

end
-- ==== Proof.Value1.lean ====
import proofs.«109708_j47038481826438_1_alg».proof.Proof.Frame1
import proofs.«109708_j47038481826438_1_alg».proof.Proof.Seq1
import Idealize.ShloMosaic.Lib.Pipeline.Value

/-! What the second region leaves in its result array.

    The result array has two entries and one block, which is the whole array. It is written back
    once, after the grid's last point, from the value the body stores there: the logarithm of the
    running total divided by the number of pairs. So entry b of the array after the region is the
    uniformity of the rows of half b of the stacked input array. -/

noncomputable section

namespace Cert.Value1

open Cert.KernelIdeal Cert.KernelIdeal.Gen Cert.KernelIdeal.Hand1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The contents of the result array after the region: what the body stores at the last point. -/
abbrev result1 (c : Dev nD) : Buf (Elt Ideal) ((c : Thread nD τ).loc main_v29) :=
  k1_pay2 (F := Ideal) (sAfter1 V c t1_15)

/-- The one write-back, after the last point, writes it: the array's one block read through zero
    offsets is the array. -/
theorem flushed_eq (c : Dev nD) (t : Fin cfg1.N) (hf : (cfg1.win 2).flush t = true) :
    (dat1 V c).flushed 2 t = ((cfg1.win 2).blk t).view.read (Elt Ideal) (result1 V c) := by
  have hN : cfg1.N = 16 := N_1
  have h15 : t.val = 15 := by have := (flush1_2 t).mp hf; have := t.isLt; omega
  obtain rfl : t = t1_15 := Fin.ext h15
  show (cfg1.win 2).cut (grid1.coords t1_15) ((dat1 V c).after 2 t1_15) = _
  rw [after1_2]
  have hz' : (fun a => win1_2.index t1_15 a * main_v29.ty.shape.size a) = fun _ => 0 :=
    funext fun a => by fin_cases a <;> decide +kernel
  exact (Memref.read_access_unit_zero (Elt Ideal) main_v29 hz' (fun a => by rw [congrFun hz' a]; simp)
    (result1 V c)).symm

/-- So the result array ends holding that value: the last point's block covers it. -/
theorem final1 (c : Dev nD) : (dat1 V c).arrAt 2 cfg1.N = result1 V c :=
  (dat1 V c).arrAt_eq_of_cover 2 (result1 V c) (flushed_eq V c) fun i =>
    ⟨t1_15, (flush1_2 t1_15).mpr rfl, by
      show i ∈ ((View.whole main_v29).slice (win1_2.rect t1_15)).set
      rw [View.set_slice_whole, Rect.mem_set_unit]
      intro a
      have h0 : (i 0 : Nat) < 2 := (i 0).isLt
      match a with
      | ⟨0, _⟩ =>
        show win1_2.index t1_15 0 * win1_2.size 0 ≤ (i 0 : Nat)
          ∧ (i 0 : Nat) < win1_2.index t1_15 0 * win1_2.size 0 + win1_2.xsize (grid1.coords t1_15) 0
        rw [show win1_2.index t1_15 0 * win1_2.size 0 = 0 from by decide +kernel,
          show win1_2.xsize (grid1.coords t1_15) 0 = 2 from by decide +kernel]
        omega⟩

/-- Entry b of the result array after the region is the uniformity of the rows of half b. -/
theorem arrAt_unif (c : Dev nD) (b : Fin 2) :
    ((dat1 V c).arrAt 2 cfg1.N : S2.Idx → Elt Ideal .f32) (ix1 b) = Cert.Spec.unif (rowsOf V c b) := by
  rw [final1]
  exact pay2_last V c b t1_15.isLt

end Cert.Value1

end
-- ==== Proof.Value1Bridge.lean ====
import proofs.«109708_j47038481826438_1_alg».proof.Proof.Spec

/-! The two specified quantities depend on their family of rows only through its entries. -/

noncomputable section

namespace Cert.Value1

/-- Two families of rows with the same entries have the same uniformity. -/
theorem unif_congr (f g : Fin 2048 → Fin 1024 → EReal) (h : ∀ a k, f a k = g a k) :
    Cert.Spec.unif f = Cert.Spec.unif g :=
  congrArg Cert.Spec.unif (funext fun a => funext fun k => h a k)

/-- Two families of rows with the same entries have the same denominators. -/
theorem denom_congr (f g : Fin 8192 → Fin 1024 → EReal) (h : ∀ a k, f a k = g a k) (i : Fin 8192) :
    Cert.Spec.denom f i = Cert.Spec.denom g i :=
  congrArg (fun z => Cert.Spec.denom z i) (funext fun a => funext fun k => h a k)

end Cert.Value1

end
-- ==== Proof.RefDenom.lean ====
import proofs.«109708_j47038481826438_1_alg».proof.Proof.Spec
import proofs.«109708_j47038481826438_1_alg».proof.Proof.Gen.ReferenceIdeal.Read

/-! The reference's row denominators. The stages from the transposed copy of the stacked rows down to the
    row sums of the masked exponentials, read at row `i`, are the specification's `denom` of the stacked
    rows. The mask is `1 - [row = column]` as an extended real, so it is `0` on the diagonal and `1` off it,
    and `0 * e = 0`, `1 * e = e` hold for every extended real `e`: nothing is assumed finite. -/

noncomputable section

namespace Cert.RefSide

open Cert.ReferenceIdeal Cert.ReferenceIdeal.Read Idealize.ShloMosaic Idealize.ShloMosaic.ValueIdx
open scoped BigOperators

/-- The binary32 word `0x3F800000` denotes the number one. -/
theorem ofBits_one_f32 : Ideal.ofBits .f32 0x3F800000#32 = 1 := by
  simp [Ideal.ofBits, Ideal.ieee]
  rw [← EReal.coe_mul]
  norm_num

/-- Two naturals below `8192` have the same 32-bit word only if they are equal. -/
theorem ofNat32_inj_of_lt {a b : Nat} (ha : a < 8192) (hb : b < 8192)
    (h : BitVec.ofNat 32 a = BitVec.ofNat 32 b) : a = b := by
  have := congrArg BitVec.toNat h
  rw [BitVec.toNat_ofNat, BitVec.toNat_ofNat] at this
  omega

/-- The bit "row number plus zero equals column number", for a row and a column below `8192`. -/
theorem diag_bit (a b : Nat) (ha : a < 8192) (hb : b < 8192) :
    IntOp.cmpi .eq (IntOp.addi (BitVec.ofNat 32 a) 0#32) (BitVec.ofNat 32 b) = if a = b then 1#1 else 0#1 := by
  unfold IntOp.cmpi IntOp.addi
  rw [BitVec.add_zero]
  by_cases h : a = b
  · subst h; simp
  · rw [if_neg h]
    have hne : ¬ (BitVec.ofNat 32 a = BitVec.ofNat 32 b) := fun e => h (ofNat32_inj_of_lt ha hb e)
    have hb' : (BitVec.ofNat 32 a == BitVec.ofNat 32 b) = false := by simpa using hne
    show BitVec.ofBool (BitVec.ofNat 32 a == BitVec.ofNat 32 b) = 0#1
    rw [hb']; rfl

/-- The mask `1 - [row = column]` as an extended real: zero on the diagonal, one off it. -/
theorem mask_val (a b : Nat) (ha : a < 8192) (hb : b < 8192) :
    (FloatOps.subf (F := Ideal) (φ := .f32) (FloatOps.ofBits .f32 0x3F800000#32)
      (FloatOps.uitofp .f32 (IntOp.cmpi .eq (IntOp.addi (BitVec.ofNat 32 a) 0#32) (BitVec.ofNat 32 b))) : EReal)
      = if a = b then 0 else 1 := by
  rw [diag_bit a b ha hb, Ideal.subf_def, Ideal.ofBits_def, ofBits_one_f32]
  by_cases h : a = b
  · rw [if_pos h, if_pos h]
    show (1 : EReal) - ((((1#1 : BitVec 1).toNat : ℝ)) : EReal) = 0
    have h1 : (((1#1 : BitVec 1).toNat : ℝ)) = 1 := by simp
    rw [h1, ← EReal.coe_one, ← EReal.coe_sub, sub_self, EReal.coe_zero]
  · rw [if_neg h, if_neg h]
    show (1 : EReal) - ((((0#1 : BitVec 1).toNat : ℝ)) : EReal) = 1
    simp

/-- One entry of the masked exponentials: zero on the diagonal, and off it the exponential of the inner
    product of the two rows divided by the word `0x3DCCCCCD`. -/
theorem masked_exp_apply (x0 x1 : (⟨S4096x1024, .f32⟩ : BufTy).Contents (Elt Ideal)) (i j : Fin 8192) :
    val_main_v23 (F := Ideal) x0 x1 (ix2 i j)
      = if i = j then 0
        else Ideal.exp (Ideal.div
          (∑ k : Fin 1024, val_main_v6 (F := Ideal) x0 x1 (ix2 i k) * val_main_v6 (F := Ideal) x0 x1 (ix2 j k))
          Cert.Spec.Dlit) := by
  rw [val_main_v23_apply, val_main_v19_apply, val_main_v18_apply, val_main_cst_0_apply, val_main_v17_apply,
    val_main_v16_apply, val_main_v15_apply, val_main_v12_apply, val_main_v14_apply, val_main_c_apply,
    val_main_v13_apply, mask_val _ _ (idx2_lt0 (ix2 i j)) (idx2_lt1 (ix2 i j)), Ideal.mulf_def]
  by_cases h : i = j
  · rw [if_pos h, if_pos (congrArg Fin.val h), zero_mul]
  · rw [if_neg h, if_neg (fun e => h (Fin.ext e)), one_mul, val_main_v22_apply, val_main_v21_apply,
      val_main_v20_apply, val_main_cst_1_apply, val_main_v8_apply, Ideal.hostUnary_exp_def, Ideal.hostDivf_def,
      Ideal.ofBits_def]
    unfold Cert.Spec.Dlit
    refine congrArg Ideal.exp (congrArg (fun s => Ideal.div s _) (Finset.sum_congr rfl fun k _ => ?_))
    have el : lidx_main_v8 (ix2 i j) k = ix2 i k :=
      funext fun a => Fin.ext (by match a with | ⟨0, _⟩ => rfl | ⟨1, _⟩ => rfl)
    have er : idx_main_v7 (ridx_main_v8 (ix2 i j) k) = ix2 j k :=
      funext fun a => Fin.ext (by match a with | ⟨0, _⟩ => rfl | ⟨1, _⟩ => rfl)
    rw [val_main_v7_apply, el, er]

/-- THE ROW DENOMINATORS. The reference's row sum of the masked exponentials at row `i` is the
    specification's `denom` of the stacked rows at `i`. -/
theorem denom_stage (x0 x1 : (⟨S4096x1024, .f32⟩ : BufTy).Contents (Elt Ideal)) (i : Fin 8192) :
    val_main_v24 (F := Ideal) x0 x1 (ix1 i)
      = Cert.Spec.denom (fun a k => val_main_v6 (F := Ideal) x0 x1 (ix2 a k)) i := by
  rw [val_main_v24_apply, val_main_cst_2_apply, Ideal.ofBits_def, Ideal.ofBits_zero_f32, zero_add]
  unfold Cert.Spec.denom
  refine Finset.sum_congr rfl fun j _ => ?_
  have e24 : idx_main_v24 (ix1 i) j = ix2 i j :=
    funext fun a => Fin.ext (by match a with | ⟨0, _⟩ => rfl | ⟨1, _⟩ => rfl)
  rw [e24, masked_exp_apply]

end Cert.RefSide
-- ==== Proof.RefUnif.lean ====
import proofs.«109708_j47038481826438_1_alg».proof.Proof.Spec
import proofs.«109708_j47038481826438_1_alg».proof.Proof.Gen.ReferenceIdeal.Read
import Idealize.ShloMosaic.Lib.WordArith

/-! The reference's uniformity of a block of 2048 rows. The stages from the squares of the block's entries
    down to the logarithm, read at the one index of the scalar result, are the specification's `unif` of
    the block. The selection keeps the pairs `i < j` (the bit "row number plus zero is at least the column
    number" chooses `false`, otherwise `true`) and puts the literal zero elsewhere. The reference runs the
    same operations twice, over the first and over the second half of the normalised rows. Nothing is
    assumed finite: every step reads an operation at an index. -/

noncomputable section

namespace Cert.RefSide

open Cert.ReferenceIdeal Cert.ReferenceIdeal.Read Idealize.ShloMosaic Idealize.ShloMosaic.ValueIdx
open scoped BigOperators

/-- The selection bit of the strict upper triangle, for a row and a column below `2048`: the select on
    "row plus zero is at least column" between `false` and `true` is `true` exactly when row < column. -/
theorem upper_bit (a b : Nat) (ha : a < 2048) (hb : b < 2048) :
    Scalar.select (IntOp.cmpi .sge (IntOp.addi (BitVec.ofNat 32 a) 0#32) (BitVec.ofNat 32 b)) 0#1 1#1
      = if a < b then 1#1 else 0#1 := by
  unfold IntOp.cmpi IntOp.addi Scalar.select
  rw [BitVec.add_zero]
  show (if BitVec.ofBool ((BitVec.ofNat 32 b).sle (BitVec.ofNat 32 a)) = 1 then 0#1 else 1#1) = _
  rw [BitVec.sle_eq_decide, WordArith.toInt_ofNat_small a (by omega), WordArith.toInt_ofNat_small b (by omega)]
  by_cases h : a < b
  · rw [if_pos h]
    have : ¬ ((b : Int) ≤ (a : Int)) := by omega
    simp [this]
  · rw [if_neg h]
    have : ((b : Int) ≤ (a : Int)) := by omega
    simp [this]

/-- From the pairs to the uniformity: a family over the square whose entry at `(i, j)` is the pair's term
    sums (from the literal zero) to the specification's double sum, so the logarithm of that sum divided by
    the number of pairs is `unif`. -/
theorem unif_of_pairs (x : Fin 2048 → Fin 1024 → EReal) (f : (⟨2, ![2048, 2048]⟩ : Shape).Idx → EReal)
    (hf : ∀ i j : Fin 2048, f (ix2 i j) =
      if i < j then
        Ideal.exp (Ideal.ofBits .f32 0xC0000000#32 *
          max (((∑ k : Fin 1024, x i k * x i k) + (∑ k : Fin 1024, x j k * x j k))
                - Ideal.ofBits .f32 0x40000000#32 * (∑ k : Fin 1024, x i k * x j k)) 0)
      else 0) :
    Ideal.log (Ideal.div (0 + ∑ p : (⟨2, ![2048, 2048]⟩ : Shape).Idx, f p) (Ideal.ofBits .f32 0x49FFE000#32))
      = Cert.Spec.unif x := by
  unfold Cert.Spec.unif
  rw [zero_add, sum_idx2]
  refine congrArg Ideal.log (congrArg (fun s => Ideal.div s _) ?_)
  exact Finset.sum_congr rfl fun i _ => Finset.sum_congr rfl fun j _ => hf i j

/-! ### The first half: the stages over the rows `0 … 2047` -/

/-- The squared norm of row `i` of the block. -/
theorem sqnormA (x0 : (⟨S4096x1024, .f32⟩ : BufTy).Contents (Elt Ideal)) (i : Fin 2048) :
    val_main_v38 (F := Ideal) x0 (ix1 i)
      = ∑ k : Fin 1024, val_main_v36 (F := Ideal) x0 (ix2 i k) * val_main_v36 (F := Ideal) x0 (ix2 i k) := by
  rw [val_main_v38_apply, val_main_cst_9_apply, Ideal.ofBits_def, Ideal.ofBits_zero_f32, zero_add]
  refine Finset.sum_congr rfl fun k _ => ?_
  have e : idx_main_v38 (ix1 i) k = ix2 i k :=
    funext fun a => Fin.ext (by match a with | ⟨0, _⟩ => rfl | ⟨1, _⟩ => rfl)
  rw [e, val_main_v37_apply, Ideal.mulf_def]

/-- The inner product of rows `i` and `j` of the block. -/
theorem dotA (x0 : (⟨S4096x1024, .f32⟩ : BufTy).Contents (Elt Ideal)) (i j : Fin 2048) :
    val_main_v45 (F := Ideal) x0 (ix2 i j)
      = ∑ k : Fin 1024, val_main_v36 (F := Ideal) x0 (ix2 i k) * val_main_v36 (F := Ideal) x0 (ix2 j k) := by
  rw [val_main_v45_apply]
  refine Finset.sum_congr rfl fun k _ => ?_
  have el : lidx_main_v45 (ix2 i j) k = ix2 i k :=
    funext fun a => Fin.ext (by match a with | ⟨0, _⟩ => rfl | ⟨1, _⟩ => rfl)
  have er : idx_main_v44 (ridx_main_v45 (ix2 i j) k) = ix2 j k :=
    funext fun a => Fin.ext (by match a with | ⟨0, _⟩ => rfl | ⟨1, _⟩ => rfl)
  rw [val_main_v44_apply, el, er]

/-- The clamped squared distance of rows `i` and `j`: the two squared norms added, twice the inner product
    subtracted, the maximum with zero. -/
theorem distA (x0 : (⟨S4096x1024, .f32⟩ : BufTy).Contents (Elt Ideal)) (i j : Fin 2048) :
    val_main_v50 (F := Ideal) x0 (ix2 i j)
      = max (((∑ k : Fin 1024, val_main_v36 (F := Ideal) x0 (ix2 i k) * val_main_v36 (F := Ideal) x0 (ix2 i k))
              + (∑ k : Fin 1024, val_main_v36 (F := Ideal) x0 (ix2 j k) * val_main_v36 (F := Ideal) x0 (ix2 j k)))
            - Ideal.ofBits .f32 0x40000000#32
              * (∑ k : Fin 1024, val_main_v36 (F := Ideal) x0 (ix2 i k) * val_main_v36 (F := Ideal) x0 (ix2 j k))) 0 := by
  have e1 : idx_main_v39 (idx_main_v41 (ix2 i j)) = ix1 i :=
    funext fun a => Fin.ext (by match a with | ⟨0, _⟩ => rfl)
  have e2 : idx_main_v40 (idx_main_v42 (ix2 i j)) = ix1 j :=
    funext fun a => Fin.ext (by match a with | ⟨0, _⟩ => rfl)
  rw [val_main_v50_apply, val_main_v48_apply, val_main_v43_apply, val_main_v41_apply, val_main_v39_apply,
    val_main_v42_apply, val_main_v40_apply, val_main_v47_apply, val_main_v46_apply, val_main_cst_10_apply,
    val_main_v49_apply, val_main_cst_11_apply, e1, e2, sqnormA, sqnormA, dotA]
  simp only [Ideal.maximumf_def, Ideal.subf_def, Ideal.addf_def, Ideal.mulf_def, Ideal.ofBits_def,
    Ideal.ofBits_zero_f32]

/-- One entry of the selected exponentials: the pair's term where `i < j`, the literal zero elsewhere. -/
theorem pairA (x0 : (⟨S4096x1024, .f32⟩ : BufTy).Contents (Elt Ideal)) (i j : Fin 2048) :
    val_main_v56 (F := Ideal) x0 (ix2 i j)
      = if i < j then
          Ideal.exp (Ideal.ofBits .f32 0xC0000000#32 *
            max (((∑ k : Fin 1024, val_main_v36 (F := Ideal) x0 (ix2 i k) * val_main_v36 (F := Ideal) x0 (ix2 i k))
                  + (∑ k : Fin 1024, val_main_v36 (F := Ideal) x0 (ix2 j k) * val_main_v36 (F := Ideal) x0 (ix2 j k)))
                - Ideal.ofBits .f32 0x40000000#32
                  * (∑ k : Fin 1024, val_main_v36 (F := Ideal) x0 (ix2 i k) * val_main_v36 (F := Ideal) x0 (ix2 j k))) 0)
        else 0 := by
  rw [val_main_v56_apply, val_main_v52_apply, val_main_call2_v4_apply, val_main_call2_v2_apply,
    val_main_call2_v0_apply, val_main_call2_v1_apply, val_main_call2_c_apply, val_main_call2_v3_apply,
    val_main_call2_v5_apply, val_main_call2_c_0_apply, val_main_v51_apply, val_main_c_12_apply,
    upper_bit _ _ (idx2_lt0 (ix2 i j)) (idx2_lt1 (ix2 i j))]
  by_cases h : i < j
  · rw [if_pos h, if_pos (show ((ix2 i j) 0).val < ((ix2 i j) 1).val from h), select_one, val_main_v55_apply,
      val_main_v54_apply, val_main_v53_apply, val_main_cst_13_apply, distA, Ideal.hostUnary_exp_def,
      Ideal.mulf_def, Ideal.ofBits_def]
  · rw [if_neg h, if_neg (show ¬ ((ix2 i j) 0).val < ((ix2 i j) 1).val from h), select_zero,
      val_main_call3_v1_apply, val_main_call3_v0_apply, val_main_cst_14_apply, Ideal.ofBits_def,
      Ideal.ofBits_zero_f32]

/-- THE UNIFORMITY OF THE FIRST HALF. The reference's scalar `log (sum / pairs)` over the first 2048
    normalised rows is the specification's `unif` of that block. -/
theorem unif_stageA (x0 : (⟨S4096x1024, .f32⟩ : BufTy).Contents (Elt Ideal)) :
    val_main_v59 (F := Ideal) x0 ix0
      = Cert.Spec.unif (fun a k => val_main_v36 (F := Ideal) x0 (ix2 a k)) := by
  rw [val_main_v59_apply, val_main_v58_apply, val_main_v57_apply, val_main_cst_16_apply, val_main_cst_15_apply,
    Ideal.hostUnary_log_def, Ideal.hostDivf_def, Ideal.ofBits_def, Ideal.ofBits_def, Ideal.ofBits_zero_f32]
  exact unif_of_pairs _ _ (pairA x0)

/-! ### The second half: the same operations over the rows `2048 … 4095` -/

/-- The squared norm of row `i` of the block. -/
theorem sqnormB (x0 : (⟨S4096x1024, .f32⟩ : BufTy).Contents (Elt Ideal)) (i : Fin 2048) :
    val_main_v62 (F := Ideal) x0 (ix1 i)
      = ∑ k : Fin 1024, val_main_v60 (F := Ideal) x0 (ix2 i k) * val_main_v60 (F := Ideal) x0 (ix2 i k) := by
  rw [val_main_v62_apply, val_main_cst_17_apply, Ideal.ofBits_def, Ideal.ofBits_zero_f32, zero_add]
  refine Finset.sum_congr rfl fun k _ => ?_
  have e : idx_main_v62 (ix1 i) k = ix2 i k :=
    funext fun a => Fin.ext (by match a with | ⟨0, _⟩ => rfl | ⟨1, _⟩ => rfl)
  rw [e, val_main_v61_apply, Ideal.mulf_def]

/-- The inner product of rows `i` and `j` of the block. -/
theorem dotB (x0 : (⟨S4096x1024, .f32⟩ : BufTy).Contents (Elt Ideal)) (i j : Fin 2048) :
    val_main_v69 (F := Ideal) x0 (ix2 i j)
      = ∑ k : Fin 1024, val_main_v60 (F := Ideal) x0 (ix2 i k) * val_main_v60 (F := Ideal) x0 (ix2 j k) := by
  rw [val_main_v69_apply]
  refine Finset.sum_congr rfl fun k _ => ?_
  have el : lidx_main_v69 (ix2 i j) k = ix2 i k :=
    funext fun a => Fin.ext (by match a with | ⟨0, _⟩ => rfl | ⟨1, _⟩ => rfl)
  have er : idx_main_v68 (ridx_main_v69 (ix2 i j) k) = ix2 j k :=
    funext fun a => Fin.ext (by match a with | ⟨0, _⟩ => rfl | ⟨1, _⟩ => rfl)
  rw [val_main_v68_apply, el, er]

/-- The clamped squared distance of rows `i` and `j`: the two squared norms added, twice the inner product
    subtracted, the maximum with zero. -/
theorem distB (x0 : (⟨S4096x1024, .f32⟩ : BufTy).Contents (Elt Ideal)) (i j : Fin 2048) :
    val_main_v74 (F := Ideal) x0 (ix2 i j)
      = max (((∑ k : Fin 1024, val_main_v60 (F := Ideal) x0 (ix2 i k) * val_main_v60 (F := Ideal) x0 (ix2 i k))
              + (∑ k : Fin 1024, val_main_v60 (F := Ideal) x0 (ix2 j k) * val_main_v60 (F := Ideal) x0 (ix2 j k)))
            - Ideal.ofBits .f32 0x40000000#32
              * (∑ k : Fin 1024, val_main_v60 (F := Ideal) x0 (ix2 i k) * val_main_v60 (F := Ideal) x0 (ix2 j k))) 0 := by
  have e1 : idx_main_v63 (idx_main_v65 (ix2 i j)) = ix1 i :=
    funext fun a => Fin.ext (by match a with | ⟨0, _⟩ => rfl)
  have e2 : idx_main_v64 (idx_main_v66 (ix2 i j)) = ix1 j :=
    funext fun a => Fin.ext (by match a with | ⟨0, _⟩ => rfl)
  rw [val_main_v74_apply, val_main_v72_apply, val_main_v67_apply, val_main_v65_apply, val_main_v63_apply,
    val_main_v66_apply, val_main_v64_apply, val_main_v71_apply, val_main_v70_apply, val_main_cst_18_apply,
    val_main_v73_apply, val_main_cst_19_apply, e1, e2, sqnormB, sqnormB, dotB]
  simp only [Ideal.maximumf_def, Ideal.subf_def, Ideal.addf_def, Ideal.mulf_def, Ideal.ofBits_def,
    Ideal.ofBits_zero_f32]

/-- One entry of the selected exponentials: the pair's term where `i < j`, the literal zero elsewhere. -/
theorem pairB (x0 : (⟨S4096x1024, .f32⟩ : BufTy).Contents (Elt Ideal)) (i j : Fin 2048) :
    val_main_v80 (F := Ideal) x0 (ix2 i j)
      = if i < j then
          Ideal.exp (Ideal.ofBits .f32 0xC0000000#32 *
            max (((∑ k : Fin 1024, val_main_v60 (F := Ideal) x0 (ix2 i k) * val_main_v60 (F := Ideal) x0 (ix2 i k))
                  + (∑ k : Fin 1024, val_main_v60 (F := Ideal) x0 (ix2 j k) * val_main_v60 (F := Ideal) x0 (ix2 j k)))
                - Ideal.ofBits .f32 0x40000000#32
                  * (∑ k : Fin 1024, val_main_v60 (F := Ideal) x0 (ix2 i k) * val_main_v60 (F := Ideal) x0 (ix2 j k))) 0)
        else 0 := by
  rw [val_main_v80_apply, val_main_v76_apply, val_main_call4_v4_apply, val_main_call4_v2_apply,
    val_main_call4_v0_apply, val_main_call4_v1_apply, val_main_call4_c_apply, val_main_call4_v3_apply,
    val_main_call4_v5_apply, val_main_call4_c_0_apply, val_main_v75_apply, val_main_c_20_apply,
    upper_bit _ _ (idx2_lt0 (ix2 i j)) (idx2_lt1 (ix2 i j))]
  by_cases h : i < j
  · rw [if_pos h, if_pos (show ((ix2 i j) 0).val < ((ix2 i j) 1).val from h), select_one, val_main_v79_apply,
      val_main_v78_apply, val_main_v77_apply, val_main_cst_21_apply, distB, Ideal.hostUnary_exp_def,
      Ideal.mulf_def, Ideal.ofBits_def]
  · rw [if_neg h, if_neg (show ¬ ((ix2 i j) 0).val < ((ix2 i j) 1).val from h), select_zero,
      val_main_call5_v1_apply, val_main_call5_v0_apply, val_main_cst_22_apply, Ideal.ofBits_def,
      Ideal.ofBits_zero_f32]

/-- THE UNIFORMITY OF THE SECOND HALF. The reference's scalar `log (sum / pairs)` over the last 2048
    normalised rows is the specification's `unif` of that block. -/
theorem unif_stageB (x0 : (⟨S4096x1024, .f32⟩ : BufTy).Contents (Elt Ideal)) :
    val_main_v83 (F := Ideal) x0 ix0
      = Cert.Spec.unif (fun a k => val_main_v60 (F := Ideal) x0 (ix2 a k)) := by
  rw [val_main_v83_apply, val_main_v82_apply, val_main_v81_apply, val_main_cst_24_apply, val_main_cst_23_apply,
    Ideal.hostUnary_log_def, Ideal.hostDivf_def, Ideal.ofBits_def, Ideal.ofBits_def, Ideal.ofBits_zero_f32]
  exact unif_of_pairs _ _ (pairB x0)

end Cert.RefSide
-- ==== Proof.RefRun.lean ====
import proofs.«109708_j47038481826438_1_alg».proof.Proof.Gen.ReferenceIdeal.Read

/-! The reference's run with each of its three results stated as the last stage of its chain of operations,
    a function of the two argument arrays as launched, and the two argument arrays unchanged. -/

noncomputable section

namespace Cert.RefSide

open Idealize.ShloMosaic Idealize.SL.Sem Cert.ReferenceIdeal.Read

/-- THE REFERENCE'S RUN OVER ITS STAGES. From any memory with zero counters every weakly fair execution of the
    reference terminates without a fault; on every device the three results hold the stages of the operations
    that return them, read at the launch contents of the two arguments, and the two arguments are as launched. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal))
      (onTc (τ := Cert.ReferenceIdeal.τ) (Cert.ReferenceIdeal.main (F := Ideal))) ⟨m', fun _ => 0, ρ'⟩
      (fun r => ∀ c : Dev Cert.ReferenceIdeal.nD,
          r.2.mem ((c.tc : Thread Cert.ReferenceIdeal.nD Cert.ReferenceIdeal.τ).loc Cert.ReferenceIdeal.main_v30)
            = val_main_v30 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_v35)
            = val_main_v35 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_v85)
            = val_main_v85 (F := Ideal) (m' ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (val_main_v30_eq (F := Ideal) m' c),
      (h c).2.1.trans (val_main_v35_eq (F := Ideal) _ _),
      (h c).2.2.1.trans (val_main_v85_eq (F := Ideal) m' c),
      (h c).2.2.2.1, (h c).2.2.2.2⟩)
    (Cert.ReferenceIdeal.Value.run (F := Ideal) m' ρ')

end Cert.RefSide
-- ==== Proof.Algebraic.lean ====
import proofs.«109708_j47038481826438_1_alg».proof.Proof.Assemble
import proofs.«109708_j47038481826438_1_alg».proof.Proof.HostTail
import proofs.«109708_j47038481826438_1_alg».proof.Proof.HostLayout
import proofs.«109708_j47038481826438_1_alg».proof.Proof.Value0
import proofs.«109708_j47038481826438_1_alg».proof.Proof.Value1
import proofs.«109708_j47038481826438_1_alg».proof.Proof.Value1Bridge
import proofs.«109708_j47038481826438_1_alg».proof.Proof.RefDenom
import proofs.«109708_j47038481826438_1_alg».proof.Proof.RefUnif
import proofs.«109708_j47038481826438_1_alg».proof.Proof.RefRun

/-! The bridge. At the extended reals the kernel's three results are the reference's: the two regions' written arrays are
    the reference's row denominators and its two uniformity scalars (the regions' value legs against the reference's
    stages, through the shared specification), and the host operations around them are the reference's own. -/

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand
open Cert.ReferenceIdeal.Read

variable (m : (ℓ : Loc nD τ sig) → Buf (Elt Ideal) ℓ) (c : Dev nD)

/-- Region 0 leaves in its written array the reference's row denominators: entry `i` is the sum over the other rows of
    the exponentials of the scaled inner products, the kernel's block-by-block accumulation regrouped, its product with
    the named constant the reference's quotient. -/
theorem out0_eq (i : Fin 8192) :
    outsI (F := Ideal) m 5 main_v8 c (ix1 i)
      = val_main_v24 (F := Ideal) (m ((c.tc : Thread nD τ).loc main_arg0)) (m ((c.tc : Thread nD τ).loc main_arg1)) (ix1 i) := by
  rw [outsI_v8]
  refine (Cert.Value0.final (Vr4 m) c (Hand0.sAfter0 (Vr4 m) c) (Hand0.sAfter0_reset (Vr4 m) c) (Hand0.sAfter0_acc (Vr4 m) c)
    (Hand0.dat0 (Vr4 m) c) (fun t _ => Hand0.after0_2 (Vr4 m) c t) i).trans ?_
  rw [Cert.RefSide.denom_stage]
  exact congrArg (fun z : S8192x1024.Idx → EReal => Cert.Spec.denom (fun a k => z (ix2 a k)) i) (Cert.HostSide.Z7 m c)

/-- Region 1 leaves in its written array the reference's two uniformity scalars, one per half. -/
theorem out1_eq0 : outsI (F := Ideal) m 7 main_v29 c (ix1 (0 : Fin 2)) = val_main_v59 (F := Ideal) (m ((c.tc : Thread nD τ).loc main_arg0)) ix0 := by
  rw [outsI_v29]
  refine (Cert.Value1.arrAt_unif (Vr6 m) c 0).trans ?_
  rw [Cert.RefSide.unif_stageA]
  refine Cert.Value1.unif_congr _ _ fun a k => ?_
  unfold Cert.Value1.rowsOf
  exact (Cert.HostSide.Z28 m c (outsA m) 0 a k).trans (if_pos rfl)

theorem out1_eq1 : outsI (F := Ideal) m 7 main_v29 c (ix1 (1 : Fin 2)) = val_main_v83 (F := Ideal) (m ((c.tc : Thread nD τ).loc main_arg0)) ix0 := by
  rw [outsI_v29]
  refine (Cert.Value1.arrAt_unif (Vr6 m) c 1).trans ?_
  rw [Cert.RefSide.unif_stageB]
  refine Cert.Value1.unif_congr _ _ fun a k => ?_
  unfold Cert.Value1.rowsOf
  exact (Cert.HostSide.Z28 m c (outsA m) 1 a k).trans (if_neg (by decide))

/-- The kernel's three results, read at the last valuation, are the reference's three last stages of the same arguments. -/
theorem res0 : V8 m (outsI m) c main_v17 = val_main_v30 (F := Ideal) (m ((c.tc : Thread nD τ).loc main_arg0)) (m ((c.tc : Thread nD τ).loc main_arg1)) :=
  Cert.HostSide.K17 m (outsI m) c (out0_eq m c)
theorem res1 : V8 m (outsI m) c main_v22 = val_main_v35 (F := Ideal) (m ((c.tc : Thread nD τ).loc main_arg0)) (m ((c.tc : Thread nD τ).loc main_arg1)) :=
  Cert.HostSide.K22 m (outsI m) c
theorem res2 : V8 m (outsI m) c main_v35 = val_main_v85 (F := Ideal) (m ((c.tc : Thread nD τ).loc main_arg0)) :=
  Cert.HostSide.K35 m (outsI m) c (out1_eq0 m c) (out1_eq1 m c)

end Cert.Proof.Bridge

end
-- ==== Proof.lean ====
/- The two programs compute three scalars from two arrays of 4096 rows: with z the rows divided by their Euclidean
   norms (z₁ from the first array, z₂ from the second, Z their concatenation, 8192 rows),
     loss   = (Σ_i (log(Σ_{j ≠ i} exp(⟨Z_i, Z_j⟩ / D)) − ⟨z₁,z₂⟩_{i mod 4096} / D)) / 8192,
     lalign = (Σ_r ‖z₁_r − z₂_r‖²) / 4096,
     lunif  = (U(first 2048 rows of z₁) + U(last 2048 rows of z₁)) / 2,
       U(x) = log((Σ_{i<j} exp(−2 · max(‖x_i‖² + ‖x_j‖² − 2⟨x_i,x_j⟩, 0))) / 2096128),
   where D is the real number the binary32 word of 0.1 denotes, 13421773 / 2^27.
   The reference divides the similarities by D. The kernel's first region multiplies them by the named constant
   "inv_temperature", which the certificate's table reads as 2^27 / 13421773 = 1 / D, so that x · κ = x / D for every
   extended real x; the diagonal is removed by a select where the reference multiplies by 1 − δ_ij (0 · e = 0 and
   1 · e = e for every extended real e); the row sums are accumulated over eight column blocks, and U's double sum over
   sixteen blocks, where the reference sums once: regroupings of finite sums in a commutative monoid. No step needs the
   inputs finite.
   The kernel's run is the library's launch of @main's eight items (four host stretches, region 0, a stretch, region 1, a
   stretch): each region a record whose proof data names, point by point, what its scratch accumulator holds; the array
   both input windows of a region read is split between them at the entry and joined at the exit. The same text, read at
   the word-level instance, is the word-level kernel's frame. -/
import proofs.«109708_j47038481826438_1_alg».proof.Defs
import proofs.«109708_j47038481826438_1_alg».proof.Proof.Gen.Kernel
import proofs.«109708_j47038481826438_1_alg».proof.Proof.Gen.KernelIdeal
import proofs.«109708_j47038481826438_1_alg».proof.Proof.Gen.ReferenceIdeal
import proofs.«109708_j47038481826438_1_alg».proof.Proof.Gen.Pre_finite_inputs
import proofs.«109708_j47038481826438_1_alg».proof.Proof.Gen.ReferenceIdeal.Run
import proofs.«109708_j47038481826438_1_alg».proof.Proof.Gen.ReferenceIdeal.Read
import proofs.«109708_j47038481826438_1_alg».proof.Proof.AssembleBits
import proofs.«109708_j47038481826438_1_alg».proof.Proof.Algebraic
import Idealize.ShloMosaic.Adequacy
import Idealize.ShloMosaic.Init

noncomputable section

namespace Cert.Proof

open Idealize.ShloMosaic Idealize.ShloMosaic.TcCoe Idealize.SL.Sem

/-- The word-level kernel terminates, faults nowhere and ends with its two argument arrays as launched. -/
theorem frame_k [Cert.Kernel.Facts] [Cert.Pre_finite_inputs.Facts] : Cert.frame_Kernel := fun m ρ _ =>
  Cert.Kernel.Hand.frame (F := Bits) m ρ

/-- So does the idealized kernel. -/
theorem frame_ki [Cert.KernelIdeal.Facts] [Cert.Pre_finite_inputs.Facts] : Cert.frame_KernelIdeal := fun m ρ _ =>
  Cert.KernelIdeal.Hand.frame (F := Ideal) m ρ

/-- The reference terminates, faults nowhere and ends with its two argument arrays as launched: its run, read back with
    every result named, with the results dropped. -/
theorem frame_ri [Cert.ReferenceIdeal.Facts] [Cert.Pre_finite_inputs.Facts] : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The ledger's one entry: the table gives "inv_temperature" the value 2^27 / 13421773, and the printed constant is that
    value at the extended reals. -/
theorem preserves : Cert.preserves_Kernel_KernelIdeal :=
  IdealRules.named_const.statement Cert.KernelIdeal.κ "inv_temperature" .f32 0x41200000#32 ((134217728 / 13421773 : ℝ) : EReal) rfl

/-- From memories agreeing on the two arguments both idealized programs run, and their three results are equal: each is
    the reference's last stage of the arguments — the kernel's by the bridge, the reference's by its run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.V8 m (Cert.KernelIdeal.Hand.outsI m) c Cert.KernelIdeal.main_v17,
    fun c => Cert.KernelIdeal.Gen.V8 m (Cert.KernelIdeal.Hand.outsI m) c Cert.KernelIdeal.main_v22,
    fun c => Cert.KernelIdeal.Gen.V8 m (Cert.KernelIdeal.Hand.outsI m) c Cert.KernelIdeal.main_v35, ?_, ?_⟩
  · exact (θ_run Cert.KernelIdeal.defs _ _).mono (fun _ h c =>
      ⟨h c _ (Cert.KernelIdeal.Hand.mem_uc Cert.KernelIdeal.main_v17 (by decide)),
       h c _ (Cert.KernelIdeal.Hand.mem_uc Cert.KernelIdeal.main_v22 (by decide)),
       h c _ (Cert.KernelIdeal.Hand.mem_uc Cert.KernelIdeal.main_v35 (by decide)),
       (h c _ (Cert.KernelIdeal.Hand.mem_uc Cert.KernelIdeal.main_arg0 (by decide))).trans (Cert.KernelIdeal.Gen.V8_main_arg0 m _ c),
       (h c _ (Cert.KernelIdeal.Hand.mem_uc Cert.KernelIdeal.main_arg1 (by decide))).trans (Cert.KernelIdeal.Gen.V8_main_arg1 m _ c)⟩)
      (Cert.KernelIdeal.Hand.kernel_run (F := Ideal) m ρ)
  · refine (θ_run Cert.ReferenceIdeal.defs _ _).mono (fun _ h c => ⟨?_, ?_, ?_, (h c).2.2.2.1, (h c).2.2.2.2⟩)
      (Cert.RefSide.ref_run m' ρ')
    · rw [(h c).1, (hagree c).1, (hagree c).2]; exact (Cert.Proof.Bridge.res0 m c).symm
    · rw [(h c).2.1, (hagree c).1, (hagree c).2]; exact (Cert.Proof.Bridge.res1 m c).symm
    · rw [(h c).2.2.1, (hagree c).1]; exact (Cert.Proof.Bridge.res2 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
